-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 82
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S100000x128, .f32⟩
  | .hbm, ⟨64, _⟩ => ⟨S100000x64, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x64, .f32⟩
  | .hbm, ⟨74, _⟩ => ⟨S1700000x1, .f32⟩
  | .hbm, ⟨75, _⟩ => ⟨S1700000x64, .f32⟩
  | .hbm, ⟨76, _⟩ => ⟨S1700000x64, .f32⟩
  | .hbm, ⟨77, _⟩ => ⟨S_, .f32⟩
  | .hbm, ⟨78, _⟩ => ⟨S100000x64, .f32⟩
  | .hbm, ⟨79, _⟩ => ⟨S1700000x1, .i32⟩
  | .hbm, ⟨80, _⟩ => ⟨S100000x64, .f32⟩
  | .hbm, ⟨81, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S64, .f32⟩
  | .local _ .vmem, ⟨18, _⟩ => ⟨S5000x64, .f32⟩
  | .local _ .vmem, ⟨19, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 125
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x128, .f32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S100000, .i32⟩
  | .hbm, ⟨71, _⟩ => ⟨S1700000, .i32⟩
  | .hbm, ⟨72, _⟩ => ⟨S1700000, .i32⟩
  | .hbm, ⟨73, _⟩ => ⟨S_, .f32⟩
  | .hbm, ⟨74, _⟩ => ⟨S1700000, .f32⟩
  | .hbm, ⟨75, _⟩ => ⟨S_, .f32⟩
  | .hbm, ⟨76, _⟩ => ⟨S100000, .f32⟩
  | .hbm, ⟨77, _⟩ => ⟨S1700000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000, .f32⟩
  | .hbm, ⟨96, _⟩ => ⟨S_, .i32⟩
  | .hbm, ⟨97, _⟩ => ⟨S1700000, .i32⟩
  | .hbm, ⟨98, _⟩ => ⟨S1700000, .i1⟩
  | .hbm, ⟨99, _⟩ => ⟨S_, .i32⟩
  | .hbm, ⟨100, _⟩ => ⟨S1700000, .i32⟩
  | .hbm, ⟨101, _⟩ => ⟨S1700000, .i32⟩
  | .hbm, ⟨102, _⟩ => ⟨S1700000, .i32⟩
  | .hbm, ⟨103, _⟩ => ⟨S1700000x1, .i32⟩
  | .hbm, ⟨104, _⟩ => ⟨S1700000, .f32⟩
  | .hbm, ⟨105, _⟩ => ⟨S1700000, .f32⟩
  | .hbm, ⟨106, _⟩ => ⟨S_, .i32⟩
  | .hbm, ⟨107, _⟩ => ⟨S1700000, .i32⟩
  | .hbm, ⟨108, _⟩ => ⟨S1700000, .i1⟩
  | .hbm, ⟨109, _⟩ => ⟨S_, .i32⟩
  | .hbm, ⟨110, _⟩ => ⟨S1700000, .i32⟩
  | .hbm, ⟨111, _⟩ => ⟨S1700000, .i32⟩
  | .hbm, ⟨112, _⟩ => ⟨S1700000, .i32⟩
  | .hbm, ⟨113, _⟩ => ⟨S1700000x1, .i32⟩
  | .hbm, ⟨114, _⟩ => ⟨S1700000x64, .f32⟩
  | .hbm, ⟨115, _⟩ => ⟨S1700000x1, .f32⟩
  | .hbm, ⟨116, _⟩ => ⟨S1700000x64, .f32⟩
  | .hbm, ⟨117, _⟩ => ⟨S1700000x64, .f32⟩
  | .hbm, ⟨118, _⟩ => ⟨S_, .f32⟩
  | .hbm, ⟨119, _⟩ => ⟨S100000x64, .f32⟩
  | .hbm, ⟨120, _⟩ => ⟨S1700000x1, .i32⟩
  | .hbm, ⟨121, _⟩ => ⟨S100000x64, .f32⟩
  | .hbm, ⟨122, _⟩ => ⟨S1x64, .f32⟩
  | .hbm, ⟨123, _⟩ => ⟨S100000x64, .f32⟩
  | .hbm, ⟨124, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KRun.lean ====
/-
  The idealized kernel program's run with its result named: every weakly fair execution of @main terminates,
  nothing faulting, with the result buffer at the contents the last region leaves (the fold of the host stretches
  and the four regions' write-backs from the launch memory) and the argument arrays as launched. The run is the
  one the frame is proved with: the same segments, the final thread state read at the result buffer as well.
-/
import proofs.«177499_j80023830659516_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read off the last thread state beside the arguments. -/
theorem run_result : θ_run defs (onTc (τ := τ) (main (F := F))) ⟨m, fun _ => 0, ρ⟩ (fun r => ∀ c : Dev nD,
      r.2.mem ((c.tc : Thread nD τ).loc main_v59) = W9 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v59 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Run

end
-- ==== Proof.Spec.lean ====
/-
  The two-layer graph convolution both programs compute, written once as whole-array functions at the ideal
  instance (a float is an extended real, every operation exact).

  From the edge list `e : i32[2, 1600000]` both programs form the source and destination words of 1,700,000 edges
  (the given edges followed by one self loop per node), the in-degree of every node as a scatter-add of ones,
  its inverse square root where the degree is positive and zero elsewhere, and per edge the product of that
  number at the edge's two ends (`edgeNorm`). One layer multiplies the node features by a weight matrix
  (`mm128`, `mm64`: entry (r, q) is the sum over k of x(r, k) · w(k, q)), gathers the product's rows at the edges'
  sources, scales each by the edge's norm, adds the rows up at the edges' destinations (`agg128`, `agg64`) and
  adds the bias to every row (`biasRelu` also takes the maximum with zero; `bias64` does not).
  The gather, the scatter-add and the index arithmetic are kept as the operations themselves: both programs
  apply the same ones to the same operands, so nothing about them is needed beyond their being functions.
-/
import proofs.«177499_j80023830659516_1_alg».proof.KernelIdeal
import Idealize.ShloMosaic.PureOps.Ideal
import Idealize.ShloMosaic.Lib.ValueIdx

noncomputable section

open scoped BigOperators
open Idealize.ShloMosaic Idealize.ShloMosaic.ValueIdx

namespace Cert.Gcn

open Cert.KernelIdeal Cert.KernelIdeal.Facts₀

variable [Cert.KernelIdeal.Facts₀]

/-- The sources of the 1,700,000 edges: row 0 of the edge list, then every node once. -/
def srcIdx (e : IVec S2x1600000 32) : IVec S1700000 32 :=
  concatenate S1700000 0 [⟨S1600000, shapeCast S1600000 (extractStridedSlice S1x1600000 ![0, 0] e slices_S2x1600000_S1x1600000_0_0) shapeCasts_S1x1600000_S1600000⟩, ⟨S100000, iotaInDim S100000 32 0⟩] concatenates_S1600000_S100000_S1700000_d0

/-- The destinations: row 1 of the edge list, then every node once. -/
def dstIdx (e : IVec S2x1600000 32) : IVec S1700000 32 :=
  concatenate S1700000 0 [⟨S1600000, shapeCast S1600000 (extractStridedSlice S1x1600000 ![1, 0] e slices_S2x1600000_S1x1600000_1_0) shapeCasts_S1x1600000_S1600000⟩, ⟨S100000, iotaInDim S100000 32 0⟩] concatenates_S1600000_S100000_S1700000_d0

/-- A negative word counts from the end: 100000 is added to it. -/
def wrapIdx (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v

/-- A vector of 1,700,000 entries as a column. -/
def col {α : Type} (v : S1700000.Idx → α) : S1700000x1.Idx → α :=
  broadcastInDim S1700000x1 ![0] bcast_S1700000_S1700000x1_0 v

/-- The in-degree of every node, self loop included: ones added up at the destinations. -/
def degOf (e : IVec S2x1600000 32) : FVec Ideal S100000 .f32 :=
  Host.scatterAdd scatter_S100000_S1700000x1_S1700000_n_0_0_1
    (broadcastInDim S100000 ![] bcast_S_S100000 (constant (F := Ideal) S_ .f32 0x00000000#32))
    (col (dstIdx e))
    (broadcastInDim S1700000 ![] bcast_S_S1700000 (constant (F := Ideal) S_ .f32 0x3F800000#32))

/-- deg^(-1/2) where the degree is positive, zero elsewhere. -/
def dinvOf (e : IVec S2x1600000 32) : FVec Ideal S100000 .f32 :=
  select (cmpf .ogt (degOf e) (broadcastInDim S100000 ![] bcast_S_S100000 (constant (F := Ideal) S_ .f32 0x00000000#32)))
    (Host.rsqrt (degOf e))
    (broadcastInDim S100000 ![] bcast_S_S100000 (constant (F := Ideal) S_ .f32 0x00000000#32))

/-- Per edge: dinv at its source times dinv at its destination. -/
def edgeNorm (e : IVec S2x1600000 32) : FVec Ideal S1700000 .f32 :=
  mulf (Host.gather gather_S100000_S1700000x1_S1700000_n_0_n_n_0_1_1 (dinvOf e) (col (wrapIdx (srcIdx e))))
    (Host.gather gather_S100000_S1700000x1_S1700000_n_0_n_n_0_1_1 (dinvOf e) (col (wrapIdx (dstIdx e))))

/-- The rows of `h` at the edges' sources, each scaled by its edge's norm, added up at the destinations (width 128). -/
def agg128 (h : FVec Ideal S100000x128 .f32) (e : IVec S2x1600000 32) :
    FVec Ideal S100000x128 .f32 :=
  Host.scatterAdd scatter_S100000x128_S1700000x1_S1700000x128_1_0_0_1
    (broadcastInDim S100000x128 ![] bcast_S_S100000x128 (constant (F := Ideal) S_ .f32 0x00000000#32))
    (col (dstIdx e))
    (mulf (Host.gather gather_S100000x128_S1700000x1_S1700000x128_1_0_n_n_0_1_1128 h (col (wrapIdx (srcIdx e))))
      (broadcastInDim S1700000x128 ![0, 1] bcast_S1700000x1_S1700000x128_0_1 (col (edgeNorm e))))

/-- The same at width 64. -/
def agg64 (h : FVec Ideal S100000x64 .f32) (e : IVec S2x1600000 32) :
    FVec Ideal S100000x64 .f32 :=
  Host.scatterAdd scatter_S100000x64_S1700000x1_S1700000x64_1_0_0_1
    (broadcastInDim S100000x64 ![] bcast_S_S100000x64 (constant (F := Ideal) S_ .f32 0x00000000#32))
    (col (dstIdx e))
    (mulf (Host.gather gather_S100000x64_S1700000x1_S1700000x64_1_0_n_n_0_1_164 h (col (wrapIdx (srcIdx e))))
      (broadcastInDim S1700000x64 ![0, 1] bcast_S1700000x1_S1700000x64_0_1 (col (edgeNorm e))))

/-- x · w for x : [100000, 128], w : [128, 128]: entry (r, q) is Σ_k x(r, k) · w(k, q). -/
def mm128 (x : FVec Ideal S100000x128 .f32) (w : FVec Ideal S128x128 .f32) : FVec Ideal S100000x128 .f32 :=
  fun i => ∑ k : Fin 128, x (ix2 (n0 := 100000) (n1 := 128) (i 0) k) * w (ix2 (n0 := 128) (n1 := 128) k (i 1))

/-- x · w for x : [100000, 128], w : [128, 64]. -/
def mm64 (x : FVec Ideal S100000x128 .f32) (w : FVec Ideal S128x64 .f32) : FVec Ideal S100000x64 .f32 :=
  fun i => ∑ k : Fin 128, x (ix2 (n0 := 100000) (n1 := 128) (i 0) k) * w (ix2 (n0 := 128) (n1 := 64) k (i 1))

/-- max (a + b, 0) with b added to every row. -/
def biasRelu (a : FVec Ideal S100000x128 .f32) (b : FVec Ideal S128 .f32) : FVec Ideal S100000x128 .f32 :=
  fun i => max (a i + b (ix1 (n := 128) (i 1))) (Ideal.ofBits .f32 0x00000000#32)

/-- a + b with b added to every row. -/
def bias64 (a : FVec Ideal S100000x64 .f32) (b : FVec Ideal S64 .f32) : FVec Ideal S100000x64 .f32 :=
  fun i => a i + b (ix1 (n := 64) (i 1))

/-- The network: two graph-convolution layers, the first followed by max(·, 0). -/
def net (x : FVec Ideal S100000x128 .f32) (e : IVec S2x1600000 32)
    (w1 : FVec Ideal S128x128 .f32) (b1 : FVec Ideal S128 .f32) (w2 : FVec Ideal S128x64 .f32) (b2 : FVec Ideal S64 .f32) :
    FVec Ideal S100000x64 .f32 :=
  bias64 (agg64 (mm64 (biasRelu (agg128 (mm128 x w1) e) b1) w2) e) b2

end Cert.Gcn

end
-- ==== Proof.LibPlainDot.lean ====
/-
  The rows-times-columns matrix product `[M, K] × [K, N] → [M, N]` (the left operand contracted on its axis 1, the
  right one on its axis 0, no batch axis) read at an index, at the ideal instance where a float is an extended
  real: entry `(r, c)` is `∑ k, lhs (r, k) * rhs (k, c)`.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.Proof.PlainDot

/-- The product's dimension numbers; their conditions `wf` are decided on a program's literal shapes. -/
abbrev plainDot (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section Index
variable {M K N : Nat} (wf : DotDims.WF ⟨2, ![M, K]⟩ ⟨2, ![K, N]⟩ ⟨2, ![M, N]⟩ [1] [0] [0] [1] [] [])

/-- The contraction index set is the one coordinate range `Fin K`. -/
abbrev contrEquiv : (plainDot M K N wf).contr.Idx ≃ Fin K := contrEquiv1 (plainDot M K N wf) K rfl rfl

/-- At result index `(r, c)` and contraction coordinate `k` the left operand is read at `(r, k)` … -/
theorem lhsIdx_eq (r : Fin M) (c : Fin N) (k : Fin K) :
    (plainDot M K N wf).lhsIdx (ix2 r c) ((contrEquiv wf).symm k) = ix2 r k := by
  funext a
  refine Fin.ext ?_
  match a with
  | ⟨0, _⟩ => rfl
  | ⟨1, _⟩ => rfl

/-- … and the right operand at `(k, c)`. -/
theorem rhsIdx_eq (r : Fin M) (c : Fin N) (k : Fin K) :
    (plainDot M K N wf).rhsIdx (ix2 r c) ((contrEquiv wf).symm k) = ix2 k c := by
  funext a
  refine Fin.ext ?_
  match a with
  | ⟨0, _⟩ => rfl
  | ⟨1, _⟩ => rfl

/-- THE CONTRACTION'S SUM over the contraction index set is the sum over `k : Fin K` of `lhs (r, k) * rhs (k, c)`. -/
theorem contr_sum (lhs : (⟨2, ![M, K]⟩ : Shape).Idx → EReal) (rhs : (⟨2, ![K, N]⟩ : Shape).Idx → EReal)
    (r : Fin M) (c : Fin N) :
    (∑ k : (plainDot M K N wf).contr.Idx,
        lhs ((plainDot M K N wf).lhsIdx (ix2 r c) k) * rhs ((plainDot M K N wf).rhsIdx (ix2 r c) k)) =
      ∑ k : Fin K, lhs (ix2 r k) * rhs (ix2 k c) := by
  rw [← Equiv.sum_comp (contrEquiv wf).symm]
  refine Finset.sum_congr rfl fun k _ => ?_
  rw [lhsIdx_eq, rhsIdx_eq]

end Index

section Apply
variable {M K N : Nat} {φ₁ φ₂ : FTy} (wf : DotDims.WF ⟨2, ![M, K]⟩ ⟨2, ![K, N]⟩ ⟨2, ![M, N]⟩ [1] [0] [0] [1] [] [])
  (prec : Option ContractPrecision) (lhs : FVec Ideal ⟨2, ![M, K]⟩ φ₁) (rhs : FVec Ideal ⟨2, ![K, N]⟩ φ₂)

/-- A matrix-unit product onto any accumulator, read at `(r, c)`: the accumulator there plus the sum. -/
theorem matmul_plain_apply (acc : FVec Ideal ⟨2, ![M, N]⟩ .f32) (r : Fin M) (c : Fin N) :
    FloatOps.matmul (plainDot M K N wf) prec lhs rhs acc (ix2 r c) = acc (ix2 r c) + ∑ k : Fin K, lhs (ix2 r k) * rhs (ix2 k c) := by
  rw [Ideal.matmul_apply, contr_sum]

/-- Onto the zero splat, read at `(r, c)`: the sum. -/
theorem matmul_zero_plain_apply (r : Fin M) (c : Fin N) :
    FloatOps.matmul (plainDot M K N wf) prec lhs rhs (constant ⟨2, ![M, N]⟩ .f32 0x00000000#32) (ix2 r c) =
      ∑ k : Fin K, lhs (ix2 r k) * rhs (ix2 k c) := by
  rw [Ideal.matmul_constant_zero_apply, contr_sum]

/-- The same two in the spelling a kernel body prints (`matmul d prec lhs rhs acc`). -/
theorem matmul_plain_apply' (acc : FVec Ideal ⟨2, ![M, N]⟩ .f32) (r : Fin M) (c : Fin N) :
    matmul (F := Ideal) (plainDot M K N wf) prec lhs rhs acc (ix2 r c) = acc (ix2 r c) + ∑ k : Fin K, lhs (ix2 r k) * rhs (ix2 k c) :=
  matmul_plain_apply wf prec lhs rhs acc r c
theorem matmul_zero_plain_apply' (r : Fin M) (c : Fin N) :
    matmul (F := Ideal) (plainDot M K N wf) prec lhs rhs (constant ⟨2, ![M, N]⟩ .f32 0x00000000#32) (ix2 r c) =
      ∑ k : Fin K, lhs (ix2 r k) * rhs (ix2 k c) :=
  matmul_zero_plain_apply wf prec lhs rhs r c

/-- The host's product at any schedule key, read at `(r, c)`: the sum. -/
theorem dotGeneralAt_plain_apply (sched : HostSchedule) (r : Fin M) (c : Fin N) :
    FloatOps.dotGeneral (plainDot M K N wf) prec sched lhs rhs (ix2 r c) = ∑ k : Fin K, lhs (ix2 r k) * rhs (ix2 k c) := by
  rw [Ideal.dotGeneral_apply, contr_sum]

/-- The host's product as a reference prints it, read at `(r, c)`: the sum. -/
theorem dotGeneral_plain_apply (r : Fin M) (c : Fin N) :
    Host.dotGeneral (F := Ideal) (plainDot M K N wf) prec lhs rhs (ix2 r c) = ∑ k : Fin K, lhs (ix2 r k) * rhs (ix2 k c) :=
  dotGeneralAt_plain_apply wf prec lhs rhs .single r c

end Apply

/-- A program's own record with the same lists is this one (the check that the lemmas rewrite a printed product). -/
example (d : DotDims ⟨2, ![7, 5]⟩ ⟨2, ![5, 3]⟩ ⟨2, ![7, 3]⟩)
    (hd : d = { lhsContracting := [1], rhsContracting := [0], lhsNonContracting := [0], rhsNonContracting := [1], lhsBatch := [], rhsBatch := [] })
    (l : FVec Ideal ⟨2, ![7, 5]⟩ .bf16) (rr : FVec Ideal ⟨2, ![5, 3]⟩ .bf16) (r : Fin 7) (c : Fin 3) :
    matmul (F := Ideal) d none l rr (constant ⟨2, ![7, 3]⟩ .f32 0x00000000#32) (ix2 r c) = ∑ k : Fin 5, l (ix2 r k) * rr (ix2 k c) := by
  subst hd
  rw [matmul_zero_plain_apply' (by decide)]

end Cert.Proof.PlainDot

end
-- ==== Proof.KPay.lean ====
/-
  What each of the four kernel bodies stores, read at one entry of its row block, at the ideal instance.

  The two product bodies narrow both operands to bf16 (the identity on extended reals) and multiply into a zero
  accumulator: entry (r, q) of the block is Σ_k x(r, k) · w(k, q). The two bias bodies recast the bias vector as a
  one-row matrix, spread it down the block's rows and add it; the first then takes the maximum with a splat of zero.
-/
import proofs.«177499_j80023830659516_1_alg».proof.Proof.Gen.KernelIdeal
import proofs.«177499_j80023830659516_1_alg».proof.Proof.Gen.KernelIdeal.Skeleton
import proofs.«177499_j80023830659516_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.Gcn.Pay

open Cert.KernelIdeal Cert.KernelIdeal.Gen

/-- A one-row matrix spread down T rows, read at (p, k), is the row at (0, k). -/
theorem spread_row_at {T K : Nat} {α : Type} (r : (⟨2, ![1, K]⟩ : Shape).Idx → α)
    (h : (⟨2, ![1, K]⟩ : Shape).Broadcasts ⟨2, ![T, K]⟩) (p : Fin T) (k : Fin K) :
    broadcastTo ⟨2, ![T, K]⟩ r h (ix2 p k) = r (ix2 (0 : Fin 1) k) := by
  refine broadcastTo_apply r h (ix2 p k) (ix2 (0 : Fin 1) k) fun a => ?_
  match a with
  | ⟨0, _⟩ => rfl
  | ⟨1, _⟩ =>
    show k.val = if K = 1 then 0 else k.val
    split
    · have := k.isLt; omega
    · rfl

/-- The first product body at (r, q): Σ_k x(r, k) · w(k, q). -/
theorem mm_block128 (x0 : Vec Ideal S5000x128 .f32) (x1 : Vec Ideal S128x128 .f32) (r : Fin 5000) (q : Fin 128) :
    k0_pay1 (F := Ideal) x0 x1 (ix2 r q) = ∑ k : Fin 128, x0 (ix2 r k) * x1 (ix2 k q) := by
  unfold k0_pay1
  exact Cert.Proof.PlainDot.matmul_zero_plain_apply' (M := 5000) (K := 128) (N := 128)
    Cert.KernelIdeal.Gen.dot_S5000x128_S128x128_S5000x128_1_0_0_1_n_n_wf none _ _ r q

/-- The second product body at (r, q). -/
theorem mm_block64 (x0 : Vec Ideal S5000x128 .f32) (x1 : Vec Ideal S128x64 .f32) (r : Fin 5000) (q : Fin 64) :
    k2_pay1 (F := Ideal) x0 x1 (ix2 r q) = ∑ k : Fin 128, x0 (ix2 r k) * x1 (ix2 k q) := by
  unfold k2_pay1
  refine (Cert.Proof.PlainDot.matmul_zero_plain_apply' (M := 5000) (K := 128) (N := 64)
    Cert.KernelIdeal.Gen.dot_S5000x128_S128x64_S5000x64_1_0_0_1_n_n_wf none _ _ r q).trans ?_
  refine Finset.sum_congr rfl fun k _ => ?_
  show shapeCast S5000x128 x0 _ (ix2 r k) * x1 (ix2 k q) = _
  rw [shapeCast_self]

/-- The first bias body at (r, q): max (a(r, q) + b(q), 0). -/
theorem bias_relu_block (x0 : Vec Ideal S5000x128 .f32) (b : Vec Ideal S128 .f32) (r : Fin 5000) (q : Fin 128) :
    k1_pay1 (F := Ideal) x0 b (ix2 r q) = max (x0 (ix2 r q) + b (ix1 q)) (Ideal.ofBits .f32 0x00000000#32) := by
  unfold k1_pay1
  show max (shapeCast S5000x128 x0 _ (ix2 r q) + broadcastTo S5000x128 (shapeCast S1x128 b _) _ (ix2 r q)) (Ideal.ofBits .f32 0x00000000#32) = _
  rw [shapeCast_self, spread_row_at, shapeCast_a_1a_apply]

/-- The second bias body at (r, q): a(r, q) + b(q). -/
theorem bias_block (x0 : Vec Ideal S5000x64 .f32) (b : Vec Ideal S64 .f32) (r : Fin 5000) (q : Fin 64) :
    k3_pay1 (F := Ideal) x0 b (ix2 r q) = x0 (ix2 r q) + b (ix1 q) := by
  unfold k3_pay1
  show shapeCast S5000x64 x0 _ (ix2 r q) + broadcastTo S5000x64 (shapeCast S1x64 b _) _ (ix2 r q) = _
  rw [shapeCast_self, spread_row_at, shapeCast_a_1a_apply]

end Cert.Gcn.Pay

end
-- ==== Proof.KReg0.lean ====
/-
  The first pallas_call (x · W1 over 20 row blocks of 5000 rows) as one whole-array function of the arrays it is
  entered with: block t of the result is the product of row block t of x with the whole weight matrix, so the result
  array ends at Σ_k x(r, k) · W1(k, q) at every (r, q). Stated for any contents V of the buffers at the region's entry.
-/
import proofs.«177499_j80023830659516_1_alg».proof.Proof.Gen.KernelIdeal.Frame
import proofs.«177499_j80023830659516_1_alg».proof.Proof.Spec
import proofs.«177499_j80023830659516_1_alg».proof.Proof.KPay
import Idealize.ShloMosaic.Lib.Pipeline.Value

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.Gcn.Reg0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The printed index maps over the 20 grid points: point t takes row block t of the first operand and of the result,
    and the one block of the second operand. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of row block t is a row of the array. -/
theorem row_lt (t : Fin cfg0.N) (p : Fin 5000) : 5000 * t.val + p.val < 100000 := by
  have ht : t.val < 20 := lt_of_lt_of_eq t.isLt N_0
  have := p.isLt
  omega

/-- Row r of the first operand's block at point t is row 5000·t + r of its array. -/
theorem blk_rows (c : Dev nD) (t : Fin cfg0.N) (y : S5000x128.Idx) (i : S100000x128.Idx)
    (h0 : (i 0).val = 5000 * t.val + (y 0).val) (h1 : (i 1).val = (y 1).val) :
    (iblk0 V c 0 t : Vec Ideal S5000x128 .f32) y = (V c main_arg0 : S100000x128.Idx → EReal) i := by
  obtain ⟨e0, e1, -, -, -, -⟩ := idx_facts t
  unfold iblk0
  rw [View.read_apply]
  show V c main_arg0 _ = V c main_arg0 _
  refine congrArg _ (funext fun a => Fin.ext ?_)
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The weight window's one block is the whole matrix. -/
theorem blk_w (c : Dev nD) (t : Fin cfg0.N) (y : S128x128.Idx) :
    (iblk0 V c 1 t : Vec Ideal S128x128 .f32) y = (V c main_arg2 : S128x128.Idx → EReal) y := by
  obtain ⟨-, -, e2, e3, -, -⟩ := idx_facts t
  unfold iblk0
  rw [View.read_apply]
  show V c main_arg2 _ = V c main_arg2 _
  refine congrArg _ (funext fun a => Fin.ext ?_)
  match a with
  | ⟨0, _⟩ => show win0_1.index t (0 : Fin 2) * 128 + 1 * (y 0).val = (y 0).val; rw [e2]; omega
  | ⟨1, _⟩ => show win0_1.index t (1 : Fin 2) * 128 + 1 * (y 1).val = (y 1).val; rw [e3]; omega

/-- Entry (p, q) of the result's block at point t sits at (5000·t + p, q) of the result array. -/
theorem emb_out (c : Dev nD) (t : Fin cfg0.N) (p : Fin 5000) (q : Fin 128) :
    ((cfg0.win 2).blk t).view.emb (ix2 p q)
      = ix2 (n0 := 100000) (n1 := 128) ⟨5000 * t.val + p.val, row_lt t p⟩ q := by
  obtain ⟨-, -, -, -, e4, e5⟩ := idx_facts t
  funext a
  apply Fin.ext
  match a with
  | ⟨0, _⟩ => show win0_2.index t (0 : Fin 2) * 5000 + 1 * p.val = 5000 * t.val + p.val; rw [e4]; omega
  | ⟨1, _⟩ => show win0_2.index t (1 : Fin 2) * 128 + 1 * q.val = q.val; rw [e5]; omega

/-- What point t writes back is block t of the whole-array function of the arrays the region finds. -/
theorem flushed_eq (c : Dev nD) (t : Fin cfg0.N) :
    (dat0 (F := Ideal) V c).flushed 2 t
      = ((cfg0.win 2).blk t).view.read (Elt Ideal) (mm128 (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  funext j
  obtain ⟨p, q, rfl⟩ : ∃ (p : Fin 5000) (q : Fin 128), j = ix2 p q := ⟨j 0, j 1, eq_ix2 j⟩
  show _ = mm128 (V c main_arg0) (V c main_arg2) (((cfg0.win 2).blk t).view.emb (ix2 p q))
  refine (Pay.mm_block128 _ _ p q).trans ?_
  rw [emb_out c t p q]
  unfold mm128
  refine Finset.sum_congr rfl fun k _ => ?_
  rw [blk_rows V c t (ix2 p k) (ix2 (n0 := 100000) (n1 := 128) ⟨5000 * t.val + p.val, row_lt t p⟩ k) rfl rfl,
    blk_w V c t (ix2 k q)]

/-- An index of the result array is in point t's block iff its row is one of the block's 5000. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- The 20 row blocks tile the result array: row r is in block r / 5000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨-, -, -, -, e4, e5⟩ := idx_facts ⟨(i 0).val / 5000, ht⟩
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    rw [e5]
    omega

/-- The result array after the region: the whole-array function of the region's two operands. -/
theorem final (c : Dev nD) :
    (dat0 (F := Ideal) V c).arrAt 2 cfg0.N = mm128 (V c main_arg0) (V c main_arg2) :=
  (dat0 (F := Ideal) V c).arrAt_eq_of_cover 2 (mm128 (V c main_arg0) (V c main_arg2)) (fun t _ => flushed_eq V c t) (cover)

end Cert.Gcn.Reg0

end
-- ==== Proof.KReg1.lean ====
/-
  The second pallas_call (add the bias to every row, then the maximum with zero, over 20 row blocks of 5000 rows) as
  one whole-array function of the arrays it is entered with: the result array ends at max (a(r, q) + b1(q), 0) at every
  (r, q). Stated for any contents V of the buffers at the region's entry.
-/
import proofs.«177499_j80023830659516_1_alg».proof.Proof.Gen.KernelIdeal.Frame
import proofs.«177499_j80023830659516_1_alg».proof.Proof.Spec
import proofs.«177499_j80023830659516_1_alg».proof.Proof.KPay
import Idealize.ShloMosaic.Lib.Pipeline.Value

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.Gcn.Reg1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The printed index maps over the 20 grid points: point t takes row block t of the first operand and of the result,
    and the one block of the second operand. -/
theorem idx_facts : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- Row p of row block t is a row of the array. -/
theorem row_lt (t : Fin cfg1.N) (p : Fin 5000) : 5000 * t.val + p.val < 100000 := by
  have ht : t.val < 20 := lt_of_lt_of_eq t.isLt N_1
  have := p.isLt
  omega

/-- Row r of the first operand's block at point t is row 5000·t + r of its array. -/
theorem blk_rows (c : Dev nD) (t : Fin cfg1.N) (y : S5000x128.Idx) (i : S100000x128.Idx)
    (h0 : (i 0).val = 5000 * t.val + (y 0).val) (h1 : (i 1).val = (y 1).val) :
    (iblk1 V c 0 t : Vec Ideal S5000x128 .f32) y = (V c main_v43 : S100000x128.Idx → EReal) i := by
  obtain ⟨e0, e1, -, -, -⟩ := idx_facts t
  unfold iblk1
  rw [View.read_apply]
  show V c main_v43 _ = V c main_v43 _
  refine congrArg _ (funext fun a => Fin.ext ?_)
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- The bias window's one block is the whole vector. -/
theorem blk_w (c : Dev nD) (t : Fin cfg1.N) (y : S128.Idx) :
    (iblk1 V c 1 t : Vec Ideal S128 .f32) y = (V c main_arg3 : S128.Idx → EReal) y := by
  obtain ⟨-, -, e2, -, -⟩ := idx_facts t
  unfold iblk1
  rw [View.read_apply]
  show V c main_arg3 _ = V c main_arg3 _
  refine congrArg _ (funext fun a => Fin.ext ?_)
  match a with
  | ⟨0, _⟩ => show win1_1.index t (0 : Fin 1) * 128 + 1 * (y 0).val = (y 0).val; rw [e2]; omega

/-- Entry (p, q) of the result's block at point t sits at (5000·t + p, q) of the result array. -/
theorem emb_out (c : Dev nD) (t : Fin cfg1.N) (p : Fin 5000) (q : Fin 128) :
    ((cfg1.win 2).blk t).view.emb (ix2 p q)
      = ix2 (n0 := 100000) (n1 := 128) ⟨5000 * t.val + p.val, row_lt t p⟩ q := by
  obtain ⟨-, -, -, e4, e5⟩ := idx_facts t
  funext a
  apply Fin.ext
  match a with
  | ⟨0, _⟩ => show win1_2.index t (0 : Fin 2) * 5000 + 1 * p.val = 5000 * t.val + p.val; rw [e4]; omega
  | ⟨1, _⟩ => show win1_2.index t (1 : Fin 2) * 128 + 1 * q.val = q.val; rw [e5]; omega

/-- What point t writes back is block t of the whole-array function of the arrays the region finds. -/
theorem flushed_eq (c : Dev nD) (t : Fin cfg1.N) :
    (dat1 (F := Ideal) V c).flushed 2 t
      = ((cfg1.win 2).blk t).view.read (Elt Ideal) (biasRelu (V c main_v43) (V c main_arg3)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128) hz1]
  funext j
  obtain ⟨p, q, rfl⟩ : ∃ (p : Fin 5000) (q : Fin 128), j = ix2 p q := ⟨j 0, j 1, eq_ix2 j⟩
  show _ = biasRelu (V c main_v43) (V c main_arg3) (((cfg1.win 2).blk t).view.emb (ix2 p q))
  refine (Pay.bias_relu_block _ _ p q).trans ?_
  rw [emb_out c t p q]
  unfold biasRelu
  rw [blk_rows V c t (ix2 p q) (ix2 (n0 := 100000) (n1 := 128) ⟨5000 * t.val + p.val, row_lt t p⟩ q) rfl rfl,
    blk_w V c t (ix1 q)]

/-- An index of the result array is in point t's block iff its row is one of the block's 5000. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v44).slice (win1_2.rect t)).set ↔ _
  rw [View.set_slice_whole, Rect.mem_set_unit]
  exact Iff.rfl

/-- The 20 row blocks tile the result array: row r is in block r / 5000. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨-, -, -, e4, e5⟩ := idx_facts ⟨(i 0).val / 5000, ht⟩
  refine ⟨⟨(i 0).val / 5000, ht⟩, flush1_2 _, ?_⟩
  rw [mem_blk]
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win1_2.index ⟨(i 0).val / 5000, ht⟩ (1 : Fin 2) * 128 ≤ (i 1).val ∧ (i 1).val < win1_2.index ⟨(i 0).val / 5000, ht⟩ (1 : Fin 2) * 128 + 128
    rw [e5]
    omega

/-- The result array after the region: the whole-array function of the region's two operands. -/
theorem final (c : Dev nD) :
    (dat1 (F := Ideal) V c).arrAt 2 cfg1.N = biasRelu (V c main_v43) (V c main_arg3) :=
  (dat1 (F := Ideal) V c).arrAt_eq_of_cover 2 (biasRelu (V c main_v43) (V c main_arg3)) (fun t _ => flushed_eq V c t) (cover)

end Cert.Gcn.Reg1

end
-- ==== Proof.KReg2.lean ====
/-
  The third pallas_call (h · W2 over 20 row blocks of 5000 rows) as one whole-array function of the arrays it is
  entered with: block t of the result is the product of row block t of h with the whole weight matrix, so the result
  array ends at Σ_k h(r, k) · W2(k, q) at every (r, q). Stated for any contents V of the buffers at the region's entry.
-/
import proofs.«177499_j80023830659516_1_alg».proof.Proof.Gen.KernelIdeal.Frame
import proofs.«177499_j80023830659516_1_alg».proof.Proof.Spec
import proofs.«177499_j80023830659516_1_alg».proof.Proof.KPay
import Idealize.ShloMosaic.Lib.Pipeline.Value

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.Gcn.Reg2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The printed index maps over the 20 grid points: point t takes row block t of the first operand and of the result,
    and the one block of the second operand. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row p of row block t is a row of the array. -/
theorem row_lt (t : Fin cfg2.N) (p : Fin 5000) : 5000 * t.val + p.val < 100000 := by
  have ht : t.val < 20 := lt_of_lt_of_eq t.isLt N_2
  have := p.isLt
  omega

/-- Row r of the first operand's block at point t is row 5000·t + r of its array. -/
theorem blk_rows (c : Dev nD) (t : Fin cfg2.N) (y : S5000x128.Idx) (i : S100000x128.Idx)
    (h0 : (i 0).val = 5000 * t.val + (y 0).val) (h1 : (i 1).val = (y 1).val) :
    (iblk2 V c 0 t : Vec Ideal S5000x128 .f32) y = (V c main_v44 : S100000x128.Idx → EReal) i := by
  obtain ⟨e0, e1, -, -, -, -⟩ := idx_facts t
  unfold iblk2
  rw [View.read_apply]
  show V c main_v44 _ = V c main_v44 _
  refine congrArg _ (funext fun a => Fin.ext ?_)
  match a with
  | ⟨0, _⟩ => show win2_0.index t (0 : Fin 2) * 5000 + 1 * (y 0).val = (i 0).val; rw [e0, h0]; omega
  | ⟨1, _⟩ => show win2_0.index t (1 : Fin 2) * 128 + 1 * (y 1).val = (i 1).val; rw [e1, h1]; omega

/-- The weight window's one block is the whole matrix. -/
theorem blk_w (c : Dev nD) (t : Fin cfg2.N) (y : S128x64.Idx) :
    (iblk2 V c 1 t : Vec Ideal S128x64 .f32) y = (V c main_arg4 : S128x64.Idx → EReal) y := by
  obtain ⟨-, -, e2, e3, -, -⟩ := idx_facts t
  unfold iblk2
  rw [View.read_apply]
  show V c main_arg4 _ = V c main_arg4 _
  refine congrArg _ (funext fun a => Fin.ext ?_)
  match a with
  | ⟨0, _⟩ => show win2_1.index t (0 : Fin 2) * 128 + 1 * (y 0).val = (y 0).val; rw [e2]; omega
  | ⟨1, _⟩ => show win2_1.index t (1 : Fin 2) * 64 + 1 * (y 1).val = (y 1).val; rw [e3]; omega

/-- Entry (p, q) of the result's block at point t sits at (5000·t + p, q) of the result array. -/
theorem emb_out (c : Dev nD) (t : Fin cfg2.N) (p : Fin 5000) (q : Fin 64) :
    ((cfg2.win 2).blk t).view.emb (ix2 p q)
      = ix2 (n0 := 100000) (n1 := 64) ⟨5000 * t.val + p.val, row_lt t p⟩ q := by
  obtain ⟨-, -, -, -, e4, e5⟩ := idx_facts t
  funext a
  apply Fin.ext
  match a with
  | ⟨0, _⟩ => show win2_2.index t (0 : Fin 2) * 5000 + 1 * p.val = 5000 * t.val + p.val; rw [e4]; omega
  | ⟨1, _⟩ => show win2_2.index t (1 : Fin 2) * 64 + 1 * q.val = q.val; rw [e5]; omega

/-- What point t writes back is block t of the whole-array function of the arrays the region finds. -/
theorem flushed_eq (c : Dev nD) (t : Fin cfg2.N) :
    (dat2 (F := Ideal) V c).flushed 2 t
      = ((cfg2.win 2).blk t).view.read (Elt Ideal) (mm64 (V c main_v44) (V c main_arg4)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x64) hz]
  funext j
  obtain ⟨p, q, rfl⟩ : ∃ (p : Fin 5000) (q : Fin 64), j = ix2 p q := ⟨j 0, j 1, eq_ix2 j⟩
  show _ = mm64 (V c main_v44) (V c main_arg4) (((cfg2.win 2).blk t).view.emb (ix2 p q))
  refine (Pay.mm_block64 _ _ p q).trans ?_
  rw [emb_out c t p q]
  unfold mm64
  refine Finset.sum_congr rfl fun k _ => ?_
  rw [blk_rows V c t (ix2 p k) (ix2 (n0 := 100000) (n1 := 128) ⟨5000 * t.val + p.val, row_lt t p⟩ k) rfl rfl,
    blk_w V c t (ix2 k q)]

/-- An index of the result array is in point t's block iff its row is one of the block's 5000. -/
theorem mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v45).slice (win2_2.rect t)).set ↔ _
  rw [View.set_slice_whole, Rect.mem_set_unit]
  exact Iff.rfl

/-- The 20 row blocks tile the result array: row r is in block r / 5000. -/
theorem cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  have ht : (i 0).val / 5000 < cfg2.N := by rw [hN]; omega
  obtain ⟨-, -, -, -, e4, e5⟩ := idx_facts ⟨(i 0).val / 5000, ht⟩
  refine ⟨⟨(i 0).val / 5000, ht⟩, flush2_2 _, ?_⟩
  rw [mem_blk]
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win2_2.index ⟨(i 0).val / 5000, ht⟩ (1 : Fin 2) * 64 ≤ (i 1).val ∧ (i 1).val < win2_2.index ⟨(i 0).val / 5000, ht⟩ (1 : Fin 2) * 64 + 64
    rw [e5]
    omega

/-- The result array after the region: the whole-array function of the region's two operands. -/
theorem final (c : Dev nD) :
    (dat2 (F := Ideal) V c).arrAt 2 cfg2.N = mm64 (V c main_v44) (V c main_arg4) :=
  (dat2 (F := Ideal) V c).arrAt_eq_of_cover 2 (mm64 (V c main_v44) (V c main_arg4)) (fun t _ => flushed_eq V c t) (cover)

end Cert.Gcn.Reg2

end
-- ==== Proof.KReg3.lean ====
/-
  The fourth pallas_call (add the bias to every row, over 20 row blocks of 5000 rows) as one whole-array function of
  the arrays it is entered with: the result array ends at a(r, q) + b2(q) at every (r, q). Stated for any contents V of
  the buffers at the region's entry.
-/
import proofs.«177499_j80023830659516_1_alg».proof.Proof.Gen.KernelIdeal.Frame
import proofs.«177499_j80023830659516_1_alg».proof.Proof.Spec
import proofs.«177499_j80023830659516_1_alg».proof.Proof.KPay
import Idealize.ShloMosaic.Lib.Pipeline.Value

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.Gcn.Reg3

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The printed index maps over the 20 grid points: point t takes row block t of the first operand and of the result,
    and the one block of the second operand. -/
theorem idx_facts : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

/-- Row p of row block t is a row of the array. -/
theorem row_lt (t : Fin cfg3.N) (p : Fin 5000) : 5000 * t.val + p.val < 100000 := by
  have ht : t.val < 20 := lt_of_lt_of_eq t.isLt N_3
  have := p.isLt
  omega

/-- Row r of the first operand's block at point t is row 5000·t + r of its array. -/
theorem blk_rows (c : Dev nD) (t : Fin cfg3.N) (y : S5000x64.Idx) (i : S100000x64.Idx)
    (h0 : (i 0).val = 5000 * t.val + (y 0).val) (h1 : (i 1).val = (y 1).val) :
    (iblk3 V c 0 t : Vec Ideal S5000x64 .f32) y = (V c main_v58 : S100000x64.Idx → EReal) i := by
  obtain ⟨e0, e1, -, -, -⟩ := idx_facts t
  unfold iblk3
  rw [View.read_apply]
  show V c main_v58 _ = V c main_v58 _
  refine congrArg _ (funext fun a => Fin.ext ?_)
  match a with
  | ⟨0, _⟩ => show win3_0.index t (0 : Fin 2) * 5000 + 1 * (y 0).val = (i 0).val; rw [e0, h0]; omega
  | ⟨1, _⟩ => show win3_0.index t (1 : Fin 2) * 64 + 1 * (y 1).val = (i 1).val; rw [e1, h1]; omega

/-- The bias window's one block is the whole vector. -/
theorem blk_w (c : Dev nD) (t : Fin cfg3.N) (y : S64.Idx) :
    (iblk3 V c 1 t : Vec Ideal S64 .f32) y = (V c main_arg5 : S64.Idx → EReal) y := by
  obtain ⟨-, -, e2, -, -⟩ := idx_facts t
  unfold iblk3
  rw [View.read_apply]
  show V c main_arg5 _ = V c main_arg5 _
  refine congrArg _ (funext fun a => Fin.ext ?_)
  match a with
  | ⟨0, _⟩ => show win3_1.index t (0 : Fin 1) * 64 + 1 * (y 0).val = (y 0).val; rw [e2]; omega

/-- Entry (p, q) of the result's block at point t sits at (5000·t + p, q) of the result array. -/
theorem emb_out (c : Dev nD) (t : Fin cfg3.N) (p : Fin 5000) (q : Fin 64) :
    ((cfg3.win 2).blk t).view.emb (ix2 p q)
      = ix2 (n0 := 100000) (n1 := 64) ⟨5000 * t.val + p.val, row_lt t p⟩ q := by
  obtain ⟨-, -, -, e4, e5⟩ := idx_facts t
  funext a
  apply Fin.ext
  match a with
  | ⟨0, _⟩ => show win3_2.index t (0 : Fin 2) * 5000 + 1 * p.val = 5000 * t.val + p.val; rw [e4]; omega
  | ⟨1, _⟩ => show win3_2.index t (1 : Fin 2) * 64 + 1 * q.val = q.val; rw [e5]; omega

/-- What point t writes back is block t of the whole-array function of the arrays the region finds. -/
theorem flushed_eq (c : Dev nD) (t : Fin cfg3.N) :
    (dat3 (F := Ideal) V c).flushed 2 t
      = ((cfg3.win 2).blk t).view.read (Elt Ideal) (bias64 (V c main_v58) (V c main_arg5)) := by
  show (cfg3.win 2).cut (grid3.coords t) ((dat3 V c).after 2 t) = _
  rw [after3_2]
  unfold out3_2
  rw [View.canon_unit_zero hz]
  simp only [View.ld_unit_zero (S := S5000x64) hz, View.ld_unit_zero (S := S64) hz1]
  funext j
  obtain ⟨p, q, rfl⟩ : ∃ (p : Fin 5000) (q : Fin 64), j = ix2 p q := ⟨j 0, j 1, eq_ix2 j⟩
  show _ = bias64 (V c main_v58) (V c main_arg5) (((cfg3.win 2).blk t).view.emb (ix2 p q))
  refine (Pay.bias_block _ _ p q).trans ?_
  rw [emb_out c t p q]
  unfold bias64
  rw [blk_rows V c t (ix2 p q) (ix2 (n0 := 100000) (n1 := 64) ⟨5000 * t.val + p.val, row_lt t p⟩ q) rfl rfl,
    blk_w V c t (ix1 q)]

/-- An index of the result array is in point t's block iff its row is one of the block's 5000. -/
theorem mem_blk (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v59).slice (win3_2.rect t)).set ↔ _
  rw [View.set_slice_whole, Rect.mem_set_unit]
  exact Iff.rfl

/-- The 20 row blocks tile the result array: row r is in block r / 5000. -/
theorem cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 20 := N_3
  have ht : (i 0).val / 5000 < cfg3.N := by rw [hN]; omega
  obtain ⟨-, -, -, e4, e5⟩ := idx_facts ⟨(i 0).val / 5000, ht⟩
  refine ⟨⟨(i 0).val / 5000, ht⟩, flush3_2 _, ?_⟩
  rw [mem_blk]
  intro a
  match a with
  | ⟨0, _⟩ =>
    show win3_2.index ⟨(i 0).val / 5000, ht⟩ (0 : Fin 2) * 5000 ≤ (i 0).val ∧ (i 0).val < win3_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win3_2.index ⟨(i 0).val / 5000, ht⟩ (1 : Fin 2) * 64 ≤ (i 1).val ∧ (i 1).val < win3_2.index ⟨(i 0).val / 5000, ht⟩ (1 : Fin 2) * 64 + 64
    rw [e5]
    omega

/-- The result array after the region: the whole-array function of the region's two operands. -/
theorem final (c : Dev nD) :
    (dat3 (F := Ideal) V c).arrAt 2 cfg3.N = bias64 (V c main_v58) (V c main_arg5) :=
  (dat3 (F := Ideal) V c).arrAt_eq_of_cover 2 (bias64 (V c main_v58) (V c main_arg5)) (fun t _ => flushed_eq V c t) (cover)

end Cert.Gcn.Reg3

end
-- ==== Proof.KFold.lean ====
/-
  The idealized kernel program's result buffer, read back through @main: the fold of the five host stretches and
  the four regions from the launch memory ends, at the result, in the two-layer network `Cert.Gcn.net` of the six
  argument arrays.

  Each host stretch is read at the buffers later stretches use, over an arbitrary valuation of the buffers it starts
  from (the edge words, the degree's inverse square root, the per-edge norm, one layer's gather / scale / scatter-add);
  a buffer a stretch or a region does not write keeps its contents; a region's result array is the whole-array function
  of the two arrays it is entered with.
-/
import proofs.«177499_j80023830659516_1_alg».proof.Proof.Gen.KernelIdeal.Frame
import proofs.«177499_j80023830659516_1_alg».proof.Proof.Spec
import proofs.«177499_j80023830659516_1_alg».proof.Proof.KReg0
import proofs.«177499_j80023830659516_1_alg».proof.Proof.KReg1
import proofs.«177499_j80023830659516_1_alg».proof.Proof.KReg2
import proofs.«177499_j80023830659516_1_alg».proof.Proof.KReg3
import Idealize.ShloMosaic.Lib.StableHlo.Run

set_option maxRecDepth 16384

noncomputable section

open Idealize.ShloMosaic Idealize.ShloMosaic.TcCoe Idealize.SL.Sem Idealize.ShloMosaic.StableHlo

namespace Cert.Gcn.Fold

open Cert.KernelIdeal Cert.KernelIdeal.Gen

/-! ## Each host stretch, from any contents `W` of the buffers -/

/-- A buffer no operation of a literal stretch writes keeps its contents: the stretch's written buffers, one per
    operation, each another reference. -/
macro "keeps" ops:ident : tactic => `(tactic| exact StableHlo.after_of_forall_not_mem _ _ (List.forall_iff_forall_mem.mp (by
   simp only [$ops:ident, List.Forall, StableHlo.nullary_writes, StableHlo.unary_writes, StableHlo.binary_writes, StableHlo.ternary_writes, StableHlo.quaternary_writes, StableHlo.reshape_writes, StableHlo.binaryIndexed_writes, Finset.mem_singleton]
   repeat' apply And.intro
   all_goals exact StableHlo.devRef_ne_of_ne (by decide))))

section Stretches
variable (W : Valuation τ sig (Elt Ideal))

/-- The first stretch forms the edges' source words … -/
theorem s0_v5 : StableHlo.after hostOps0 W (Proc.devRef .tc main_v5) = srcIdx (W (Proc.devRef .tc main_arg1)) := by
  after_results_simp; rfl
/-- … their destination words … -/
theorem s0_v6 : StableHlo.after hostOps0 W (Proc.devRef .tc main_v6) = dstIdx (W (Proc.devRef .tc main_arg1)) := by
  after_results_simp; rfl
/-- … where the degree is positive … -/
theorem s0_v12 : (StableHlo.after hostOps0 W (Proc.devRef .tc main_v12) : IVec S100000 1)
    = cmpf .ogt (degOf (W (Proc.devRef .tc main_arg1))) (broadcastInDim S100000 ![] Facts₀.bcast_S_S100000 (constant (F := Ideal) S_ .f32 0x00000000#32)) := by
  after_results_simp; rfl
/-- … the degree's inverse square root … -/
theorem s0_v13 : (StableHlo.after hostOps0 W (Proc.devRef .tc main_v13) : FVec Ideal S100000 .f32) = Host.rsqrt (degOf (W (Proc.devRef .tc main_arg1))) := by
  after_results_simp; rfl
/-- … and a zero. -/
theorem s0_cst2 : (StableHlo.after hostOps0 W (Proc.devRef .tc main_cst_2) : FVec Ideal S_ .f32) = constant (F := Ideal) S_ .f32 0x00000000#32 := by
  after_results_simp

/-- The second stretch selects the inverse square root where the degree is positive and zero elsewhere. -/
theorem s1_v14 : (StableHlo.after hostOps0_1 W (Proc.devRef .tc main_v14) : FVec Ideal S100000 .f32)
    = select (W (Proc.devRef .tc main_v12)) (W (Proc.devRef .tc main_v13)) (broadcastInDim S100000 ![] Facts₀.bcast_S_S100000 (W (Proc.devRef .tc main_cst_2))) := by
  after_results_simp; rfl

/-- The third stretch multiplies that number at an edge's two ends. -/
theorem s2_v29 : (StableHlo.after hostOps0_2 W (Proc.devRef .tc main_v29) : FVec Ideal S1700000 .f32)
    = mulf (F := Ideal) (s := S1700000) (φ := .f32)
        (Host.gather gather_S100000_S1700000x1_S1700000_n_0_n_n_0_1_1 (show FVec Ideal S100000 .f32 from W (Proc.devRef .tc main_v14)) (col (wrapIdx (W (Proc.devRef .tc main_v5)))))
        (Host.gather gather_S100000_S1700000x1_S1700000_n_0_n_n_0_1_1 (show FVec Ideal S100000 .f32 from W (Proc.devRef .tc main_v14)) (col (wrapIdx (W (Proc.devRef .tc main_v6))))) := by
  after_results_simp; rfl

/-- The stretch after the first region: gather the product's rows at the sources, scale by the norm, add up at the destinations. -/
theorem s3_v43 : (StableHlo.after hostOps1 W (Proc.devRef .tc main_v43) : FVec Ideal S100000x128 .f32)
    = Host.scatterAdd scatter_S100000x128_S1700000x1_S1700000x128_1_0_0_1
        (broadcastInDim S100000x128 ![] Facts₀.bcast_S_S100000x128 (constant (F := Ideal) S_ .f32 0x00000000#32))
        (col (W (Proc.devRef .tc main_v6)))
        (mulf (Host.gather gather_S100000x128_S1700000x1_S1700000x128_1_0_n_n_0_1_1128 (W (Proc.devRef .tc main_v30)) (col (wrapIdx (W (Proc.devRef .tc main_v5)))))
          (broadcastInDim S1700000x128 ![0, 1] Facts₀.bcast_S1700000x1_S1700000x128_0_1 (col (W (Proc.devRef .tc main_v29))))) := by
  after_results_simp; rfl

/-- The stretch after the third region: the same at width 64. -/
theorem s4_v58 : (StableHlo.after hostOps3 W (Proc.devRef .tc main_v58) : FVec Ideal S100000x64 .f32)
    = Host.scatterAdd scatter_S100000x64_S1700000x1_S1700000x64_1_0_0_1
        (broadcastInDim S100000x64 ![] Facts₀.bcast_S_S100000x64 (constant (F := Ideal) S_ .f32 0x00000000#32))
        (col (W (Proc.devRef .tc main_v6)))
        (mulf (Host.gather gather_S100000x64_S1700000x1_S1700000x64_1_0_n_n_0_1_164 (W (Proc.devRef .tc main_v45)) (col (wrapIdx (W (Proc.devRef .tc main_v5)))))
          (broadcastInDim S1700000x64 ![0, 1] Facts₀.bcast_S1700000x1_S1700000x64_0_1 (col (W (Proc.devRef .tc main_v29))))) := by
  after_results_simp; rfl

/-! Buffers a stretch does not write keep their contents. -/
theorem k0_arg0 : StableHlo.after hostOps0 W (Proc.devRef .tc main_arg0) = W (Proc.devRef .tc main_arg0) := by keeps hostOps0
theorem k1_arg0 : StableHlo.after hostOps0_1 W (Proc.devRef .tc main_arg0) = W (Proc.devRef .tc main_arg0) := by keeps hostOps0_1
theorem k2_arg0 : StableHlo.after hostOps0_2 W (Proc.devRef .tc main_arg0) = W (Proc.devRef .tc main_arg0) := by keeps hostOps0_2
theorem k0_arg2 : StableHlo.after hostOps0 W (Proc.devRef .tc main_arg2) = W (Proc.devRef .tc main_arg2) := by keeps hostOps0
theorem k1_arg2 : StableHlo.after hostOps0_1 W (Proc.devRef .tc main_arg2) = W (Proc.devRef .tc main_arg2) := by keeps hostOps0_1
theorem k2_arg2 : StableHlo.after hostOps0_2 W (Proc.devRef .tc main_arg2) = W (Proc.devRef .tc main_arg2) := by keeps hostOps0_2
theorem k0_arg3 : StableHlo.after hostOps0 W (Proc.devRef .tc main_arg3) = W (Proc.devRef .tc main_arg3) := by keeps hostOps0
theorem k1_arg3 : StableHlo.after hostOps0_1 W (Proc.devRef .tc main_arg3) = W (Proc.devRef .tc main_arg3) := by keeps hostOps0_1
theorem k2_arg3 : StableHlo.after hostOps0_2 W (Proc.devRef .tc main_arg3) = W (Proc.devRef .tc main_arg3) := by keeps hostOps0_2
theorem k0_arg4 : StableHlo.after hostOps0 W (Proc.devRef .tc main_arg4) = W (Proc.devRef .tc main_arg4) := by keeps hostOps0
theorem k1_arg4 : StableHlo.after hostOps0_1 W (Proc.devRef .tc main_arg4) = W (Proc.devRef .tc main_arg4) := by keeps hostOps0_1
theorem k2_arg4 : StableHlo.after hostOps0_2 W (Proc.devRef .tc main_arg4) = W (Proc.devRef .tc main_arg4) := by keeps hostOps0_2
theorem k0_arg5 : StableHlo.after hostOps0 W (Proc.devRef .tc main_arg5) = W (Proc.devRef .tc main_arg5) := by keeps hostOps0
theorem k1_arg5 : StableHlo.after hostOps0_1 W (Proc.devRef .tc main_arg5) = W (Proc.devRef .tc main_arg5) := by keeps hostOps0_1
theorem k2_arg5 : StableHlo.after hostOps0_2 W (Proc.devRef .tc main_arg5) = W (Proc.devRef .tc main_arg5) := by keeps hostOps0_2
theorem k1_v5 : StableHlo.after hostOps0_1 W (Proc.devRef .tc main_v5) = W (Proc.devRef .tc main_v5) := by keeps hostOps0_1
theorem k2_v5 : StableHlo.after hostOps0_2 W (Proc.devRef .tc main_v5) = W (Proc.devRef .tc main_v5) := by keeps hostOps0_2
theorem k1_v6 : StableHlo.after hostOps0_1 W (Proc.devRef .tc main_v6) = W (Proc.devRef .tc main_v6) := by keeps hostOps0_1
theorem k2_v6 : StableHlo.after hostOps0_2 W (Proc.devRef .tc main_v6) = W (Proc.devRef .tc main_v6) := by keeps hostOps0_2
theorem k3_v5 : StableHlo.after hostOps1 W (Proc.devRef .tc main_v5) = W (Proc.devRef .tc main_v5) := by keeps hostOps1
theorem k3_v6 : StableHlo.after hostOps1 W (Proc.devRef .tc main_v6) = W (Proc.devRef .tc main_v6) := by keeps hostOps1
theorem k3_v29 : StableHlo.after hostOps1 W (Proc.devRef .tc main_v29) = W (Proc.devRef .tc main_v29) := by keeps hostOps1
theorem k3_arg3 : StableHlo.after hostOps1 W (Proc.devRef .tc main_arg3) = W (Proc.devRef .tc main_arg3) := by keeps hostOps1
theorem k3_arg4 : StableHlo.after hostOps1 W (Proc.devRef .tc main_arg4) = W (Proc.devRef .tc main_arg4) := by keeps hostOps1
theorem k3_arg5 : StableHlo.after hostOps1 W (Proc.devRef .tc main_arg5) = W (Proc.devRef .tc main_arg5) := by keeps hostOps1
theorem k4_arg5 : StableHlo.after hostOps3 W (Proc.devRef .tc main_arg5) = W (Proc.devRef .tc main_arg5) := by keeps hostOps3

end Stretches

/-! ## The fold from the launch memory -/

variable (m : (ℓ : Loc nD τ sig) → Buf (Elt Ideal) ℓ) (ρ : Dev nD → PrngReg) (c : Dev nD)

theorem W3_arg0 : W3 m ρ c (Proc.devRef .tc main_arg0) = m ((c : Thread nD τ).loc main_arg0) :=
  (k2_arg0 (W2 m ρ c)).trans ((k1_arg0 (W1 m ρ c)).trans (k0_arg0 (W0 m ρ c)))
theorem W3_arg2 : W3 m ρ c (Proc.devRef .tc main_arg2) = m ((c : Thread nD τ).loc main_arg2) :=
  (k2_arg2 (W2 m ρ c)).trans ((k1_arg2 (W1 m ρ c)).trans (k0_arg2 (W0 m ρ c)))
theorem W3_arg3 : W3 m ρ c (Proc.devRef .tc main_arg3) = m ((c : Thread nD τ).loc main_arg3) :=
  (k2_arg3 (W2 m ρ c)).trans ((k1_arg3 (W1 m ρ c)).trans (k0_arg3 (W0 m ρ c)))
theorem W3_arg4 : W3 m ρ c (Proc.devRef .tc main_arg4) = m ((c : Thread nD τ).loc main_arg4) :=
  (k2_arg4 (W2 m ρ c)).trans ((k1_arg4 (W1 m ρ c)).trans (k0_arg4 (W0 m ρ c)))
theorem W3_arg5 : W3 m ρ c (Proc.devRef .tc main_arg5) = m ((c : Thread nD τ).loc main_arg5) :=
  (k2_arg5 (W2 m ρ c)).trans ((k1_arg5 (W1 m ρ c)).trans (k0_arg5 (W0 m ρ c)))

theorem W1_v12 : W1 m ρ c (Proc.devRef .tc main_v12)
    = cmpf .ogt (degOf (m ((c : Thread nD τ).loc main_arg1))) (broadcastInDim S100000 ![] Facts₀.bcast_S_S100000 (constant (F := Ideal) S_ .f32 0x00000000#32)) :=
  s0_v12 (W0 m ρ c)
theorem W1_v13 : W1 m ρ c (Proc.devRef .tc main_v13) = Host.rsqrt (degOf (m ((c : Thread nD τ).loc main_arg1))) := s0_v13 (W0 m ρ c)
theorem W1_cst2 : W1 m ρ c (Proc.devRef .tc main_cst_2) = constant (F := Ideal) S_ .f32 0x00000000#32 := s0_cst2 (W0 m ρ c)

/-- After the second stretch: the degree's inverse square root, zero where the degree is not positive. -/
theorem W2_v14 : W2 m ρ c (Proc.devRef .tc main_v14) = dinvOf (m ((c : Thread nD τ).loc main_arg1)) := by
  refine (s1_v14 (W1 m ρ c)).trans ?_
  rw [W1_v12, W1_v13, W1_cst2]
  rfl

theorem W2_v5 : W2 m ρ c (Proc.devRef .tc main_v5) = srcIdx (m ((c : Thread nD τ).loc main_arg1)) :=
  (k1_v5 (W1 m ρ c)).trans (s0_v5 (W0 m ρ c))
theorem W2_v6 : W2 m ρ c (Proc.devRef .tc main_v6) = dstIdx (m ((c : Thread nD τ).loc main_arg1)) :=
  (k1_v6 (W1 m ρ c)).trans (s0_v6 (W0 m ρ c))
theorem W3_v5 : W3 m ρ c (Proc.devRef .tc main_v5) = srcIdx (m ((c : Thread nD τ).loc main_arg1)) :=
  (k2_v5 (W2 m ρ c)).trans (W2_v5 m ρ c)
theorem W3_v6 : W3 m ρ c (Proc.devRef .tc main_v6) = dstIdx (m ((c : Thread nD τ).loc main_arg1)) :=
  (k2_v6 (W2 m ρ c)).trans (W2_v6 m ρ c)

/-- After the third stretch: the per-edge norm. -/
theorem W3_v29 : W3 m ρ c (Proc.devRef .tc main_v29) = edgeNorm (m ((c : Thread nD τ).loc main_arg1)) := by
  refine (s2_v29 (W2 m ρ c)).trans ?_
  rw [W2_v14, W2_v5, W2_v6]
  rfl

/-! The first region: x · W1. -/

theorem W4_v30 : W4 m ρ c (Proc.devRef .tc main_v30)
    = mm128 (m ((c : Thread nD τ).loc main_arg0)) (m ((c : Thread nD τ).loc main_arg2)) := by
  refine (W4_arr m ρ c 2).trans ((Reg0.final (V3 m ρ) c).trans ?_)
  show mm128 (W3 m ρ c (Proc.devRef .tc main_arg0)) (W3 m ρ c (Proc.devRef .tc main_arg2)) = _
  rw [W3_arg0, W3_arg2]
theorem W4_v5 : W4 m ρ c (Proc.devRef .tc main_v5) = srcIdx (m ((c : Thread nD τ).loc main_arg1)) :=
  (W4_of_ne m ρ c main_v5 (by decide)).trans (W3_v5 m ρ c)
theorem W4_v6 : W4 m ρ c (Proc.devRef .tc main_v6) = dstIdx (m ((c : Thread nD τ).loc main_arg1)) :=
  (W4_of_ne m ρ c main_v6 (by decide)).trans (W3_v6 m ρ c)
theorem W4_v29 : W4 m ρ c (Proc.devRef .tc main_v29) = edgeNorm (m ((c : Thread nD τ).loc main_arg1)) :=
  (W4_of_ne m ρ c main_v29 (by decide)).trans (W3_v29 m ρ c)
theorem W4_arg3 : W4 m ρ c (Proc.devRef .tc main_arg3) = m ((c : Thread nD τ).loc main_arg3) :=
  (W4_of_ne m ρ c main_arg3 (by decide)).trans (W3_arg3 m ρ c)
theorem W4_arg4 : W4 m ρ c (Proc.devRef .tc main_arg4) = m ((c : Thread nD τ).loc main_arg4) :=
  (W4_of_ne m ρ c main_arg4 (by decide)).trans (W3_arg4 m ρ c)
theorem W4_arg5 : W4 m ρ c (Proc.devRef .tc main_arg5) = m ((c : Thread nD τ).loc main_arg5) :=
  (W4_of_ne m ρ c main_arg5 (by decide)).trans (W3_arg5 m ρ c)

/-! The stretch after it: the first layer's aggregation. -/

theorem W5_v43 : W5 m ρ c (Proc.devRef .tc main_v43)
    = agg128 (mm128 (m ((c : Thread nD τ).loc main_arg0)) (m ((c : Thread nD τ).loc main_arg2))) (m ((c : Thread nD τ).loc main_arg1)) := by
  refine (s3_v43 (W4 m ρ c)).trans ?_
  rw [W4_v30, W4_v5, W4_v6, W4_v29]
  rfl
theorem W5_v5 : W5 m ρ c (Proc.devRef .tc main_v5) = srcIdx (m ((c : Thread nD τ).loc main_arg1)) :=
  (k3_v5 (W4 m ρ c)).trans (W4_v5 m ρ c)
theorem W5_v6 : W5 m ρ c (Proc.devRef .tc main_v6) = dstIdx (m ((c : Thread nD τ).loc main_arg1)) :=
  (k3_v6 (W4 m ρ c)).trans (W4_v6 m ρ c)
theorem W5_v29 : W5 m ρ c (Proc.devRef .tc main_v29) = edgeNorm (m ((c : Thread nD τ).loc main_arg1)) :=
  (k3_v29 (W4 m ρ c)).trans (W4_v29 m ρ c)
theorem W5_arg3 : W5 m ρ c (Proc.devRef .tc main_arg3) = m ((c : Thread nD τ).loc main_arg3) :=
  (k3_arg3 (W4 m ρ c)).trans (W4_arg3 m ρ c)
theorem W5_arg4 : W5 m ρ c (Proc.devRef .tc main_arg4) = m ((c : Thread nD τ).loc main_arg4) :=
  (k3_arg4 (W4 m ρ c)).trans (W4_arg4 m ρ c)
theorem W5_arg5 : W5 m ρ c (Proc.devRef .tc main_arg5) = m ((c : Thread nD τ).loc main_arg5) :=
  (k3_arg5 (W4 m ρ c)).trans (W4_arg5 m ρ c)

/-- The first layer's output as the second region leaves it. -/
abbrev hidden : FVec Ideal S100000x128 .f32 :=
  biasRelu (agg128 (mm128 (m ((c : Thread nD τ).loc main_arg0)) (m ((c : Thread nD τ).loc main_arg2))) (m ((c : Thread nD τ).loc main_arg1)))
    (m ((c : Thread nD τ).loc main_arg3))

/-! The second region: the bias and the maximum with zero. -/

theorem W6_v44 : W6 m ρ c (Proc.devRef .tc main_v44) = hidden m c := by
  refine (W6_arr m ρ c 2).trans ((Reg1.final (V5 m ρ) c).trans ?_)
  show biasRelu (W5 m ρ c (Proc.devRef .tc main_v43)) (W5 m ρ c (Proc.devRef .tc main_arg3)) = _
  rw [W5_v43, W5_arg3]
theorem W6_v5 : W6 m ρ c (Proc.devRef .tc main_v5) = srcIdx (m ((c : Thread nD τ).loc main_arg1)) :=
  (W6_of_ne m ρ c main_v5 (by decide)).trans (W5_v5 m ρ c)
theorem W6_v6 : W6 m ρ c (Proc.devRef .tc main_v6) = dstIdx (m ((c : Thread nD τ).loc main_arg1)) :=
  (W6_of_ne m ρ c main_v6 (by decide)).trans (W5_v6 m ρ c)
theorem W6_v29 : W6 m ρ c (Proc.devRef .tc main_v29) = edgeNorm (m ((c : Thread nD τ).loc main_arg1)) :=
  (W6_of_ne m ρ c main_v29 (by decide)).trans (W5_v29 m ρ c)
theorem W6_arg4 : W6 m ρ c (Proc.devRef .tc main_arg4) = m ((c : Thread nD τ).loc main_arg4) :=
  (W6_of_ne m ρ c main_arg4 (by decide)).trans (W5_arg4 m ρ c)
theorem W6_arg5 : W6 m ρ c (Proc.devRef .tc main_arg5) = m ((c : Thread nD τ).loc main_arg5) :=
  (W6_of_ne m ρ c main_arg5 (by decide)).trans (W5_arg5 m ρ c)

/-! The third region: h · W2. -/

theorem W7_v45 : W7 m ρ c (Proc.devRef .tc main_v45) = mm64 (hidden m c) (m ((c : Thread nD τ).loc main_arg4)) := by
  refine (W7_arr m ρ c 2).trans ((Reg2.final (V6 m ρ) c).trans ?_)
  show mm64 (W6 m ρ c (Proc.devRef .tc main_v44)) (W6 m ρ c (Proc.devRef .tc main_arg4)) = _
  rw [W6_v44, W6_arg4]
theorem W7_v5 : W7 m ρ c (Proc.devRef .tc main_v5) = srcIdx (m ((c : Thread nD τ).loc main_arg1)) :=
  (W7_of_ne m ρ c main_v5 (by decide)).trans (W6_v5 m ρ c)
theorem W7_v6 : W7 m ρ c (Proc.devRef .tc main_v6) = dstIdx (m ((c : Thread nD τ).loc main_arg1)) :=
  (W7_of_ne m ρ c main_v6 (by decide)).trans (W6_v6 m ρ c)
theorem W7_v29 : W7 m ρ c (Proc.devRef .tc main_v29) = edgeNorm (m ((c : Thread nD τ).loc main_arg1)) :=
  (W7_of_ne m ρ c main_v29 (by decide)).trans (W6_v29 m ρ c)
theorem W7_arg5 : W7 m ρ c (Proc.devRef .tc main_arg5) = m ((c : Thread nD τ).loc main_arg5) :=
  (W7_of_ne m ρ c main_arg5 (by decide)).trans (W6_arg5 m ρ c)

/-! The stretch after it: the second layer's aggregation. -/

theorem W8_v58 : W8 m ρ c (Proc.devRef .tc main_v58)
    = agg64 (mm64 (hidden m c) (m ((c : Thread nD τ).loc main_arg4))) (m ((c : Thread nD τ).loc main_arg1)) := by
  refine (s4_v58 (W7 m ρ c)).trans ?_
  rw [W7_v45, W7_v5, W7_v6, W7_v29]
  rfl
theorem W8_arg5 : W8 m ρ c (Proc.devRef .tc main_arg5) = m ((c : Thread nD τ).loc main_arg5) :=
  (k4_arg5 (W7 m ρ c)).trans (W7_arg5 m ρ c)

/-! The fourth region: the bias. The result buffer ends at the network of the six arguments. -/

theorem W9_v59 : W9 m ρ c (Proc.devRef .tc main_v59)
    = net (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W9_arr m ρ c 2).trans ((Reg3.final (V8 m ρ) c).trans ?_)
  show bias64 (W8 m ρ c (Proc.devRef .tc main_v58)) (W8 m ρ c (Proc.devRef .tc main_arg5)) = _
  rw [W8_v58, W8_arg5]
  rfl

end Cert.Gcn.Fold

end
-- ==== Proof.LibStraightLine.lean ====
/-
  A straight line of operations in single-assignment form, read one operation at a time.

  A line of operations rewrites a valuation of the buffers, operation by operation. When every buffer is written by at most
  one operation of the line, and an operation's operands are written before it, the valuation after the WHOLE line already
  satisfies each operation's equation: the buffer the k-th operation writes holds that operation's function of what its
  operand buffers hold — all read after the whole line, because nothing later touches either. So the value of the last
  buffer follows from the operations' equations one by one, sharing every intermediate buffer, and the composed term of the
  whole line is never formed.

  The buffers the operations write are listed once, in order (`WritesAre`); "no operation from position k on writes r" is
  then the absence of r from the list's tail, a question about references alone.
  General: nothing here depends on a particular program.
-/
import Idealize.ShloMosaic.Lib.StableHlo.Run

namespace Cert.LibStraightLine

open Idealize.ShloMosaic Idealize.ShloMosaic.StableHlo

variable {τ : Topo} {sig : RefSig} {Val : EltTy → Type}

/-- Two lines one after the other. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A buffer that no operation from position k on writes holds, after the line, what it held after the first k operations. -/
theorem after_eq_take (ops : List (HloOp τ sig Val)) (V : Valuation τ sig Val) (k : Nat) (b : DevRef τ sig)
    (h : ∀ op ∈ ops.drop k, b ∉ op.writes) : after ops V b = after (ops.take k) V b := by
  conv_lhs => rw [← List.take_append_drop k ops]
  rw [after_append, after_of_forall_not_mem _ _ h]

/-- A buffer that no operation past position k writes holds, after the line, what operation k left in it. -/
theorem after_eq_result (ops : List (HloOp τ sig Val)) (V : Valuation τ sig Val) (k : Nat) (hk : k < ops.length)
    (b : DevRef τ sig) (h : ∀ op ∈ ops.drop (k + 1), b ∉ op.writes) :
    after ops V b = (ops[k]).result (after (ops.take k) V) b := by
  rw [after_eq_take ops V (k + 1) b h, List.take_succ_eq_append_getElem hk, after_append, after_cons, after_nil]

/-- The buffers the operations write are, in order, the references W: each operation writes exactly one. -/
def WritesAre (ops : List (HloOp τ sig Val)) (W : List (Ref sig .tc)) : Prop :=
  ops.map (fun op => op.writes) = W.map fun r => ({(Proc.devRef .tc r : DevRef τ sig)} : Finset (DevRef τ sig))

/-- A reference absent from the list's tail is written by no operation from that position on. -/
theorem not_written {ops : List (HloOp τ sig Val)} {W : List (Ref sig .tc)} (hW : WritesAre ops W) (k : Nat)
    {y : Ref sig .tc} (hy : y ∉ W.drop k) : ∀ op ∈ ops.drop k, (Proc.devRef .tc y : DevRef τ sig) ∉ op.writes := by
  intro op hop hmem
  have h1 : op.writes ∈ (ops.drop k).map (fun op => op.writes) := List.mem_map.mpr ⟨op, hop, rfl⟩
  unfold WritesAre at hW
  rw [List.map_drop, hW, ← List.map_drop] at h1
  obtain ⟨r, hr, he⟩ := List.mem_map.mp h1
  rw [← he, Finset.mem_singleton] at hmem
  exact hy (Proc.devRef_injective _ hmem ▸ hr)

variable {ops : List (HloOp τ sig Val)} {V : Valuation τ sig Val}

/-- Operation k defines its result buffer. -/
theorem nullary_at (k : Nat) (hk : k < ops.length) {y : Ref sig .tc} {v : y.ty.Contents Val} {hy}
    (hop : ops[k] = nullary y v hy)
    (hy' : ∀ op ∈ ops.drop (k + 1), (Proc.devRef .tc y : DevRef τ sig) ∉ op.writes) :
    after ops V (Proc.devRef .tc y) = v := by
  rw [after_eq_result ops V k hk _ hy', hop, nullary_result]

/-- Operation k applies its function to its operand buffer as the whole line leaves it. -/
theorem unary_at (k : Nat) (hk : k < ops.length) {x y : Ref sig .tc} {f : x.ty.Contents Val → y.ty.Contents Val} {hx hy}
    (hop : ops[k] = unary x y f hx hy)
    (hy' : ∀ op ∈ ops.drop (k + 1), (Proc.devRef .tc y : DevRef τ sig) ∉ op.writes)
    (hx' : ∀ op ∈ ops.drop k, (Proc.devRef .tc x : DevRef τ sig) ∉ op.writes) :
    after ops V (Proc.devRef .tc y) = f (after ops V (Proc.devRef .tc x)) := by
  rw [after_eq_result ops V k hk _ hy', hop, unary_result, ← after_eq_take ops V k _ hx']

theorem binary_at (k : Nat) (hk : k < ops.length) {a b y : Ref sig .tc}
    {f : a.ty.Contents Val → b.ty.Contents Val → y.ty.Contents Val} {ha hb hy}
    (hop : ops[k] = binary a b y f ha hb hy)
    (hy' : ∀ op ∈ ops.drop (k + 1), (Proc.devRef .tc y : DevRef τ sig) ∉ op.writes)
    (ha' : ∀ op ∈ ops.drop k, (Proc.devRef .tc a : DevRef τ sig) ∉ op.writes)
    (hb' : ∀ op ∈ ops.drop k, (Proc.devRef .tc b : DevRef τ sig) ∉ op.writes) :
    after ops V (Proc.devRef .tc y) = f (after ops V (Proc.devRef .tc a)) (after ops V (Proc.devRef .tc b)) := by
  rw [after_eq_result ops V k hk _ hy', hop, binary_result, ← after_eq_take ops V k _ ha', ← after_eq_take ops V k _ hb']

theorem ternary_at (k : Nat) (hk : k < ops.length) {c a b y : Ref sig .tc}
    {f : c.ty.Contents Val → a.ty.Contents Val → b.ty.Contents Val → y.ty.Contents Val} {hc ha hb hy}
    (hop : ops[k] = ternary c a b y f hc ha hb hy)
    (hy' : ∀ op ∈ ops.drop (k + 1), (Proc.devRef .tc y : DevRef τ sig) ∉ op.writes)
    (hc' : ∀ op ∈ ops.drop k, (Proc.devRef .tc c : DevRef τ sig) ∉ op.writes)
    (ha' : ∀ op ∈ ops.drop k, (Proc.devRef .tc a : DevRef τ sig) ∉ op.writes)
    (hb' : ∀ op ∈ ops.drop k, (Proc.devRef .tc b : DevRef τ sig) ∉ op.writes) :
    after ops V (Proc.devRef .tc y)
      = f (after ops V (Proc.devRef .tc c)) (after ops V (Proc.devRef .tc a)) (after ops V (Proc.devRef .tc b)) := by
  rw [after_eq_result ops V k hk _ hy', hop, ternary_result, ← after_eq_take ops V k _ hc', ← after_eq_take ops V k _ ha',
    ← after_eq_take ops V k _ hb']

theorem reshape_at (k : Nat) (hk : k < ops.length) {x y : Ref sig .tc} {he : x.ty.elt = y.ty.elt}
    {hn : x.ty.shape.ShapeCasts y.ty.shape} {hx hy}
    (hop : ops[k] = reshape x y he hn hx hy)
    (hy' : ∀ op ∈ ops.drop (k + 1), (Proc.devRef .tc y : DevRef τ sig) ∉ op.writes)
    (hx' : ∀ op ∈ ops.drop k, (Proc.devRef .tc x : DevRef τ sig) ∉ op.writes) :
    after ops V (Proc.devRef .tc y) = fun i => he ▸ shapeCast y.ty.shape (after ops V (Proc.devRef .tc x)) hn i := by
  rw [after_eq_result ops V k hk _ hy', hop, reshape_result, ← after_eq_take ops V k _ hx']

/-- A buffer no operation writes holds its launch contents. -/
theorem untouched_at {W : List (Ref sig .tc)} (hW : WritesAre ops W) {r : Ref sig .tc} (hr : r ∉ W) :
    after ops V (Proc.devRef .tc r) = V (Proc.devRef .tc r) :=
  after_of_forall_not_mem ops V (by simpa using not_written hW 0 (by simpa using hr))

end Cert.LibStraightLine
-- ==== Proof.RefOps.lean ====
/-
  The reference program's 119 operations, one equation each: the buffer an operation writes holds, after the whole
  line, the operation's function of what its operand buffers hold after the whole line. Every buffer is written by
  exactly one operation and read only by later ones, so the equations follow from the list of written buffers alone.
-/
import proofs.«177499_j80023830659516_1_alg».proof.Proof.RefRun
import proofs.«177499_j80023830659516_1_alg».proof.Proof.LibStraightLine

noncomputable section

namespace Cert.Gcn.Ref

open Cert.ReferenceIdeal Cert.ReferenceIdeal.Gen Cert.ReferenceIdeal.RunP Idealize.ShloMosaic Idealize.ShloMosaic.TcCoe Idealize.SL.Sem Idealize.ShloMosaic.StableHlo Cert.LibStraightLine

variable {F : FTy → Type} [FloatOps F]

/-- The buffers the 119 operations write, in order. -/
abbrev W : List (Ref sig .tc) :=
  [main_v0, main_v1, main_v2, main_v3, main_v4, main_v5, main_v6, main_v7, main_cst, main_v8, main_cst_0, main_v9, main_v10, main_v11, main_cst_1, main_v12, main_v13, main_v14, main_cst_2, main_call0_v0, main_call0_v1, main_v15, main_c, main_v16, main_v17, main_c_3, main_v18, main_v19, main_v20, main_v21, main_v22, main_c_4, main_v23, main_v24, main_c_5, main_v25, main_v26, main_v27, main_v28, main_v29, main_v30, main_c_6, main_v31, main_v32, main_c_7, main_v33, main_v34, main_v35, main_v36, main_v37, main_v38, main_v39, main_v40, main_cst_8, main_v41, main_v42, main_v43, main_v44, main_v45, main_v46, main_call1_cst, main_call1_v0, main_v47, main_v48, main_v49, main_v50, main_v51, main_cst_9, main_v52, main_cst_10, main_v53, main_v54, main_v55, main_cst_11, main_v56, main_v57, main_v58, main_cst_12, main_call2_v0, main_call2_v1, main_v59, main_c_13, main_v60, main_v61, main_c_14, main_v62, main_v63, main_v64, main_v65, main_v66, main_c_15, main_v67, main_v68, main_c_16, main_v69, main_v70, main_v71, main_v72, main_v73, main_v74, main_c_17, main_v75, main_v76, main_c_18, main_v77, main_v78, main_v79, main_v80, main_v81, main_v82, main_v83, main_v84, main_cst_19, main_v85, main_v86, main_v87, main_v88, main_v89, main_v90]

set_option maxRecDepth 8192 in
set_option maxHeartbeats 4000000 in
theorem hW : WritesAre (ops (F := F)) W := rfl

set_option maxRecDepth 8192 in
theorem ops_length : (ops (F := F)).length = 119 := rfl

theorem lt_len {k : Nat} (h : k < 119) : k < (ops (F := F)).length := ops_length (F := F) ▸ h

/-- Row 0 of the edge list, as a one-row matrix. -/
def sliceRow0 : (⟨S2x1600000, .i32⟩ : BufTy).Contents (Elt F) → (⟨S1x1600000, .i32⟩ : BufTy).Contents (Elt F) :=
  fun x => extractStridedSlice S1x1600000 ![0, 0] x slices_S2x1600000_S1x1600000_0_0
/-- Row 1 of the edge list, as a one-row matrix. -/
def sliceRow1 : (⟨S2x1600000, .i32⟩ : BufTy).Contents (Elt F) → (⟨S1x1600000, .i32⟩ : BufTy).Contents (Elt F) :=
  fun x => extractStridedSlice S1x1600000 ![1, 0] x slices_S2x1600000_S1x1600000_1_0

variable (V : Valuation τ sig (Elt F))

theorem at_main_v0 : after ops V (Proc.devRef .tc main_v0) = (sliceRow0 (F := F)) (after ops V (Proc.devRef .tc main_arg1)) :=
  unary_at (ops := ops (F := F)) (V := V) 0 (lt_len (by decide)) (x := main_arg1) (y := main_v0) (hx := ⟨by decide, rfl⟩) (hy := ⟨by decide, rfl⟩) (f := (sliceRow0 (F := F))) rfl (not_written hW 1 (by decide +kernel)) (not_written hW 0 (by decide +kernel))
theorem at_main_v1 : after ops V (Proc.devRef .tc main_v1) = shapeCast main_v1.ty.shape (after ops V (Proc.devRef .tc main_v0)) shapeCasts_S1x1600000_S1600000 :=
  reshape_at (ops := ops (F := F)) (V := V) 1 (lt_len (by decide)) (x := main_v0) (y := main_v1) (hx := ⟨by decide, rfl⟩) (hy := ⟨by decide, rfl⟩) (he := rfl) (hn := shapeCasts_S1x1600000_S1600000) rfl (not_written hW 2 (by decide +kernel)) (not_written hW 1 (by decide +kernel))
theorem at_main_v2 : after ops V (Proc.devRef .tc main_v2) = (sliceRow1 (F := F)) (after ops V (Proc.devRef .tc main_arg1)) :=
  unary_at (ops := ops (F := F)) (V := V) 2 (lt_len (by decide)) (x := main_arg1) (y := main_v2) (hx := ⟨by decide, rfl⟩) (hy := ⟨by decide, rfl⟩) (f := (sliceRow1 (F := F))) rfl (not_written hW 3 (by decide +kernel)) (not_written hW 2 (by decide +kernel))
theorem at_main_v3 : after ops V (Proc.devRef .tc main_v3) = shapeCast main_v3.ty.shape (after ops V (Proc.devRef .tc main_v2)) shapeCasts_S1x1600000_S1600000 :=
  reshape_at (ops := ops (F := F)) (V := V) 3 (lt_len (by decide)) (x := main_v2) (y := main_v3) (hx := ⟨by decide, rfl⟩) (hy := ⟨by decide, rfl⟩) (he := rfl) (hn := shapeCasts_S1x1600000_S1600000) rfl (not_written hW 4 (by decide +kernel)) (not_written hW 3 (by decide +kernel))
theorem at_main_v4 : after ops V (Proc.devRef .tc main_v4) = ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) (after ops V (Proc.devRef .tc main_arg0)) (after ops V (Proc.devRef .tc main_arg2)) :=
  binary_at (ops := ops (F := F)) (V := V) 4 (lt_len (by decide)) (a := main_arg0) (b := main_arg2) (y := main_v4) (ha := ⟨by decide, rfl⟩) (hb := ⟨by decide, rfl⟩) (hy := ⟨by decide, rfl⟩) (f := ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))) rfl (not_written hW 5 (by decide +kernel)) (not_written hW 4 (by decide +kernel)) (not_written hW 4 (by decide +kernel))
theorem at_main_v5 : after ops V (Proc.devRef .tc main_v5) = (iotaInDim S100000 32 0) :=
  nullary_at (ops := ops (F := F)) (V := V) 5 (lt_len (by decide)) (y := main_v5) (hy := ⟨by decide, rfl⟩) (v := (iotaInDim S100000 32 0)) rfl (not_written hW 6 (by decide +kernel))
theorem at_main_v6 : after ops V (Proc.devRef .tc main_v6) = ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) (after ops V (Proc.devRef .tc main_v1)) (after ops V (Proc.devRef .tc main_v5)) :=
  binary_at (ops := ops (F := F)) (V := V) 6 (lt_len (by decide)) (a := main_v1) (b := main_v5) (y := main_v6) (ha := ⟨by decide, rfl⟩) (hb := ⟨by decide, rfl⟩) (hy := ⟨by decide, rfl⟩) (f := ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F))) rfl (not_written hW 7 (by decide +kernel)) (not_written hW 6 (by decide +kernel)) (not_written hW 6 (by decide +kernel))
theorem at_main_v7 : after ops V (Proc.devRef .tc main_v7) = ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) (after ops V (Proc.devRef .tc main_v3)) (after ops V (Proc.devRef .tc main_v5)) :=
  binary_at (ops := ops (F := F)) (V := V) 7 (lt_len (by decide)) (a := main_v3) (b := main_v5) (y := main_v7) (ha := ⟨by decide, rfl⟩) (hb := ⟨by decide, rfl⟩) (hy := ⟨by decide, rfl⟩) (f := ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F))) rfl (not_written hW 8 (by decide +kernel)) (not_written hW 7 (by decide +kernel)) (not_written hW 7 (by decide +kernel))
theorem at_main_cst : after ops V (Proc.devRef .tc main_cst) = (constant S_ .f32 0x3F800000#32) :=
  nullary_at (ops := ops (F := F)) (V := V) 8 (lt_len (by decide)) (y := main_cst) (hy := ⟨by decide, rfl⟩) (v := (constant S_ .f32 0x3F800000#32)) rfl (not_written hW 9 (by decide +kernel))
theorem at_main_v8 : after ops V (Proc.devRef .tc main_v8) = (broadcastInDim S1700000 ![] bcast_S_S1700000 : (⟨S_, .f32⟩ : BufTy).Contents (Elt F) → (⟨S1700000, .f32⟩ : BufTy).Contents (Elt F)) (after ops V (Proc.devRef .tc main_cst)) :=
  unary_at (ops := ops (F := F)) (V := V) 9 (lt_len (by decide)) (x := main_cst) (y := main_v8) (hx := ⟨by decide, rfl⟩) (hy := ⟨by decide, rfl⟩) (f := (broadcastInDim S1700000 ![] bcast_S_S1700000 : (⟨S_, .f32⟩ : BufTy).Contents (Elt F) → (⟨S1700000, .f32⟩ : BufTy).Contents (Elt F))) rfl (not_written hW 10 (by decide +kernel)) (not_written hW 9 (by decide +kernel))
theorem at_main_cst_0 : after ops V (Proc.devRef .tc main_cst_0) = (constant S_ .f32 0x00000000#32) :=
  nullary_at (ops := ops (F := F)) (V := V) 10 (lt_len (by decide)) (y := main_cst_0) (hy := ⟨by decide, rfl⟩) (v := (constant S_ .f32 0x00000000#32)) rfl (not_written hW 11 (by decide +kernel))
theorem at_main_v9 : after ops V (Proc.devRef .tc main_v9) = (broadcastInDim S100000 ![] bcast_S_S100000 : (⟨S_, .f32⟩ : BufTy).Contents (Elt F) → (⟨S100000, .f32⟩ : BufTy).Contents (Elt F)) (after ops V (Proc.devRef .tc main_cst_0)) :=
  unary_at (ops := ops (F := F)) (V := V) 11 (lt_len (by decide)) (x := main_cst_0) (y := main_v9) (hx := ⟨by decide, rfl⟩) (hy := ⟨by decide, rfl⟩) (f := (broadcastInDim S100000 ![] bcast_S_S100000 : (⟨S_, .f32⟩ : BufTy).Contents (Elt F) → (⟨S100000, .f32⟩ : BufTy).Contents (Elt F))) rfl (not_written hW 12 (by decide +kernel)) (not_written hW 11 (by decide +kernel))
theorem at_main_v10 : after ops V (Proc.devRef .tc main_v10) = (broadcastInDim S1700000x1 ![0] bcast_S1700000_S1700000x1_0 : (⟨S1700000, .i32⟩ : BufTy).Contents (Elt F) → (⟨S1700000x1, .i32⟩ : BufTy).Contents (Elt F)) (after ops V (Proc.devRef .tc main_v7)) :=
  unary_at (ops := ops (F := F)) (V := V) 12 (lt_len (by decide)) (x := main_v7) (y := main_v10) (hx := ⟨by decide, rfl⟩) (hy := ⟨by decide, rfl⟩) (f := (broadcastInDim S1700000x1 ![0] bcast_S1700000_S1700000x1_0 : (⟨S1700000, .i32⟩ : BufTy).Contents (Elt F) → (⟨S1700000x1, .i32⟩ : BufTy).Contents (Elt F))) rfl (not_written hW 13 (by decide +kernel)) (not_written hW 12 (by decide +kernel))
theorem at_main_v11 : after ops V (Proc.devRef .tc main_v11) = ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)) (after ops V (Proc.devRef .tc main_v9)) (after ops V (Proc.devRef .tc main_v10)) (after ops V (Proc.devRef .tc main_v8)) :=
  ternary_at (ops := ops (F := F)) (V := V) 13 (lt_len (by decide)) (c := main_v9) (a := main_v10) (b := main_v8) (y := main_v11) (hc := ⟨by decide, rfl⟩) (ha := ⟨by decide, rfl⟩) (hb := ⟨by decide, rfl⟩) (hy := ⟨by decide, rfl⟩) (f := ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F))) rfl (not_written hW 14 (by decide +kernel)) (not_written hW 13 (by decide +kernel)) (not_written hW 13 (by decide +kernel)) (not_written hW 13 (by decide +kernel))
theorem at_main_cst_1 : after ops V (Proc.devRef .tc main_cst_1) = (constant S_ .f32 0x00000000#32) :=
  nullary_at (ops := ops (F := F)) (V := V) 14 (lt_len (by decide)) (y := main_cst_1) (hy := ⟨by decide, rfl⟩) (v := (constant S_ .f32 0x00000000#32)) rfl (not_written hW 15 (by decide +kernel))
theorem at_main_v12 : after ops V (Proc.devRef .tc main_v12) = (broadcastInDim S100000 ![] bcast_S_S100000 : (⟨S_, .f32⟩ : BufTy).Contents (Elt F) → (⟨S100000, .f32⟩ : BufTy).Contents (Elt F)) (after ops V (Proc.devRef .tc main_cst_1)) :=
  unary_at (ops := ops (F := F)) (V := V) 15 (lt_len (by decide)) (x := main_cst_1) (y := main_v12) (hx := ⟨by decide, rfl⟩) (hy := ⟨by decide, rfl⟩) (f := (broadcastInDim S100000 ![] bcast_S_S100000 : (⟨S_, .f32⟩ : BufTy).Contents (Elt F) → (⟨S100000, .f32⟩ : BufTy).Contents (Elt F))) rfl (not_written hW 16 (by decide +kernel)) (not_written hW 15 (by decide +kernel))
theorem at_main_v13 : after ops V (Proc.devRef .tc main_v13) = (cmpf .ogt : (⟨S100000, .f32⟩ : BufTy).Contents (Elt F) → (⟨S100000, .f32⟩ : BufTy).Contents (Elt F) → (⟨S100000, .i1⟩ : BufTy).Contents (Elt F)) (after ops V (Proc.devRef .tc main_v11)) (after ops V (Proc.devRef .tc main_v12)) :=
  binary_at (ops := ops (F := F)) (V := V) 16 (lt_len (by decide)) (a := main_v11) (b := main_v12) (y := main_v13) (ha := ⟨by decide, rfl⟩) (hb := ⟨by decide, rfl⟩) (hy := ⟨by decide, rfl⟩) (f := (cmpf .ogt : (⟨S100000, .f32⟩ : BufTy).Contents (Elt F) → (⟨S100000, .f32⟩ : BufTy).Contents (Elt F) → (⟨S100000, .i1⟩ : BufTy).Contents (Elt F))) rfl (not_written hW 17 (by decide +kernel)) (not_written hW 16 (by decide +kernel)) (not_written hW 16 (by decide +kernel))
theorem at_main_v14 : after ops V (Proc.devRef .tc main_v14) = (Host.rsqrt : (⟨S100000, .f32⟩ : BufTy).Contents (Elt F) → (⟨S100000, .f32⟩ : BufTy).Contents (Elt F)) (after ops V (Proc.devRef .tc main_v11)) :=
  unary_at (ops := ops (F := F)) (V := V) 17 (lt_len (by decide)) (x := main_v11) (y := main_v14) (hx := ⟨by decide, rfl⟩) (hy := ⟨by decide, rfl⟩) (f := (Host.rsqrt : (⟨S100000, .f32⟩ : BufTy).Contents (Elt F) → (⟨S100000, .f32⟩ : BufTy).Contents (Elt F))) rfl (not_written hW 18 (by decide +kernel)) (not_written hW 17 (by decide +kernel))
theorem at_main_cst_2 : after ops V (Proc.devRef .tc main_cst_2) = (constant S_ .f32 0x00000000#32) :=
  nullary_at (ops := ops (F := F)) (V := V) 18 (lt_len (by decide)) (y := main_cst_2) (hy := ⟨by decide, rfl⟩) (v := (constant S_ .f32 0x00000000#32)) rfl (not_written hW 19 (by decide +kernel))
theorem at_main_call0_v0 : after ops V (Proc.devRef .tc main_call0_v0) = (id : (⟨S_, .f32⟩ : BufTy).Contents (Elt F) → (⟨S_, .f32⟩ : BufTy).Contents (Elt F)) (after ops V (Proc.devRef .tc main_cst_2)) :=
  unary_at (ops := ops (F := F)) (V := V) 19 (lt_len (by decide)) (x := main_cst_2) (y := main_call0_v0) (hx := ⟨by decide, rfl⟩) (hy := ⟨by decide, rfl⟩) (f := (id : (⟨S_, .f32⟩ : BufTy).Contents (Elt F) → (⟨S_, .f32⟩ : BufTy).Contents (Elt F))) rfl (not_written hW 20 (by decide +kernel)) (not_written hW 19 (by decide +kernel))
theorem at_main_call0_v1 : after ops V (Proc.devRef .tc main_call0_v1) = ((broadcastInDim S100000 ![] bcast_S_S100000) : (⟨S_, .f32⟩ : BufTy).Contents (Elt F) → (⟨S100000, .f32⟩ : BufTy).Contents (Elt F)) (after ops V (Proc.devRef .tc main_call0_v0)) :=
  unary_at (ops := ops (F := F)) (V := V) 20 (lt_len (by decide)) (x := main_call0_v0) (y := main_call0_v1) (hx := ⟨by decide, rfl⟩) (hy := ⟨by decide, rfl⟩) (f := ((broadcastInDim S100000 ![] bcast_S_S100000) : (⟨S_, .f32⟩ : BufTy).Contents (Elt F) → (⟨S100000, .f32⟩ : BufTy).Contents (Elt F))) rfl (not_written hW 21 (by decide +kernel)) (not_written hW 20 (by decide +kernel))
theorem at_main_v15 : after ops V (Proc.devRef .tc main_v15) = (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) (after ops V (Proc.devRef .tc main_v13)) (after ops V (Proc.devRef .tc main_v14)) (after ops V (Proc.devRef .tc main_call0_v1)) :=
  ternary_at (ops := ops (F := F)) (V := V) 21 (lt_len (by decide)) (c := main_v13) (a := main_v14) (b := main_call0_v1) (y := main_v15) (hc := ⟨by decide, rfl⟩) (ha := ⟨by decide, rfl⟩) (hb := ⟨by decide, rfl⟩) (hy := ⟨by decide, rfl⟩) (f := (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F))) rfl (not_written hW 22 (by decide +kernel)) (not_written hW 21 (by decide +kernel)) (not_written hW 21 (by decide +kernel)) (not_written hW 21 (by decide +kernel))
theorem at_main_c : after ops V (Proc.devRef .tc main_c) = (constantI S_ 32 0#32) :=
  nullary_at (ops := ops (F := F)) (V := V) 22 (lt_len (by decide)) (y := main_c) (hy := ⟨by decide, rfl⟩) (v := (constantI S_ 32 0#32)) rfl (not_written hW 23 (by decide +kernel))
theorem at_main_v16 : after ops V (Proc.devRef .tc main_v16) = (broadcastInDim S1700000 ![] bcast_S_S1700000 : (⟨S_, .i32⟩ : BufTy).Contents (Elt F) → (⟨S1700000, .i32⟩ : BufTy).Contents (Elt F)) (after ops V (Proc.devRef .tc main_c)) :=
  unary_at (ops := ops (F := F)) (V := V) 23 (lt_len (by decide)) (x := main_c) (y := main_v16) (hx := ⟨by decide, rfl⟩) (hy := ⟨by decide, rfl⟩) (f := (broadcastInDim S1700000 ![] bcast_S_S1700000 : (⟨S_, .i32⟩ : BufTy).Contents (Elt F) → (⟨S1700000, .i32⟩ : BufTy).Contents (Elt F))) rfl (not_written hW 24 (by decide +kernel)) (not_written hW 23 (by decide +kernel))
theorem at_main_v17 : after ops V (Proc.devRef .tc main_v17) = (cmpi .slt : (⟨S1700000, .i32⟩ : BufTy).Contents (Elt F) → (⟨S1700000, .i32⟩ : BufTy).Contents (Elt F) → (⟨S1700000, .i1⟩ : BufTy).Contents (Elt F)) (after ops V (Proc.devRef .tc main_v6)) (after ops V (Proc.devRef .tc main_v16)) :=
  binary_at (ops := ops (F := F)) (V := V) 24 (lt_len (by decide)) (a := main_v6) (b := main_v16) (y := main_v17) (ha := ⟨by decide, rfl⟩) (hb := ⟨by decide, rfl⟩) (hy := ⟨by decide, rfl⟩) (f := (cmpi .slt : (⟨S1700000, .i32⟩ : BufTy).Contents (Elt F) → (⟨S1700000, .i32⟩ : BufTy).Contents (Elt F) → (⟨S1700000, .i1⟩ : BufTy).Contents (Elt F))) rfl (not_written hW 25 (by decide +kernel)) (not_written hW 24 (by decide +kernel)) (not_written hW 24 (by decide +kernel))
theorem at_main_c_3 : after ops V (Proc.devRef .tc main_c_3) = (constantI S_ 32 100000#32) :=
  nullary_at (ops := ops (F := F)) (V := V) 25 (lt_len (by decide)) (y := main_c_3) (hy := ⟨by decide, rfl⟩) (v := (constantI S_ 32 100000#32)) rfl (not_written hW 26 (by decide +kernel))
theorem at_main_v18 : after ops V (Proc.devRef .tc main_v18) = (broadcastInDim S1700000 ![] bcast_S_S1700000 : (⟨S_, .i32⟩ : BufTy).Contents (Elt F) → (⟨S1700000, .i32⟩ : BufTy).Contents (Elt F)) (after ops V (Proc.devRef .tc main_c_3)) :=
  unary_at (ops := ops (F := F)) (V := V) 26 (lt_len (by decide)) (x := main_c_3) (y := main_v18) (hx := ⟨by decide, rfl⟩) (hy := ⟨by decide, rfl⟩) (f := (broadcastInDim S1700000 ![] bcast_S_S1700000 : (⟨S_, .i32⟩ : BufTy).Contents (Elt F) → (⟨S1700000, .i32⟩ : BufTy).Contents (Elt F))) rfl (not_written hW 27 (by decide +kernel)) (not_written hW 26 (by decide +kernel))
theorem at_main_v19 : after ops V (Proc.devRef .tc main_v19) = (addi : (⟨S1700000, .i32⟩ : BufTy).Contents (Elt F) → (⟨S1700000, .i32⟩ : BufTy).Contents (Elt F) → (⟨S1700000, .i32⟩ : BufTy).Contents (Elt F)) (after ops V (Proc.devRef .tc main_v6)) (after ops V (Proc.devRef .tc main_v18)) :=
  binary_at (ops := ops (F := F)) (V := V) 27 (lt_len (by decide)) (a := main_v6) (b := main_v18) (y := main_v19) (ha := ⟨by decide, rfl⟩) (hb := ⟨by decide, rfl⟩) (hy := ⟨by decide, rfl⟩) (f := (addi : (⟨S1700000, .i32⟩ : BufTy).Contents (Elt F) → (⟨S1700000, .i32⟩ : BufTy).Contents (Elt F) → (⟨S1700000, .i32⟩ : BufTy).Contents (Elt F))) rfl (not_written hW 28 (by decide +kernel)) (not_written hW 27 (by decide +kernel)) (not_written hW 27 (by decide +kernel))
theorem at_main_v20 : after ops V (Proc.devRef .tc main_v20) = (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) (after ops V (Proc.devRef .tc main_v17)) (after ops V (Proc.devRef .tc main_v19)) (after ops V (Proc.devRef .tc main_v6)) :=
  ternary_at (ops := ops (F := F)) (V := V) 28 (lt_len (by decide)) (c := main_v17) (a := main_v19) (b := main_v6) (y := main_v20) (hc := ⟨by decide, rfl⟩) (ha := ⟨by decide, rfl⟩) (hb := ⟨by decide, rfl⟩) (hy := ⟨by decide, rfl⟩) (f := (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F))) rfl (not_written hW 29 (by decide +kernel)) (not_written hW 28 (by decide +kernel)) (not_written hW 28 (by decide +kernel)) (not_written hW 28 (by decide +kernel))
theorem at_main_v21 : after ops V (Proc.devRef .tc main_v21) = (broadcastInDim S1700000x1 ![0] bcast_S1700000_S1700000x1_0 : (⟨S1700000, .i32⟩ : BufTy).Contents (Elt F) → (⟨S1700000x1, .i32⟩ : BufTy).Contents (Elt F)) (after ops V (Proc.devRef .tc main_v20)) :=
  unary_at (ops := ops (F := F)) (V := V) 29 (lt_len (by decide)) (x := main_v20) (y := main_v21) (hx := ⟨by decide, rfl⟩) (hy := ⟨by decide, rfl⟩) (f := (broadcastInDim S1700000x1 ![0] bcast_S1700000_S1700000x1_0 : (⟨S1700000, .i32⟩ : BufTy).Contents (Elt F) → (⟨S1700000x1, .i32⟩ : BufTy).Contents (Elt F))) rfl (not_written hW 30 (by decide +kernel)) (not_written hW 29 (by decide +kernel))
theorem at_main_v22 : after ops V (Proc.devRef .tc main_v22) = ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)) (after ops V (Proc.devRef .tc main_v15)) (after ops V (Proc.devRef .tc main_v21)) :=
  binary_at (ops := ops (F := F)) (V := V) 30 (lt_len (by decide)) (a := main_v15) (b := main_v21) (y := main_v22) (ha := ⟨by decide, rfl⟩) (hb := ⟨by decide, rfl⟩) (hy := ⟨by decide, rfl⟩) (f := ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F))) rfl (not_written hW 31 (by decide +kernel)) (not_written hW 30 (by decide +kernel)) (not_written hW 30 (by decide +kernel))
theorem at_main_c_4 : after ops V (Proc.devRef .tc main_c_4) = (constantI S_ 32 0#32) :=
  nullary_at (ops := ops (F := F)) (V := V) 31 (lt_len (by decide)) (y := main_c_4) (hy := ⟨by decide, rfl⟩) (v := (constantI S_ 32 0#32)) rfl (not_written hW 32 (by decide +kernel))
theorem at_main_v23 : after ops V (Proc.devRef .tc main_v23) = (broadcastInDim S1700000 ![] bcast_S_S1700000 : (⟨S_, .i32⟩ : BufTy).Contents (Elt F) → (⟨S1700000, .i32⟩ : BufTy).Contents (Elt F)) (after ops V (Proc.devRef .tc main_c_4)) :=
  unary_at (ops := ops (F := F)) (V := V) 32 (lt_len (by decide)) (x := main_c_4) (y := main_v23) (hx := ⟨by decide, rfl⟩) (hy := ⟨by decide, rfl⟩) (f := (broadcastInDim S1700000 ![] bcast_S_S1700000 : (⟨S_, .i32⟩ : BufTy).Contents (Elt F) → (⟨S1700000, .i32⟩ : BufTy).Contents (Elt F))) rfl (not_written hW 33 (by decide +kernel)) (not_written hW 32 (by decide +kernel))
theorem at_main_v24 : after ops V (Proc.devRef .tc main_v24) = (cmpi .slt : (⟨S1700000, .i32⟩ : BufTy).Contents (Elt F) → (⟨S1700000, .i32⟩ : BufTy).Contents (Elt F) → (⟨S1700000, .i1⟩ : BufTy).Contents (Elt F)) (after ops V (Proc.devRef .tc main_v7)) (after ops V (Proc.devRef .tc main_v23)) :=
  binary_at (ops := ops (F := F)) (V := V) 33 (lt_len (by decide)) (a := main_v7) (b := main_v23) (y := main_v24) (ha := ⟨by decide, rfl⟩) (hb := ⟨by decide, rfl⟩) (hy := ⟨by decide, rfl⟩) (f := (cmpi .slt : (⟨S1700000, .i32⟩ : BufTy).Contents (Elt F) → (⟨S1700000, .i32⟩ : BufTy).Contents (Elt F) → (⟨S1700000, .i1⟩ : BufTy).Contents (Elt F))) rfl (not_written hW 34 (by decide +kernel)) (not_written hW 33 (by decide +kernel)) (not_written hW 33 (by decide +kernel))
theorem at_main_c_5 : after ops V (Proc.devRef .tc main_c_5) = (constantI S_ 32 100000#32) :=
  nullary_at (ops := ops (F := F)) (V := V) 34 (lt_len (by decide)) (y := main_c_5) (hy := ⟨by decide, rfl⟩) (v := (constantI S_ 32 100000#32)) rfl (not_written hW 35 (by decide +kernel))
theorem at_main_v25 : after ops V (Proc.devRef .tc main_v25) = (broadcastInDim S1700000 ![] bcast_S_S1700000 : (⟨S_, .i32⟩ : BufTy).Contents (Elt F) → (⟨S1700000, .i32⟩ : BufTy).Contents (Elt F)) (after ops V (Proc.devRef .tc main_c_5)) :=
  unary_at (ops := ops (F := F)) (V := V) 35 (lt_len (by decide)) (x := main_c_5) (y := main_v25) (hx := ⟨by decide, rfl⟩) (hy := ⟨by decide, rfl⟩) (f := (broadcastInDim S1700000 ![] bcast_S_S1700000 : (⟨S_, .i32⟩ : BufTy).Contents (Elt F) → (⟨S1700000, .i32⟩ : BufTy).Contents (Elt F))) rfl (not_written hW 36 (by decide +kernel)) (not_written hW 35 (by decide +kernel))
theorem at_main_v26 : after ops V (Proc.devRef .tc main_v26) = (addi : (⟨S1700000, .i32⟩ : BufTy).Contents (Elt F) → (⟨S1700000, .i32⟩ : BufTy).Contents (Elt F) → (⟨S1700000, .i32⟩ : BufTy).Contents (Elt F)) (after ops V (Proc.devRef .tc main_v7)) (after ops V (Proc.devRef .tc main_v25)) :=
  binary_at (ops := ops (F := F)) (V := V) 36 (lt_len (by decide)) (a := main_v7) (b := main_v25) (y := main_v26) (ha := ⟨by decide, rfl⟩) (hb := ⟨by decide, rfl⟩) (hy := ⟨by decide, rfl⟩) (f := (addi : (⟨S1700000, .i32⟩ : BufTy).Contents (Elt F) → (⟨S1700000, .i32⟩ : BufTy).Contents (Elt F) → (⟨S1700000, .i32⟩ : BufTy).Contents (Elt F))) rfl (not_written hW 37 (by decide +kernel)) (not_written hW 36 (by decide +kernel)) (not_written hW 36 (by decide +kernel))
theorem at_main_v27 : after ops V (Proc.devRef .tc main_v27) = (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) (after ops V (Proc.devRef .tc main_v24)) (after ops V (Proc.devRef .tc main_v26)) (after ops V (Proc.devRef .tc main_v7)) :=
  ternary_at (ops := ops (F := F)) (V := V) 37 (lt_len (by decide)) (c := main_v24) (a := main_v26) (b := main_v7) (y := main_v27) (hc := ⟨by decide, rfl⟩) (ha := ⟨by decide, rfl⟩) (hb := ⟨by decide, rfl⟩) (hy := ⟨by decide, rfl⟩) (f := (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F))) rfl (not_written hW 38 (by decide +kernel)) (not_written hW 37 (by decide +kernel)) (not_written hW 37 (by decide +kernel)) (not_written hW 37 (by decide +kernel))
theorem at_main_v28 : after ops V (Proc.devRef .tc main_v28) = (broadcastInDim S1700000x1 ![0] bcast_S1700000_S1700000x1_0 : (⟨S1700000, .i32⟩ : BufTy).Contents (Elt F) → (⟨S1700000x1, .i32⟩ : BufTy).Contents (Elt F)) (after ops V (Proc.devRef .tc main_v27)) :=
  unary_at (ops := ops (F := F)) (V := V) 38 (lt_len (by decide)) (x := main_v27) (y := main_v28) (hx := ⟨by decide, rfl⟩) (hy := ⟨by decide, rfl⟩) (f := (broadcastInDim S1700000x1 ![0] bcast_S1700000_S1700000x1_0 : (⟨S1700000, .i32⟩ : BufTy).Contents (Elt F) → (⟨S1700000x1, .i32⟩ : BufTy).Contents (Elt F))) rfl (not_written hW 39 (by decide +kernel)) (not_written hW 38 (by decide +kernel))
theorem at_main_v29 : after ops V (Proc.devRef .tc main_v29) = ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)) (after ops V (Proc.devRef .tc main_v15)) (after ops V (Proc.devRef .tc main_v28)) :=
  binary_at (ops := ops (F := F)) (V := V) 39 (lt_len (by decide)) (a := main_v15) (b := main_v28) (y := main_v29) (ha := ⟨by decide, rfl⟩) (hb := ⟨by decide, rfl⟩) (hy := ⟨by decide, rfl⟩) (f := ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F))) rfl (not_written hW 40 (by decide +kernel)) (not_written hW 39 (by decide +kernel)) (not_written hW 39 (by decide +kernel))
theorem at_main_v30 : after ops V (Proc.devRef .tc main_v30) = (mulf : (⟨S1700000, .f32⟩ : BufTy).Contents (Elt F) → (⟨S1700000, .f32⟩ : BufTy).Contents (Elt F) → (⟨S1700000, .f32⟩ : BufTy).Contents (Elt F)) (after ops V (Proc.devRef .tc main_v22)) (after ops V (Proc.devRef .tc main_v29)) :=
  binary_at (ops := ops (F := F)) (V := V) 40 (lt_len (by decide)) (a := main_v22) (b := main_v29) (y := main_v30) (ha := ⟨by decide, rfl⟩) (hb := ⟨by decide, rfl⟩) (hy := ⟨by decide, rfl⟩) (f := (mulf : (⟨S1700000, .f32⟩ : BufTy).Contents (Elt F) → (⟨S1700000, .f32⟩ : BufTy).Contents (Elt F) → (⟨S1700000, .f32⟩ : BufTy).Contents (Elt F))) rfl (not_written hW 41 (by decide +kernel)) (not_written hW 40 (by decide +kernel)) (not_written hW 40 (by decide +kernel))
theorem at_main_c_6 : after ops V (Proc.devRef .tc main_c_6) = (constantI S_ 32 0#32) :=
  nullary_at (ops := ops (F := F)) (V := V) 41 (lt_len (by decide)) (y := main_c_6) (hy := ⟨by decide, rfl⟩) (v := (constantI S_ 32 0#32)) rfl (not_written hW 42 (by decide +kernel))
theorem at_main_v31 : after ops V (Proc.devRef .tc main_v31) = (broadcastInDim S1700000 ![] bcast_S_S1700000 : (⟨S_, .i32⟩ : BufTy).Contents (Elt F) → (⟨S1700000, .i32⟩ : BufTy).Contents (Elt F)) (after ops V (Proc.devRef .tc main_c_6)) :=
  unary_at (ops := ops (F := F)) (V := V) 42 (lt_len (by decide)) (x := main_c_6) (y := main_v31) (hx := ⟨by decide, rfl⟩) (hy := ⟨by decide, rfl⟩) (f := (broadcastInDim S1700000 ![] bcast_S_S1700000 : (⟨S_, .i32⟩ : BufTy).Contents (Elt F) → (⟨S1700000, .i32⟩ : BufTy).Contents (Elt F))) rfl (not_written hW 43 (by decide +kernel)) (not_written hW 42 (by decide +kernel))
theorem at_main_v32 : after ops V (Proc.devRef .tc main_v32) = (cmpi .slt : (⟨S1700000, .i32⟩ : BufTy).Contents (Elt F) → (⟨S1700000, .i32⟩ : BufTy).Contents (Elt F) → (⟨S1700000, .i1⟩ : BufTy).Contents (Elt F)) (after ops V (Proc.devRef .tc main_v6)) (after ops V (Proc.devRef .tc main_v31)) :=
  binary_at (ops := ops (F := F)) (V := V) 43 (lt_len (by decide)) (a := main_v6) (b := main_v31) (y := main_v32) (ha := ⟨by decide, rfl⟩) (hb := ⟨by decide, rfl⟩) (hy := ⟨by decide, rfl⟩) (f := (cmpi .slt : (⟨S1700000, .i32⟩ : BufTy).Contents (Elt F) → (⟨S1700000, .i32⟩ : BufTy).Contents (Elt F) → (⟨S1700000, .i1⟩ : BufTy).Contents (Elt F))) rfl (not_written hW 44 (by decide +kernel)) (not_written hW 43 (by decide +kernel)) (not_written hW 43 (by decide +kernel))
theorem at_main_c_7 : after ops V (Proc.devRef .tc main_c_7) = (constantI S_ 32 100000#32) :=
  nullary_at (ops := ops (F := F)) (V := V) 44 (lt_len (by decide)) (y := main_c_7) (hy := ⟨by decide, rfl⟩) (v := (constantI S_ 32 100000#32)) rfl (not_written hW 45 (by decide +kernel))
theorem at_main_v33 : after ops V (Proc.devRef .tc main_v33) = (broadcastInDim S1700000 ![] bcast_S_S1700000 : (⟨S_, .i32⟩ : BufTy).Contents (Elt F) → (⟨S1700000, .i32⟩ : BufTy).Contents (Elt F)) (after ops V (Proc.devRef .tc main_c_7)) :=
  unary_at (ops := ops (F := F)) (V := V) 45 (lt_len (by decide)) (x := main_c_7) (y := main_v33) (hx := ⟨by decide, rfl⟩) (hy := ⟨by decide, rfl⟩) (f := (broadcastInDim S1700000 ![] bcast_S_S1700000 : (⟨S_, .i32⟩ : BufTy).Contents (Elt F) → (⟨S1700000, .i32⟩ : BufTy).Contents (Elt F))) rfl (not_written hW 46 (by decide +kernel)) (not_written hW 45 (by decide +kernel))
theorem at_main_v34 : after ops V (Proc.devRef .tc main_v34) = (addi : (⟨S1700000, .i32⟩ : BufTy).Contents (Elt F) → (⟨S1700000, .i32⟩ : BufTy).Contents (Elt F) → (⟨S1700000, .i32⟩ : BufTy).Contents (Elt F)) (after ops V (Proc.devRef .tc main_v6)) (after ops V (Proc.devRef .tc main_v33)) :=
  binary_at (ops := ops (F := F)) (V := V) 46 (lt_len (by decide)) (a := main_v6) (b := main_v33) (y := main_v34) (ha := ⟨by decide, rfl⟩) (hb := ⟨by decide, rfl⟩) (hy := ⟨by decide, rfl⟩) (f := (addi : (⟨S1700000, .i32⟩ : BufTy).Contents (Elt F) → (⟨S1700000, .i32⟩ : BufTy).Contents (Elt F) → (⟨S1700000, .i32⟩ : BufTy).Contents (Elt F))) rfl (not_written hW 47 (by decide +kernel)) (not_written hW 46 (by decide +kernel)) (not_written hW 46 (by decide +kernel))
theorem at_main_v35 : after ops V (Proc.devRef .tc main_v35) = (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) (after ops V (Proc.devRef .tc main_v32)) (after ops V (Proc.devRef .tc main_v34)) (after ops V (Proc.devRef .tc main_v6)) :=
  ternary_at (ops := ops (F := F)) (V := V) 47 (lt_len (by decide)) (c := main_v32) (a := main_v34) (b := main_v6) (y := main_v35) (hc := ⟨by decide, rfl⟩) (ha := ⟨by decide, rfl⟩) (hb := ⟨by decide, rfl⟩) (hy := ⟨by decide, rfl⟩) (f := (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F))) rfl (not_written hW 48 (by decide +kernel)) (not_written hW 47 (by decide +kernel)) (not_written hW 47 (by decide +kernel)) (not_written hW 47 (by decide +kernel))
theorem at_main_v36 : after ops V (Proc.devRef .tc main_v36) = (broadcastInDim S1700000x1 ![0] bcast_S1700000_S1700000x1_0 : (⟨S1700000, .i32⟩ : BufTy).Contents (Elt F) → (⟨S1700000x1, .i32⟩ : BufTy).Contents (Elt F)) (after ops V (Proc.devRef .tc main_v35)) :=
  unary_at (ops := ops (F := F)) (V := V) 48 (lt_len (by decide)) (x := main_v35) (y := main_v36) (hx := ⟨by decide, rfl⟩) (hy := ⟨by decide, rfl⟩) (f := (broadcastInDim S1700000x1 ![0] bcast_S1700000_S1700000x1_0 : (⟨S1700000, .i32⟩ : BufTy).Contents (Elt F) → (⟨S1700000x1, .i32⟩ : BufTy).Contents (Elt F))) rfl (not_written hW 49 (by decide +kernel)) (not_written hW 48 (by decide +kernel))
theorem at_main_v37 : after ops V (Proc.devRef .tc main_v37) = ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)) (after ops V (Proc.devRef .tc main_v4)) (after ops V (Proc.devRef .tc main_v36)) :=
  binary_at (ops := ops (F := F)) (V := V) 49 (lt_len (by decide)) (a := main_v4) (b := main_v36) (y := main_v37) (ha := ⟨by decide, rfl⟩) (hb := ⟨by decide, rfl⟩) (hy := ⟨by decide, rfl⟩) (f := ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F))) rfl (not_written hW 50 (by decide +kernel)) (not_written hW 49 (by decide +kernel)) (not_written hW 49 (by decide +kernel))
theorem at_main_v38 : after ops V (Proc.devRef .tc main_v38) = (broadcastInDim S1700000x1 ![0] bcast_S1700000_S1700000x1_0 : (⟨S1700000, .f32⟩ : BufTy).Contents (Elt F) → (⟨S1700000x1, .f32⟩ : BufTy).Contents (Elt F)) (after ops V (Proc.devRef .tc main_v30)) :=
  unary_at (ops := ops (F := F)) (V := V) 50 (lt_len (by decide)) (x := main_v30) (y := main_v38) (hx := ⟨by decide, rfl⟩) (hy := ⟨by decide, rfl⟩) (f := (broadcastInDim S1700000x1 ![0] bcast_S1700000_S1700000x1_0 : (⟨S1700000, .f32⟩ : BufTy).Contents (Elt F) → (⟨S1700000x1, .f32⟩ : BufTy).Contents (Elt F))) rfl (not_written hW 51 (by decide +kernel)) (not_written hW 50 (by decide +kernel))
theorem at_main_v39 : after ops V (Proc.devRef .tc main_v39) = (broadcastInDim S1700000x128 ![0, 1] bcast_S1700000x1_S1700000x128_0_1 : (⟨S1700000x1, .f32⟩ : BufTy).Contents (Elt F) → (⟨S1700000x128, .f32⟩ : BufTy).Contents (Elt F)) (after ops V (Proc.devRef .tc main_v38)) :=
  unary_at (ops := ops (F := F)) (V := V) 51 (lt_len (by decide)) (x := main_v38) (y := main_v39) (hx := ⟨by decide, rfl⟩) (hy := ⟨by decide, rfl⟩) (f := (broadcastInDim S1700000x128 ![0, 1] bcast_S1700000x1_S1700000x128_0_1 : (⟨S1700000x1, .f32⟩ : BufTy).Contents (Elt F) → (⟨S1700000x128, .f32⟩ : BufTy).Contents (Elt F))) rfl (not_written hW 52 (by decide +kernel)) (not_written hW 51 (by decide +kernel))
theorem at_main_v40 : after ops V (Proc.devRef .tc main_v40) = (mulf : (⟨S1700000x128, .f32⟩ : BufTy).Contents (Elt F) → (⟨S1700000x128, .f32⟩ : BufTy).Contents (Elt F) → (⟨S1700000x128, .f32⟩ : BufTy).Contents (Elt F)) (after ops V (Proc.devRef .tc main_v37)) (after ops V (Proc.devRef .tc main_v39)) :=
  binary_at (ops := ops (F := F)) (V := V) 52 (lt_len (by decide)) (a := main_v37) (b := main_v39) (y := main_v40) (ha := ⟨by decide, rfl⟩) (hb := ⟨by decide, rfl⟩) (hy := ⟨by decide, rfl⟩) (f := (mulf : (⟨S1700000x128, .f32⟩ : BufTy).Contents (Elt F) → (⟨S1700000x128, .f32⟩ : BufTy).Contents (Elt F) → (⟨S1700000x128, .f32⟩ : BufTy).Contents (Elt F))) rfl (not_written hW 53 (by decide +kernel)) (not_written hW 52 (by decide +kernel)) (not_written hW 52 (by decide +kernel))
theorem at_main_cst_8 : after ops V (Proc.devRef .tc main_cst_8) = (constant S_ .f32 0x00000000#32) :=
  nullary_at (ops := ops (F := F)) (V := V) 53 (lt_len (by decide)) (y := main_cst_8) (hy := ⟨by decide, rfl⟩) (v := (constant S_ .f32 0x00000000#32)) rfl (not_written hW 54 (by decide +kernel))
theorem at_main_v41 : after ops V (Proc.devRef .tc main_v41) = (broadcastInDim S100000x128 ![] bcast_S_S100000x128 : (⟨S_, .f32⟩ : BufTy).Contents (Elt F) → (⟨S100000x128, .f32⟩ : BufTy).Contents (Elt F)) (after ops V (Proc.devRef .tc main_cst_8)) :=
  unary_at (ops := ops (F := F)) (V := V) 54 (lt_len (by decide)) (x := main_cst_8) (y := main_v41) (hx := ⟨by decide, rfl⟩) (hy := ⟨by decide, rfl⟩) (f := (broadcastInDim S100000x128 ![] bcast_S_S100000x128 : (⟨S_, .f32⟩ : BufTy).Contents (Elt F) → (⟨S100000x128, .f32⟩ : BufTy).Contents (Elt F))) rfl (not_written hW 55 (by decide +kernel)) (not_written hW 54 (by decide +kernel))
theorem at_main_v42 : after ops V (Proc.devRef .tc main_v42) = (broadcastInDim S1700000x1 ![0] bcast_S1700000_S1700000x1_0 : (⟨S1700000, .i32⟩ : BufTy).Contents (Elt F) → (⟨S1700000x1, .i32⟩ : BufTy).Contents (Elt F)) (after ops V (Proc.devRef .tc main_v7)) :=
  unary_at (ops := ops (F := F)) (V := V) 55 (lt_len (by decide)) (x := main_v7) (y := main_v42) (hx := ⟨by decide, rfl⟩) (hy := ⟨by decide, rfl⟩) (f := (broadcastInDim S1700000x1 ![0] bcast_S1700000_S1700000x1_0 : (⟨S1700000, .i32⟩ : BufTy).Contents (Elt F) → (⟨S1700000x1, .i32⟩ : BufTy).Contents (Elt F))) rfl (not_written hW 56 (by decide +kernel)) (not_written hW 55 (by decide +kernel))
theorem at_main_v43 : after ops V (Proc.devRef .tc main_v43) = ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) (after ops V (Proc.devRef .tc main_v41)) (after ops V (Proc.devRef .tc main_v42)) (after ops V (Proc.devRef .tc main_v40)) :=
  ternary_at (ops := ops (F := F)) (V := V) 56 (lt_len (by decide)) (c := main_v41) (a := main_v42) (b := main_v40) (y := main_v43) (hc := ⟨by decide, rfl⟩) (ha := ⟨by decide, rfl⟩) (hb := ⟨by decide, rfl⟩) (hy := ⟨by decide, rfl⟩) (f := ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F))) rfl (not_written hW 57 (by decide +kernel)) (not_written hW 56 (by decide +kernel)) (not_written hW 56 (by decide +kernel)) (not_written hW 56 (by decide +kernel))
theorem at_main_v44 : after ops V (Proc.devRef .tc main_v44) = (broadcastInDim S1x128 ![1] bcast_S128_S1x128_1 : (⟨S128, .f32⟩ : BufTy).Contents (Elt F) → (⟨S1x128, .f32⟩ : BufTy).Contents (Elt F)) (after ops V (Proc.devRef .tc main_arg3)) :=
  unary_at (ops := ops (F := F)) (V := V) 57 (lt_len (by decide)) (x := main_arg3) (y := main_v44) (hx := ⟨by decide, rfl⟩) (hy := ⟨by decide, rfl⟩) (f := (broadcastInDim S1x128 ![1] bcast_S128_S1x128_1 : (⟨S128, .f32⟩ : BufTy).Contents (Elt F) → (⟨S1x128, .f32⟩ : BufTy).Contents (Elt F))) rfl (not_written hW 58 (by decide +kernel)) (not_written hW 57 (by decide +kernel))
theorem at_main_v45 : after ops V (Proc.devRef .tc main_v45) = (broadcastInDim S100000x128 ![0, 1] bcast_S1x128_S100000x128_0_1 : (⟨S1x128, .f32⟩ : BufTy).Contents (Elt F) → (⟨S100000x128, .f32⟩ : BufTy).Contents (Elt F)) (after ops V (Proc.devRef .tc main_v44)) :=
  unary_at (ops := ops (F := F)) (V := V) 58 (lt_len (by decide)) (x := main_v44) (y := main_v45) (hx := ⟨by decide, rfl⟩) (hy := ⟨by decide, rfl⟩) (f := (broadcastInDim S100000x128 ![0, 1] bcast_S1x128_S100000x128_0_1 : (⟨S1x128, .f32⟩ : BufTy).Contents (Elt F) → (⟨S100000x128, .f32⟩ : BufTy).Contents (Elt F))) rfl (not_written hW 59 (by decide +kernel)) (not_written hW 58 (by decide +kernel))
theorem at_main_v46 : after ops V (Proc.devRef .tc main_v46) = (addf : (⟨S100000x128, .f32⟩ : BufTy).Contents (Elt F) → (⟨S100000x128, .f32⟩ : BufTy).Contents (Elt F) → (⟨S100000x128, .f32⟩ : BufTy).Contents (Elt F)) (after ops V (Proc.devRef .tc main_v43)) (after ops V (Proc.devRef .tc main_v45)) :=
  binary_at (ops := ops (F := F)) (V := V) 59 (lt_len (by decide)) (a := main_v43) (b := main_v45) (y := main_v46) (ha := ⟨by decide, rfl⟩) (hb := ⟨by decide, rfl⟩) (hy := ⟨by decide, rfl⟩) (f := (addf : (⟨S100000x128, .f32⟩ : BufTy).Contents (Elt F) → (⟨S100000x128, .f32⟩ : BufTy).Contents (Elt F) → (⟨S100000x128, .f32⟩ : BufTy).Contents (Elt F))) rfl (not_written hW 60 (by decide +kernel)) (not_written hW 59 (by decide +kernel)) (not_written hW 59 (by decide +kernel))
theorem at_main_call1_cst : after ops V (Proc.devRef .tc main_call1_cst) = ((constant S_ .f32 0x00000000#32) : (⟨S_, .f32⟩ : BufTy).Contents (Elt F)) :=
  nullary_at (ops := ops (F := F)) (V := V) 60 (lt_len (by decide)) (y := main_call1_cst) (hy := ⟨by decide, rfl⟩) (v := ((constant S_ .f32 0x00000000#32) : (⟨S_, .f32⟩ : BufTy).Contents (Elt F))) rfl (not_written hW 61 (by decide +kernel))
theorem at_main_call1_v0 : after ops V (Proc.devRef .tc main_call1_v0) = ((broadcastInDim S100000x128 ![] bcast_S_S100000x128) : (⟨S_, .f32⟩ : BufTy).Contents (Elt F) → (⟨S100000x128, .f32⟩ : BufTy).Contents (Elt F)) (after ops V (Proc.devRef .tc main_call1_cst)) :=
  unary_at (ops := ops (F := F)) (V := V) 61 (lt_len (by decide)) (x := main_call1_cst) (y := main_call1_v0) (hx := ⟨by decide, rfl⟩) (hy := ⟨by decide, rfl⟩) (f := ((broadcastInDim S100000x128 ![] bcast_S_S100000x128) : (⟨S_, .f32⟩ : BufTy).Contents (Elt F) → (⟨S100000x128, .f32⟩ : BufTy).Contents (Elt F))) rfl (not_written hW 62 (by decide +kernel)) (not_written hW 61 (by decide +kernel))
theorem at_main_v47 : after ops V (Proc.devRef .tc main_v47) = (maximumf : (⟨S100000x128, .f32⟩ : BufTy).Contents (Elt F) → (⟨S100000x128, .f32⟩ : BufTy).Contents (Elt F) → (⟨S100000x128, .f32⟩ : BufTy).Contents (Elt F)) (after ops V (Proc.devRef .tc main_v46)) (after ops V (Proc.devRef .tc main_call1_v0)) :=
  binary_at (ops := ops (F := F)) (V := V) 62 (lt_len (by decide)) (a := main_v46) (b := main_call1_v0) (y := main_v47) (ha := ⟨by decide, rfl⟩) (hb := ⟨by decide, rfl⟩) (hy := ⟨by decide, rfl⟩) (f := (maximumf : (⟨S100000x128, .f32⟩ : BufTy).Contents (Elt F) → (⟨S100000x128, .f32⟩ : BufTy).Contents (Elt F) → (⟨S100000x128, .f32⟩ : BufTy).Contents (Elt F))) rfl (not_written hW 63 (by decide +kernel)) (not_written hW 62 (by decide +kernel)) (not_written hW 62 (by decide +kernel))
theorem at_main_v48 : after ops V (Proc.devRef .tc main_v48) = ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) (after ops V (Proc.devRef .tc main_v47)) (after ops V (Proc.devRef .tc main_arg4)) :=
  binary_at (ops := ops (F := F)) (V := V) 63 (lt_len (by decide)) (a := main_v47) (b := main_arg4) (y := main_v48) (ha := ⟨by decide, rfl⟩) (hb := ⟨by decide, rfl⟩) (hy := ⟨by decide, rfl⟩) (f := ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F))) rfl (not_written hW 64 (by decide +kernel)) (not_written hW 63 (by decide +kernel)) (not_written hW 63 (by decide +kernel))
theorem at_main_v49 : after ops V (Proc.devRef .tc main_v49) = (iotaInDim S100000 32 0) :=
  nullary_at (ops := ops (F := F)) (V := V) 64 (lt_len (by decide)) (y := main_v49) (hy := ⟨by decide, rfl⟩) (v := (iotaInDim S100000 32 0)) rfl (not_written hW 65 (by decide +kernel))
theorem at_main_v50 : after ops V (Proc.devRef .tc main_v50) = ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) (after ops V (Proc.devRef .tc main_v1)) (after ops V (Proc.devRef .tc main_v49)) :=
  binary_at (ops := ops (F := F)) (V := V) 65 (lt_len (by decide)) (a := main_v1) (b := main_v49) (y := main_v50) (ha := ⟨by decide, rfl⟩) (hb := ⟨by decide, rfl⟩) (hy := ⟨by decide, rfl⟩) (f := ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F))) rfl (not_written hW 66 (by decide +kernel)) (not_written hW 65 (by decide +kernel)) (not_written hW 65 (by decide +kernel))
theorem at_main_v51 : after ops V (Proc.devRef .tc main_v51) = ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) (after ops V (Proc.devRef .tc main_v3)) (after ops V (Proc.devRef .tc main_v49)) :=
  binary_at (ops := ops (F := F)) (V := V) 66 (lt_len (by decide)) (a := main_v3) (b := main_v49) (y := main_v51) (ha := ⟨by decide, rfl⟩) (hb := ⟨by decide, rfl⟩) (hy := ⟨by decide, rfl⟩) (f := ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F))) rfl (not_written hW 67 (by decide +kernel)) (not_written hW 66 (by decide +kernel)) (not_written hW 66 (by decide +kernel))
theorem at_main_cst_9 : after ops V (Proc.devRef .tc main_cst_9) = (constant S_ .f32 0x3F800000#32) :=
  nullary_at (ops := ops (F := F)) (V := V) 67 (lt_len (by decide)) (y := main_cst_9) (hy := ⟨by decide, rfl⟩) (v := (constant S_ .f32 0x3F800000#32)) rfl (not_written hW 68 (by decide +kernel))
theorem at_main_v52 : after ops V (Proc.devRef .tc main_v52) = (broadcastInDim S1700000 ![] bcast_S_S1700000 : (⟨S_, .f32⟩ : BufTy).Contents (Elt F) → (⟨S1700000, .f32⟩ : BufTy).Contents (Elt F)) (after ops V (Proc.devRef .tc main_cst_9)) :=
  unary_at (ops := ops (F := F)) (V := V) 68 (lt_len (by decide)) (x := main_cst_9) (y := main_v52) (hx := ⟨by decide, rfl⟩) (hy := ⟨by decide, rfl⟩) (f := (broadcastInDim S1700000 ![] bcast_S_S1700000 : (⟨S_, .f32⟩ : BufTy).Contents (Elt F) → (⟨S1700000, .f32⟩ : BufTy).Contents (Elt F))) rfl (not_written hW 69 (by decide +kernel)) (not_written hW 68 (by decide +kernel))
theorem at_main_cst_10 : after ops V (Proc.devRef .tc main_cst_10) = (constant S_ .f32 0x00000000#32) :=
  nullary_at (ops := ops (F := F)) (V := V) 69 (lt_len (by decide)) (y := main_cst_10) (hy := ⟨by decide, rfl⟩) (v := (constant S_ .f32 0x00000000#32)) rfl (not_written hW 70 (by decide +kernel))
theorem at_main_v53 : after ops V (Proc.devRef .tc main_v53) = (broadcastInDim S100000 ![] bcast_S_S100000 : (⟨S_, .f32⟩ : BufTy).Contents (Elt F) → (⟨S100000, .f32⟩ : BufTy).Contents (Elt F)) (after ops V (Proc.devRef .tc main_cst_10)) :=
  unary_at (ops := ops (F := F)) (V := V) 70 (lt_len (by decide)) (x := main_cst_10) (y := main_v53) (hx := ⟨by decide, rfl⟩) (hy := ⟨by decide, rfl⟩) (f := (broadcastInDim S100000 ![] bcast_S_S100000 : (⟨S_, .f32⟩ : BufTy).Contents (Elt F) → (⟨S100000, .f32⟩ : BufTy).Contents (Elt F))) rfl (not_written hW 71 (by decide +kernel)) (not_written hW 70 (by decide +kernel))
theorem at_main_v54 : after ops V (Proc.devRef .tc main_v54) = (broadcastInDim S1700000x1 ![0] bcast_S1700000_S1700000x1_0 : (⟨S1700000, .i32⟩ : BufTy).Contents (Elt F) → (⟨S1700000x1, .i32⟩ : BufTy).Contents (Elt F)) (after ops V (Proc.devRef .tc main_v51)) :=
  unary_at (ops := ops (F := F)) (V := V) 71 (lt_len (by decide)) (x := main_v51) (y := main_v54) (hx := ⟨by decide, rfl⟩) (hy := ⟨by decide, rfl⟩) (f := (broadcastInDim S1700000x1 ![0] bcast_S1700000_S1700000x1_0 : (⟨S1700000, .i32⟩ : BufTy).Contents (Elt F) → (⟨S1700000x1, .i32⟩ : BufTy).Contents (Elt F))) rfl (not_written hW 72 (by decide +kernel)) (not_written hW 71 (by decide +kernel))
theorem at_main_v55 : after ops V (Proc.devRef .tc main_v55) = ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)) (after ops V (Proc.devRef .tc main_v53)) (after ops V (Proc.devRef .tc main_v54)) (after ops V (Proc.devRef .tc main_v52)) :=
  ternary_at (ops := ops (F := F)) (V := V) 72 (lt_len (by decide)) (c := main_v53) (a := main_v54) (b := main_v52) (y := main_v55) (hc := ⟨by decide, rfl⟩) (ha := ⟨by decide, rfl⟩) (hb := ⟨by decide, rfl⟩) (hy := ⟨by decide, rfl⟩) (f := ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F))) rfl (not_written hW 73 (by decide +kernel)) (not_written hW 72 (by decide +kernel)) (not_written hW 72 (by decide +kernel)) (not_written hW 72 (by decide +kernel))
theorem at_main_cst_11 : after ops V (Proc.devRef .tc main_cst_11) = (constant S_ .f32 0x00000000#32) :=
  nullary_at (ops := ops (F := F)) (V := V) 73 (lt_len (by decide)) (y := main_cst_11) (hy := ⟨by decide, rfl⟩) (v := (constant S_ .f32 0x00000000#32)) rfl (not_written hW 74 (by decide +kernel))
theorem at_main_v56 : after ops V (Proc.devRef .tc main_v56) = (broadcastInDim S100000 ![] bcast_S_S100000 : (⟨S_, .f32⟩ : BufTy).Contents (Elt F) → (⟨S100000, .f32⟩ : BufTy).Contents (Elt F)) (after ops V (Proc.devRef .tc main_cst_11)) :=
  unary_at (ops := ops (F := F)) (V := V) 74 (lt_len (by decide)) (x := main_cst_11) (y := main_v56) (hx := ⟨by decide, rfl⟩) (hy := ⟨by decide, rfl⟩) (f := (broadcastInDim S100000 ![] bcast_S_S100000 : (⟨S_, .f32⟩ : BufTy).Contents (Elt F) → (⟨S100000, .f32⟩ : BufTy).Contents (Elt F))) rfl (not_written hW 75 (by decide +kernel)) (not_written hW 74 (by decide +kernel))
theorem at_main_v57 : after ops V (Proc.devRef .tc main_v57) = (cmpf .ogt : (⟨S100000, .f32⟩ : BufTy).Contents (Elt F) → (⟨S100000, .f32⟩ : BufTy).Contents (Elt F) → (⟨S100000, .i1⟩ : BufTy).Contents (Elt F)) (after ops V (Proc.devRef .tc main_v55)) (after ops V (Proc.devRef .tc main_v56)) :=
  binary_at (ops := ops (F := F)) (V := V) 75 (lt_len (by decide)) (a := main_v55) (b := main_v56) (y := main_v57) (ha := ⟨by decide, rfl⟩) (hb := ⟨by decide, rfl⟩) (hy := ⟨by decide, rfl⟩) (f := (cmpf .ogt : (⟨S100000, .f32⟩ : BufTy).Contents (Elt F) → (⟨S100000, .f32⟩ : BufTy).Contents (Elt F) → (⟨S100000, .i1⟩ : BufTy).Contents (Elt F))) rfl (not_written hW 76 (by decide +kernel)) (not_written hW 75 (by decide +kernel)) (not_written hW 75 (by decide +kernel))
theorem at_main_v58 : after ops V (Proc.devRef .tc main_v58) = (Host.rsqrt : (⟨S100000, .f32⟩ : BufTy).Contents (Elt F) → (⟨S100000, .f32⟩ : BufTy).Contents (Elt F)) (after ops V (Proc.devRef .tc main_v55)) :=
  unary_at (ops := ops (F := F)) (V := V) 76 (lt_len (by decide)) (x := main_v55) (y := main_v58) (hx := ⟨by decide, rfl⟩) (hy := ⟨by decide, rfl⟩) (f := (Host.rsqrt : (⟨S100000, .f32⟩ : BufTy).Contents (Elt F) → (⟨S100000, .f32⟩ : BufTy).Contents (Elt F))) rfl (not_written hW 77 (by decide +kernel)) (not_written hW 76 (by decide +kernel))
theorem at_main_cst_12 : after ops V (Proc.devRef .tc main_cst_12) = (constant S_ .f32 0x00000000#32) :=
  nullary_at (ops := ops (F := F)) (V := V) 77 (lt_len (by decide)) (y := main_cst_12) (hy := ⟨by decide, rfl⟩) (v := (constant S_ .f32 0x00000000#32)) rfl (not_written hW 78 (by decide +kernel))
theorem at_main_call2_v0 : after ops V (Proc.devRef .tc main_call2_v0) = (id : (⟨S_, .f32⟩ : BufTy).Contents (Elt F) → (⟨S_, .f32⟩ : BufTy).Contents (Elt F)) (after ops V (Proc.devRef .tc main_cst_12)) :=
  unary_at (ops := ops (F := F)) (V := V) 78 (lt_len (by decide)) (x := main_cst_12) (y := main_call2_v0) (hx := ⟨by decide, rfl⟩) (hy := ⟨by decide, rfl⟩) (f := (id : (⟨S_, .f32⟩ : BufTy).Contents (Elt F) → (⟨S_, .f32⟩ : BufTy).Contents (Elt F))) rfl (not_written hW 79 (by decide +kernel)) (not_written hW 78 (by decide +kernel))
theorem at_main_call2_v1 : after ops V (Proc.devRef .tc main_call2_v1) = ((broadcastInDim S100000 ![] bcast_S_S100000) : (⟨S_, .f32⟩ : BufTy).Contents (Elt F) → (⟨S100000, .f32⟩ : BufTy).Contents (Elt F)) (after ops V (Proc.devRef .tc main_call2_v0)) :=
  unary_at (ops := ops (F := F)) (V := V) 79 (lt_len (by decide)) (x := main_call2_v0) (y := main_call2_v1) (hx := ⟨by decide, rfl⟩) (hy := ⟨by decide, rfl⟩) (f := ((broadcastInDim S100000 ![] bcast_S_S100000) : (⟨S_, .f32⟩ : BufTy).Contents (Elt F) → (⟨S100000, .f32⟩ : BufTy).Contents (Elt F))) rfl (not_written hW 80 (by decide +kernel)) (not_written hW 79 (by decide +kernel))
theorem at_main_v59 : after ops V (Proc.devRef .tc main_v59) = (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) (after ops V (Proc.devRef .tc main_v57)) (after ops V (Proc.devRef .tc main_v58)) (after ops V (Proc.devRef .tc main_call2_v1)) :=
  ternary_at (ops := ops (F := F)) (V := V) 80 (lt_len (by decide)) (c := main_v57) (a := main_v58) (b := main_call2_v1) (y := main_v59) (hc := ⟨by decide, rfl⟩) (ha := ⟨by decide, rfl⟩) (hb := ⟨by decide, rfl⟩) (hy := ⟨by decide, rfl⟩) (f := (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F))) rfl (not_written hW 81 (by decide +kernel)) (not_written hW 80 (by decide +kernel)) (not_written hW 80 (by decide +kernel)) (not_written hW 80 (by decide +kernel))
theorem at_main_c_13 : after ops V (Proc.devRef .tc main_c_13) = (constantI S_ 32 0#32) :=
  nullary_at (ops := ops (F := F)) (V := V) 81 (lt_len (by decide)) (y := main_c_13) (hy := ⟨by decide, rfl⟩) (v := (constantI S_ 32 0#32)) rfl (not_written hW 82 (by decide +kernel))
theorem at_main_v60 : after ops V (Proc.devRef .tc main_v60) = (broadcastInDim S1700000 ![] bcast_S_S1700000 : (⟨S_, .i32⟩ : BufTy).Contents (Elt F) → (⟨S1700000, .i32⟩ : BufTy).Contents (Elt F)) (after ops V (Proc.devRef .tc main_c_13)) :=
  unary_at (ops := ops (F := F)) (V := V) 82 (lt_len (by decide)) (x := main_c_13) (y := main_v60) (hx := ⟨by decide, rfl⟩) (hy := ⟨by decide, rfl⟩) (f := (broadcastInDim S1700000 ![] bcast_S_S1700000 : (⟨S_, .i32⟩ : BufTy).Contents (Elt F) → (⟨S1700000, .i32⟩ : BufTy).Contents (Elt F))) rfl (not_written hW 83 (by decide +kernel)) (not_written hW 82 (by decide +kernel))
theorem at_main_v61 : after ops V (Proc.devRef .tc main_v61) = (cmpi .slt : (⟨S1700000, .i32⟩ : BufTy).Contents (Elt F) → (⟨S1700000, .i32⟩ : BufTy).Contents (Elt F) → (⟨S1700000, .i1⟩ : BufTy).Contents (Elt F)) (after ops V (Proc.devRef .tc main_v50)) (after ops V (Proc.devRef .tc main_v60)) :=
  binary_at (ops := ops (F := F)) (V := V) 83 (lt_len (by decide)) (a := main_v50) (b := main_v60) (y := main_v61) (ha := ⟨by decide, rfl⟩) (hb := ⟨by decide, rfl⟩) (hy := ⟨by decide, rfl⟩) (f := (cmpi .slt : (⟨S1700000, .i32⟩ : BufTy).Contents (Elt F) → (⟨S1700000, .i32⟩ : BufTy).Contents (Elt F) → (⟨S1700000, .i1⟩ : BufTy).Contents (Elt F))) rfl (not_written hW 84 (by decide +kernel)) (not_written hW 83 (by decide +kernel)) (not_written hW 83 (by decide +kernel))
theorem at_main_c_14 : after ops V (Proc.devRef .tc main_c_14) = (constantI S_ 32 100000#32) :=
  nullary_at (ops := ops (F := F)) (V := V) 84 (lt_len (by decide)) (y := main_c_14) (hy := ⟨by decide, rfl⟩) (v := (constantI S_ 32 100000#32)) rfl (not_written hW 85 (by decide +kernel))
theorem at_main_v62 : after ops V (Proc.devRef .tc main_v62) = (broadcastInDim S1700000 ![] bcast_S_S1700000 : (⟨S_, .i32⟩ : BufTy).Contents (Elt F) → (⟨S1700000, .i32⟩ : BufTy).Contents (Elt F)) (after ops V (Proc.devRef .tc main_c_14)) :=
  unary_at (ops := ops (F := F)) (V := V) 85 (lt_len (by decide)) (x := main_c_14) (y := main_v62) (hx := ⟨by decide, rfl⟩) (hy := ⟨by decide, rfl⟩) (f := (broadcastInDim S1700000 ![] bcast_S_S1700000 : (⟨S_, .i32⟩ : BufTy).Contents (Elt F) → (⟨S1700000, .i32⟩ : BufTy).Contents (Elt F))) rfl (not_written hW 86 (by decide +kernel)) (not_written hW 85 (by decide +kernel))
theorem at_main_v63 : after ops V (Proc.devRef .tc main_v63) = (addi : (⟨S1700000, .i32⟩ : BufTy).Contents (Elt F) → (⟨S1700000, .i32⟩ : BufTy).Contents (Elt F) → (⟨S1700000, .i32⟩ : BufTy).Contents (Elt F)) (after ops V (Proc.devRef .tc main_v50)) (after ops V (Proc.devRef .tc main_v62)) :=
  binary_at (ops := ops (F := F)) (V := V) 86 (lt_len (by decide)) (a := main_v50) (b := main_v62) (y := main_v63) (ha := ⟨by decide, rfl⟩) (hb := ⟨by decide, rfl⟩) (hy := ⟨by decide, rfl⟩) (f := (addi : (⟨S1700000, .i32⟩ : BufTy).Contents (Elt F) → (⟨S1700000, .i32⟩ : BufTy).Contents (Elt F) → (⟨S1700000, .i32⟩ : BufTy).Contents (Elt F))) rfl (not_written hW 87 (by decide +kernel)) (not_written hW 86 (by decide +kernel)) (not_written hW 86 (by decide +kernel))
theorem at_main_v64 : after ops V (Proc.devRef .tc main_v64) = (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) (after ops V (Proc.devRef .tc main_v61)) (after ops V (Proc.devRef .tc main_v63)) (after ops V (Proc.devRef .tc main_v50)) :=
  ternary_at (ops := ops (F := F)) (V := V) 87 (lt_len (by decide)) (c := main_v61) (a := main_v63) (b := main_v50) (y := main_v64) (hc := ⟨by decide, rfl⟩) (ha := ⟨by decide, rfl⟩) (hb := ⟨by decide, rfl⟩) (hy := ⟨by decide, rfl⟩) (f := (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F))) rfl (not_written hW 88 (by decide +kernel)) (not_written hW 87 (by decide +kernel)) (not_written hW 87 (by decide +kernel)) (not_written hW 87 (by decide +kernel))
theorem at_main_v65 : after ops V (Proc.devRef .tc main_v65) = (broadcastInDim S1700000x1 ![0] bcast_S1700000_S1700000x1_0 : (⟨S1700000, .i32⟩ : BufTy).Contents (Elt F) → (⟨S1700000x1, .i32⟩ : BufTy).Contents (Elt F)) (after ops V (Proc.devRef .tc main_v64)) :=
  unary_at (ops := ops (F := F)) (V := V) 88 (lt_len (by decide)) (x := main_v64) (y := main_v65) (hx := ⟨by decide, rfl⟩) (hy := ⟨by decide, rfl⟩) (f := (broadcastInDim S1700000x1 ![0] bcast_S1700000_S1700000x1_0 : (⟨S1700000, .i32⟩ : BufTy).Contents (Elt F) → (⟨S1700000x1, .i32⟩ : BufTy).Contents (Elt F))) rfl (not_written hW 89 (by decide +kernel)) (not_written hW 88 (by decide +kernel))
theorem at_main_v66 : after ops V (Proc.devRef .tc main_v66) = ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)) (after ops V (Proc.devRef .tc main_v59)) (after ops V (Proc.devRef .tc main_v65)) :=
  binary_at (ops := ops (F := F)) (V := V) 89 (lt_len (by decide)) (a := main_v59) (b := main_v65) (y := main_v66) (ha := ⟨by decide, rfl⟩) (hb := ⟨by decide, rfl⟩) (hy := ⟨by decide, rfl⟩) (f := ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F))) rfl (not_written hW 90 (by decide +kernel)) (not_written hW 89 (by decide +kernel)) (not_written hW 89 (by decide +kernel))
theorem at_main_c_15 : after ops V (Proc.devRef .tc main_c_15) = (constantI S_ 32 0#32) :=
  nullary_at (ops := ops (F := F)) (V := V) 90 (lt_len (by decide)) (y := main_c_15) (hy := ⟨by decide, rfl⟩) (v := (constantI S_ 32 0#32)) rfl (not_written hW 91 (by decide +kernel))
theorem at_main_v67 : after ops V (Proc.devRef .tc main_v67) = (broadcastInDim S1700000 ![] bcast_S_S1700000 : (⟨S_, .i32⟩ : BufTy).Contents (Elt F) → (⟨S1700000, .i32⟩ : BufTy).Contents (Elt F)) (after ops V (Proc.devRef .tc main_c_15)) :=
  unary_at (ops := ops (F := F)) (V := V) 91 (lt_len (by decide)) (x := main_c_15) (y := main_v67) (hx := ⟨by decide, rfl⟩) (hy := ⟨by decide, rfl⟩) (f := (broadcastInDim S1700000 ![] bcast_S_S1700000 : (⟨S_, .i32⟩ : BufTy).Contents (Elt F) → (⟨S1700000, .i32⟩ : BufTy).Contents (Elt F))) rfl (not_written hW 92 (by decide +kernel)) (not_written hW 91 (by decide +kernel))
theorem at_main_v68 : after ops V (Proc.devRef .tc main_v68) = (cmpi .slt : (⟨S1700000, .i32⟩ : BufTy).Contents (Elt F) → (⟨S1700000, .i32⟩ : BufTy).Contents (Elt F) → (⟨S1700000, .i1⟩ : BufTy).Contents (Elt F)) (after ops V (Proc.devRef .tc main_v51)) (after ops V (Proc.devRef .tc main_v67)) :=
  binary_at (ops := ops (F := F)) (V := V) 92 (lt_len (by decide)) (a := main_v51) (b := main_v67) (y := main_v68) (ha := ⟨by decide, rfl⟩) (hb := ⟨by decide, rfl⟩) (hy := ⟨by decide, rfl⟩) (f := (cmpi .slt : (⟨S1700000, .i32⟩ : BufTy).Contents (Elt F) → (⟨S1700000, .i32⟩ : BufTy).Contents (Elt F) → (⟨S1700000, .i1⟩ : BufTy).Contents (Elt F))) rfl (not_written hW 93 (by decide +kernel)) (not_written hW 92 (by decide +kernel)) (not_written hW 92 (by decide +kernel))
theorem at_main_c_16 : after ops V (Proc.devRef .tc main_c_16) = (constantI S_ 32 100000#32) :=
  nullary_at (ops := ops (F := F)) (V := V) 93 (lt_len (by decide)) (y := main_c_16) (hy := ⟨by decide, rfl⟩) (v := (constantI S_ 32 100000#32)) rfl (not_written hW 94 (by decide +kernel))
theorem at_main_v69 : after ops V (Proc.devRef .tc main_v69) = (broadcastInDim S1700000 ![] bcast_S_S1700000 : (⟨S_, .i32⟩ : BufTy).Contents (Elt F) → (⟨S1700000, .i32⟩ : BufTy).Contents (Elt F)) (after ops V (Proc.devRef .tc main_c_16)) :=
  unary_at (ops := ops (F := F)) (V := V) 94 (lt_len (by decide)) (x := main_c_16) (y := main_v69) (hx := ⟨by decide, rfl⟩) (hy := ⟨by decide, rfl⟩) (f := (broadcastInDim S1700000 ![] bcast_S_S1700000 : (⟨S_, .i32⟩ : BufTy).Contents (Elt F) → (⟨S1700000, .i32⟩ : BufTy).Contents (Elt F))) rfl (not_written hW 95 (by decide +kernel)) (not_written hW 94 (by decide +kernel))
theorem at_main_v70 : after ops V (Proc.devRef .tc main_v70) = (addi : (⟨S1700000, .i32⟩ : BufTy).Contents (Elt F) → (⟨S1700000, .i32⟩ : BufTy).Contents (Elt F) → (⟨S1700000, .i32⟩ : BufTy).Contents (Elt F)) (after ops V (Proc.devRef .tc main_v51)) (after ops V (Proc.devRef .tc main_v69)) :=
  binary_at (ops := ops (F := F)) (V := V) 95 (lt_len (by decide)) (a := main_v51) (b := main_v69) (y := main_v70) (ha := ⟨by decide, rfl⟩) (hb := ⟨by decide, rfl⟩) (hy := ⟨by decide, rfl⟩) (f := (addi : (⟨S1700000, .i32⟩ : BufTy).Contents (Elt F) → (⟨S1700000, .i32⟩ : BufTy).Contents (Elt F) → (⟨S1700000, .i32⟩ : BufTy).Contents (Elt F))) rfl (not_written hW 96 (by decide +kernel)) (not_written hW 95 (by decide +kernel)) (not_written hW 95 (by decide +kernel))
theorem at_main_v71 : after ops V (Proc.devRef .tc main_v71) = (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) (after ops V (Proc.devRef .tc main_v68)) (after ops V (Proc.devRef .tc main_v70)) (after ops V (Proc.devRef .tc main_v51)) :=
  ternary_at (ops := ops (F := F)) (V := V) 96 (lt_len (by decide)) (c := main_v68) (a := main_v70) (b := main_v51) (y := main_v71) (hc := ⟨by decide, rfl⟩) (ha := ⟨by decide, rfl⟩) (hb := ⟨by decide, rfl⟩) (hy := ⟨by decide, rfl⟩) (f := (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F))) rfl (not_written hW 97 (by decide +kernel)) (not_written hW 96 (by decide +kernel)) (not_written hW 96 (by decide +kernel)) (not_written hW 96 (by decide +kernel))
theorem at_main_v72 : after ops V (Proc.devRef .tc main_v72) = (broadcastInDim S1700000x1 ![0] bcast_S1700000_S1700000x1_0 : (⟨S1700000, .i32⟩ : BufTy).Contents (Elt F) → (⟨S1700000x1, .i32⟩ : BufTy).Contents (Elt F)) (after ops V (Proc.devRef .tc main_v71)) :=
  unary_at (ops := ops (F := F)) (V := V) 97 (lt_len (by decide)) (x := main_v71) (y := main_v72) (hx := ⟨by decide, rfl⟩) (hy := ⟨by decide, rfl⟩) (f := (broadcastInDim S1700000x1 ![0] bcast_S1700000_S1700000x1_0 : (⟨S1700000, .i32⟩ : BufTy).Contents (Elt F) → (⟨S1700000x1, .i32⟩ : BufTy).Contents (Elt F))) rfl (not_written hW 98 (by decide +kernel)) (not_written hW 97 (by decide +kernel))
theorem at_main_v73 : after ops V (Proc.devRef .tc main_v73) = ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)) (after ops V (Proc.devRef .tc main_v59)) (after ops V (Proc.devRef .tc main_v72)) :=
  binary_at (ops := ops (F := F)) (V := V) 98 (lt_len (by decide)) (a := main_v59) (b := main_v72) (y := main_v73) (ha := ⟨by decide, rfl⟩) (hb := ⟨by decide, rfl⟩) (hy := ⟨by decide, rfl⟩) (f := ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F))) rfl (not_written hW 99 (by decide +kernel)) (not_written hW 98 (by decide +kernel)) (not_written hW 98 (by decide +kernel))
theorem at_main_v74 : after ops V (Proc.devRef .tc main_v74) = (mulf : (⟨S1700000, .f32⟩ : BufTy).Contents (Elt F) → (⟨S1700000, .f32⟩ : BufTy).Contents (Elt F) → (⟨S1700000, .f32⟩ : BufTy).Contents (Elt F)) (after ops V (Proc.devRef .tc main_v66)) (after ops V (Proc.devRef .tc main_v73)) :=
  binary_at (ops := ops (F := F)) (V := V) 99 (lt_len (by decide)) (a := main_v66) (b := main_v73) (y := main_v74) (ha := ⟨by decide, rfl⟩) (hb := ⟨by decide, rfl⟩) (hy := ⟨by decide, rfl⟩) (f := (mulf : (⟨S1700000, .f32⟩ : BufTy).Contents (Elt F) → (⟨S1700000, .f32⟩ : BufTy).Contents (Elt F) → (⟨S1700000, .f32⟩ : BufTy).Contents (Elt F))) rfl (not_written hW 100 (by decide +kernel)) (not_written hW 99 (by decide +kernel)) (not_written hW 99 (by decide +kernel))
theorem at_main_c_17 : after ops V (Proc.devRef .tc main_c_17) = (constantI S_ 32 0#32) :=
  nullary_at (ops := ops (F := F)) (V := V) 100 (lt_len (by decide)) (y := main_c_17) (hy := ⟨by decide, rfl⟩) (v := (constantI S_ 32 0#32)) rfl (not_written hW 101 (by decide +kernel))
theorem at_main_v75 : after ops V (Proc.devRef .tc main_v75) = (broadcastInDim S1700000 ![] bcast_S_S1700000 : (⟨S_, .i32⟩ : BufTy).Contents (Elt F) → (⟨S1700000, .i32⟩ : BufTy).Contents (Elt F)) (after ops V (Proc.devRef .tc main_c_17)) :=
  unary_at (ops := ops (F := F)) (V := V) 101 (lt_len (by decide)) (x := main_c_17) (y := main_v75) (hx := ⟨by decide, rfl⟩) (hy := ⟨by decide, rfl⟩) (f := (broadcastInDim S1700000 ![] bcast_S_S1700000 : (⟨S_, .i32⟩ : BufTy).Contents (Elt F) → (⟨S1700000, .i32⟩ : BufTy).Contents (Elt F))) rfl (not_written hW 102 (by decide +kernel)) (not_written hW 101 (by decide +kernel))
theorem at_main_v76 : after ops V (Proc.devRef .tc main_v76) = (cmpi .slt : (⟨S1700000, .i32⟩ : BufTy).Contents (Elt F) → (⟨S1700000, .i32⟩ : BufTy).Contents (Elt F) → (⟨S1700000, .i1⟩ : BufTy).Contents (Elt F)) (after ops V (Proc.devRef .tc main_v50)) (after ops V (Proc.devRef .tc main_v75)) :=
  binary_at (ops := ops (F := F)) (V := V) 102 (lt_len (by decide)) (a := main_v50) (b := main_v75) (y := main_v76) (ha := ⟨by decide, rfl⟩) (hb := ⟨by decide, rfl⟩) (hy := ⟨by decide, rfl⟩) (f := (cmpi .slt : (⟨S1700000, .i32⟩ : BufTy).Contents (Elt F) → (⟨S1700000, .i32⟩ : BufTy).Contents (Elt F) → (⟨S1700000, .i1⟩ : BufTy).Contents (Elt F))) rfl (not_written hW 103 (by decide +kernel)) (not_written hW 102 (by decide +kernel)) (not_written hW 102 (by decide +kernel))
theorem at_main_c_18 : after ops V (Proc.devRef .tc main_c_18) = (constantI S_ 32 100000#32) :=
  nullary_at (ops := ops (F := F)) (V := V) 103 (lt_len (by decide)) (y := main_c_18) (hy := ⟨by decide, rfl⟩) (v := (constantI S_ 32 100000#32)) rfl (not_written hW 104 (by decide +kernel))
theorem at_main_v77 : after ops V (Proc.devRef .tc main_v77) = (broadcastInDim S1700000 ![] bcast_S_S1700000 : (⟨S_, .i32⟩ : BufTy).Contents (Elt F) → (⟨S1700000, .i32⟩ : BufTy).Contents (Elt F)) (after ops V (Proc.devRef .tc main_c_18)) :=
  unary_at (ops := ops (F := F)) (V := V) 104 (lt_len (by decide)) (x := main_c_18) (y := main_v77) (hx := ⟨by decide, rfl⟩) (hy := ⟨by decide, rfl⟩) (f := (broadcastInDim S1700000 ![] bcast_S_S1700000 : (⟨S_, .i32⟩ : BufTy).Contents (Elt F) → (⟨S1700000, .i32⟩ : BufTy).Contents (Elt F))) rfl (not_written hW 105 (by decide +kernel)) (not_written hW 104 (by decide +kernel))
theorem at_main_v78 : after ops V (Proc.devRef .tc main_v78) = (addi : (⟨S1700000, .i32⟩ : BufTy).Contents (Elt F) → (⟨S1700000, .i32⟩ : BufTy).Contents (Elt F) → (⟨S1700000, .i32⟩ : BufTy).Contents (Elt F)) (after ops V (Proc.devRef .tc main_v50)) (after ops V (Proc.devRef .tc main_v77)) :=
  binary_at (ops := ops (F := F)) (V := V) 105 (lt_len (by decide)) (a := main_v50) (b := main_v77) (y := main_v78) (ha := ⟨by decide, rfl⟩) (hb := ⟨by decide, rfl⟩) (hy := ⟨by decide, rfl⟩) (f := (addi : (⟨S1700000, .i32⟩ : BufTy).Contents (Elt F) → (⟨S1700000, .i32⟩ : BufTy).Contents (Elt F) → (⟨S1700000, .i32⟩ : BufTy).Contents (Elt F))) rfl (not_written hW 106 (by decide +kernel)) (not_written hW 105 (by decide +kernel)) (not_written hW 105 (by decide +kernel))
theorem at_main_v79 : after ops V (Proc.devRef .tc main_v79) = (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) (after ops V (Proc.devRef .tc main_v76)) (after ops V (Proc.devRef .tc main_v78)) (after ops V (Proc.devRef .tc main_v50)) :=
  ternary_at (ops := ops (F := F)) (V := V) 106 (lt_len (by decide)) (c := main_v76) (a := main_v78) (b := main_v50) (y := main_v79) (hc := ⟨by decide, rfl⟩) (ha := ⟨by decide, rfl⟩) (hb := ⟨by decide, rfl⟩) (hy := ⟨by decide, rfl⟩) (f := (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F))) rfl (not_written hW 107 (by decide +kernel)) (not_written hW 106 (by decide +kernel)) (not_written hW 106 (by decide +kernel)) (not_written hW 106 (by decide +kernel))
theorem at_main_v80 : after ops V (Proc.devRef .tc main_v80) = (broadcastInDim S1700000x1 ![0] bcast_S1700000_S1700000x1_0 : (⟨S1700000, .i32⟩ : BufTy).Contents (Elt F) → (⟨S1700000x1, .i32⟩ : BufTy).Contents (Elt F)) (after ops V (Proc.devRef .tc main_v79)) :=
  unary_at (ops := ops (F := F)) (V := V) 107 (lt_len (by decide)) (x := main_v79) (y := main_v80) (hx := ⟨by decide, rfl⟩) (hy := ⟨by decide, rfl⟩) (f := (broadcastInDim S1700000x1 ![0] bcast_S1700000_S1700000x1_0 : (⟨S1700000, .i32⟩ : BufTy).Contents (Elt F) → (⟨S1700000x1, .i32⟩ : BufTy).Contents (Elt F))) rfl (not_written hW 108 (by decide +kernel)) (not_written hW 107 (by decide +kernel))
theorem at_main_v81 : after ops V (Proc.devRef .tc main_v81) = ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)) (after ops V (Proc.devRef .tc main_v48)) (after ops V (Proc.devRef .tc main_v80)) :=
  binary_at (ops := ops (F := F)) (V := V) 108 (lt_len (by decide)) (a := main_v48) (b := main_v80) (y := main_v81) (ha := ⟨by decide, rfl⟩) (hb := ⟨by decide, rfl⟩) (hy := ⟨by decide, rfl⟩) (f := ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F))) rfl (not_written hW 109 (by decide +kernel)) (not_written hW 108 (by decide +kernel)) (not_written hW 108 (by decide +kernel))
theorem at_main_v82 : after ops V (Proc.devRef .tc main_v82) = (broadcastInDim S1700000x1 ![0] bcast_S1700000_S1700000x1_0 : (⟨S1700000, .f32⟩ : BufTy).Contents (Elt F) → (⟨S1700000x1, .f32⟩ : BufTy).Contents (Elt F)) (after ops V (Proc.devRef .tc main_v74)) :=
  unary_at (ops := ops (F := F)) (V := V) 109 (lt_len (by decide)) (x := main_v74) (y := main_v82) (hx := ⟨by decide, rfl⟩) (hy := ⟨by decide, rfl⟩) (f := (broadcastInDim S1700000x1 ![0] bcast_S1700000_S1700000x1_0 : (⟨S1700000, .f32⟩ : BufTy).Contents (Elt F) → (⟨S1700000x1, .f32⟩ : BufTy).Contents (Elt F))) rfl (not_written hW 110 (by decide +kernel)) (not_written hW 109 (by decide +kernel))
theorem at_main_v83 : after ops V (Proc.devRef .tc main_v83) = (broadcastInDim S1700000x64 ![0, 1] bcast_S1700000x1_S1700000x64_0_1 : (⟨S1700000x1, .f32⟩ : BufTy).Contents (Elt F) → (⟨S1700000x64, .f32⟩ : BufTy).Contents (Elt F)) (after ops V (Proc.devRef .tc main_v82)) :=
  unary_at (ops := ops (F := F)) (V := V) 110 (lt_len (by decide)) (x := main_v82) (y := main_v83) (hx := ⟨by decide, rfl⟩) (hy := ⟨by decide, rfl⟩) (f := (broadcastInDim S1700000x64 ![0, 1] bcast_S1700000x1_S1700000x64_0_1 : (⟨S1700000x1, .f32⟩ : BufTy).Contents (Elt F) → (⟨S1700000x64, .f32⟩ : BufTy).Contents (Elt F))) rfl (not_written hW 111 (by decide +kernel)) (not_written hW 110 (by decide +kernel))
theorem at_main_v84 : after ops V (Proc.devRef .tc main_v84) = (mulf : (⟨S1700000x64, .f32⟩ : BufTy).Contents (Elt F) → (⟨S1700000x64, .f32⟩ : BufTy).Contents (Elt F) → (⟨S1700000x64, .f32⟩ : BufTy).Contents (Elt F)) (after ops V (Proc.devRef .tc main_v81)) (after ops V (Proc.devRef .tc main_v83)) :=
  binary_at (ops := ops (F := F)) (V := V) 111 (lt_len (by decide)) (a := main_v81) (b := main_v83) (y := main_v84) (ha := ⟨by decide, rfl⟩) (hb := ⟨by decide, rfl⟩) (hy := ⟨by decide, rfl⟩) (f := (mulf : (⟨S1700000x64, .f32⟩ : BufTy).Contents (Elt F) → (⟨S1700000x64, .f32⟩ : BufTy).Contents (Elt F) → (⟨S1700000x64, .f32⟩ : BufTy).Contents (Elt F))) rfl (not_written hW 112 (by decide +kernel)) (not_written hW 111 (by decide +kernel)) (not_written hW 111 (by decide +kernel))
theorem at_main_cst_19 : after ops V (Proc.devRef .tc main_cst_19) = (constant S_ .f32 0x00000000#32) :=
  nullary_at (ops := ops (F := F)) (V := V) 112 (lt_len (by decide)) (y := main_cst_19) (hy := ⟨by decide, rfl⟩) (v := (constant S_ .f32 0x00000000#32)) rfl (not_written hW 113 (by decide +kernel))
theorem at_main_v85 : after ops V (Proc.devRef .tc main_v85) = (broadcastInDim S100000x64 ![] bcast_S_S100000x64 : (⟨S_, .f32⟩ : BufTy).Contents (Elt F) → (⟨S100000x64, .f32⟩ : BufTy).Contents (Elt F)) (after ops V (Proc.devRef .tc main_cst_19)) :=
  unary_at (ops := ops (F := F)) (V := V) 113 (lt_len (by decide)) (x := main_cst_19) (y := main_v85) (hx := ⟨by decide, rfl⟩) (hy := ⟨by decide, rfl⟩) (f := (broadcastInDim S100000x64 ![] bcast_S_S100000x64 : (⟨S_, .f32⟩ : BufTy).Contents (Elt F) → (⟨S100000x64, .f32⟩ : BufTy).Contents (Elt F))) rfl (not_written hW 114 (by decide +kernel)) (not_written hW 113 (by decide +kernel))
theorem at_main_v86 : after ops V (Proc.devRef .tc main_v86) = (broadcastInDim S1700000x1 ![0] bcast_S1700000_S1700000x1_0 : (⟨S1700000, .i32⟩ : BufTy).Contents (Elt F) → (⟨S1700000x1, .i32⟩ : BufTy).Contents (Elt F)) (after ops V (Proc.devRef .tc main_v51)) :=
  unary_at (ops := ops (F := F)) (V := V) 114 (lt_len (by decide)) (x := main_v51) (y := main_v86) (hx := ⟨by decide, rfl⟩) (hy := ⟨by decide, rfl⟩) (f := (broadcastInDim S1700000x1 ![0] bcast_S1700000_S1700000x1_0 : (⟨S1700000, .i32⟩ : BufTy).Contents (Elt F) → (⟨S1700000x1, .i32⟩ : BufTy).Contents (Elt F))) rfl (not_written hW 115 (by decide +kernel)) (not_written hW 114 (by decide +kernel))
theorem at_main_v87 : after ops V (Proc.devRef .tc main_v87) = ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) (after ops V (Proc.devRef .tc main_v85)) (after ops V (Proc.devRef .tc main_v86)) (after ops V (Proc.devRef .tc main_v84)) :=
  ternary_at (ops := ops (F := F)) (V := V) 115 (lt_len (by decide)) (c := main_v85) (a := main_v86) (b := main_v84) (y := main_v87) (hc := ⟨by decide, rfl⟩) (ha := ⟨by decide, rfl⟩) (hb := ⟨by decide, rfl⟩) (hy := ⟨by decide, rfl⟩) (f := ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F))) rfl (not_written hW 116 (by decide +kernel)) (not_written hW 115 (by decide +kernel)) (not_written hW 115 (by decide +kernel)) (not_written hW 115 (by decide +kernel))
theorem at_main_v88 : after ops V (Proc.devRef .tc main_v88) = (broadcastInDim S1x64 ![1] bcast_S64_S1x64_1 : (⟨S64, .f32⟩ : BufTy).Contents (Elt F) → (⟨S1x64, .f32⟩ : BufTy).Contents (Elt F)) (after ops V (Proc.devRef .tc main_arg5)) :=
  unary_at (ops := ops (F := F)) (V := V) 116 (lt_len (by decide)) (x := main_arg5) (y := main_v88) (hx := ⟨by decide, rfl⟩) (hy := ⟨by decide, rfl⟩) (f := (broadcastInDim S1x64 ![1] bcast_S64_S1x64_1 : (⟨S64, .f32⟩ : BufTy).Contents (Elt F) → (⟨S1x64, .f32⟩ : BufTy).Contents (Elt F))) rfl (not_written hW 117 (by decide +kernel)) (not_written hW 116 (by decide +kernel))
theorem at_main_v89 : after ops V (Proc.devRef .tc main_v89) = (broadcastInDim S100000x64 ![0, 1] bcast_S1x64_S100000x64_0_1 : (⟨S1x64, .f32⟩ : BufTy).Contents (Elt F) → (⟨S100000x64, .f32⟩ : BufTy).Contents (Elt F)) (after ops V (Proc.devRef .tc main_v88)) :=
  unary_at (ops := ops (F := F)) (V := V) 117 (lt_len (by decide)) (x := main_v88) (y := main_v89) (hx := ⟨by decide, rfl⟩) (hy := ⟨by decide, rfl⟩) (f := (broadcastInDim S100000x64 ![0, 1] bcast_S1x64_S100000x64_0_1 : (⟨S1x64, .f32⟩ : BufTy).Contents (Elt F) → (⟨S100000x64, .f32⟩ : BufTy).Contents (Elt F))) rfl (not_written hW 118 (by decide +kernel)) (not_written hW 117 (by decide +kernel))
theorem at_main_v90 : after ops V (Proc.devRef .tc main_v90) = (addf : (⟨S100000x64, .f32⟩ : BufTy).Contents (Elt F) → (⟨S100000x64, .f32⟩ : BufTy).Contents (Elt F) → (⟨S100000x64, .f32⟩ : BufTy).Contents (Elt F)) (after ops V (Proc.devRef .tc main_v87)) (after ops V (Proc.devRef .tc main_v89)) :=
  binary_at (ops := ops (F := F)) (V := V) 118 (lt_len (by decide)) (a := main_v87) (b := main_v89) (y := main_v90) (ha := ⟨by decide, rfl⟩) (hb := ⟨by decide, rfl⟩) (hy := ⟨by decide, rfl⟩) (f := (addf : (⟨S100000x64, .f32⟩ : BufTy).Contents (Elt F) → (⟨S100000x64, .f32⟩ : BufTy).Contents (Elt F) → (⟨S100000x64, .f32⟩ : BufTy).Contents (Elt F))) rfl (not_written hW 119 (by decide +kernel)) (not_written hW 118 (by decide +kernel)) (not_written hW 118 (by decide +kernel))

/-! The six argument buffers are written by no operation. -/
theorem kept_arg0 : after ops V (Proc.devRef .tc main_arg0) = V (Proc.devRef .tc main_arg0) :=
  untouched_at (ops := ops (F := F)) hW (by decide +kernel)
theorem kept_arg1 : after ops V (Proc.devRef .tc main_arg1) = V (Proc.devRef .tc main_arg1) :=
  untouched_at (ops := ops (F := F)) hW (by decide +kernel)
theorem kept_arg2 : after ops V (Proc.devRef .tc main_arg2) = V (Proc.devRef .tc main_arg2) :=
  untouched_at (ops := ops (F := F)) hW (by decide +kernel)
theorem kept_arg3 : after ops V (Proc.devRef .tc main_arg3) = V (Proc.devRef .tc main_arg3) :=
  untouched_at (ops := ops (F := F)) hW (by decide +kernel)
theorem kept_arg4 : after ops V (Proc.devRef .tc main_arg4) = V (Proc.devRef .tc main_arg4) :=
  untouched_at (ops := ops (F := F)) hW (by decide +kernel)
theorem kept_arg5 : after ops V (Proc.devRef .tc main_arg5) = V (Proc.devRef .tc main_arg5) :=
  untouched_at (ops := ops (F := F)) hW (by decide +kernel)

end Cert.Gcn.Ref

end
-- ==== Proof.RefMath.lean ====
/-
  The four places where the reference spells a step of the network differently from the specification, each read
  at an entry at the ideal instance: the host's two matrix products are the sums Σ_k x(r, k) · w(k, q); the bias
  vector made a one-row matrix and spread over the rows, added, with or without the maximum with a splat of zero,
  is the specification's `biasRelu` / `bias64`.
-/
import proofs.«177499_j80023830659516_1_alg».proof.ReferenceIdeal
import proofs.«177499_j80023830659516_1_alg».proof.Proof.Gen.ReferenceIdeal
import proofs.«177499_j80023830659516_1_alg».proof.Proof.Gen.KernelIdeal
import proofs.«177499_j80023830659516_1_alg».proof.Proof.Spec
import proofs.«177499_j80023830659516_1_alg».proof.Proof.LibPlainDot
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.Gcn.RefMath

/-- A vector made a one-row matrix, read at (0, q), is the vector at q. -/
theorem row_of_vec_at {K : Nat} {α : Type} (b : (⟨1, ![K]⟩ : Shape).Idx → α)
    (h : (⟨1, ![K]⟩ : Shape).BroadcastsInDim ⟨2, ![1, K]⟩ (![1] : Fin 1 → Fin 2)) (u : Fin 1) (q : Fin K) :
    broadcastInDim ⟨2, ![1, K]⟩ (![1] : Fin 1 → Fin 2) h b (ix2 u q) = b (ix1 q) := by
  refine broadcastInDim_apply (![1] : Fin 1 → Fin 2) h b (ix2 u q) (ix1 q) fun a => ?_
  match a with
  | ⟨0, _⟩ =>
    show q.val = if K = 1 then 0 else q.val
    split
    · have := q.isLt; omega
    · rfl

/-- A one-row matrix spread over N rows, read at (p, q), is the row at (0, q). -/
theorem rows_of_row_at {N K : Nat} {α : Type} (r : (⟨2, ![1, K]⟩ : Shape).Idx → α)
    (h : (⟨2, ![1, K]⟩ : Shape).BroadcastsInDim ⟨2, ![N, K]⟩ (![0, 1] : Fin 2 → Fin 2)) (p : Fin N) (q : Fin K) :
    broadcastInDim ⟨2, ![N, K]⟩ (![0, 1] : Fin 2 → Fin 2) h r (ix2 p q) = r (ix2 (0 : Fin 1) q) := by
  refine broadcastInDim_apply (![0, 1] : Fin 2 → Fin 2) h r (ix2 p q) (ix2 (0 : Fin 1) q) fun a => ?_
  match a with
  | ⟨0, _⟩ => rfl
  | ⟨1, _⟩ =>
    show q.val = if K = 1 then 0 else q.val
    split
    · have := q.isLt; omega
    · rfl

/-- A rank-0 value spread over any shape, read anywhere, is that value. -/
theorem splat_at {t : Shape} {α : Type} (z : (⟨0, ![]⟩ : Shape).Idx → α)
    (h : (⟨0, ![]⟩ : Shape).BroadcastsInDim t (![] : Fin 0 → Fin t.rank)) (j : t.Idx) :
    broadcastInDim t (![] : Fin 0 → Fin t.rank) h z j = z ix0 :=
  broadcastInDim_apply (![] : Fin 0 → Fin t.rank) h z j ix0 fun a => a.elim0

open Cert.KernelIdeal in
/-- The reference's first product is the specification's. -/
theorem dot128 (x : FVec Ideal S100000x128 .f32) (w : FVec Ideal S128x128 .f32) :
    Host.dotGeneral (F := Ideal) Cert.ReferenceIdeal.dot_S100000x128_S128x128_S100000x128_1_0_0_1_n_n none x w = mm128 x w := by
  funext i
  obtain ⟨r, q, rfl⟩ : ∃ (r : Fin 100000) (q : Fin 128), i = ix2 r q := ⟨i 0, i 1, eq_ix2 i⟩
  exact Cert.Proof.PlainDot.dotGeneral_plain_apply (M := 100000) (K := 128) (N := 128)
    Cert.ReferenceIdeal.Gen.dot_S100000x128_S128x128_S100000x128_1_0_0_1_n_n_wf none x w r q

open Cert.KernelIdeal in
/-- The reference's second product is the specification's. -/
theorem dot64 (x : FVec Ideal S100000x128 .f32) (w : FVec Ideal S128x64 .f32) :
    Host.dotGeneral (F := Ideal) Cert.ReferenceIdeal.dot_S100000x128_S128x64_S100000x64_1_0_0_1_n_n none x w = mm64 x w := by
  funext i
  obtain ⟨r, q, rfl⟩ : ∃ (r : Fin 100000) (q : Fin 64), i = ix2 r q := ⟨i 0, i 1, eq_ix2 i⟩
  exact Cert.Proof.PlainDot.dotGeneral_plain_apply (M := 100000) (K := 128) (N := 64)
    Cert.ReferenceIdeal.Gen.dot_S100000x128_S128x64_S100000x64_1_0_0_1_n_n_wf none x w r q

open Cert.KernelIdeal in
/-- The reference's bias add and maximum with zero is the specification's. -/
theorem relu_bias (a : FVec Ideal S100000x128 .f32) (b : FVec Ideal S128 .f32)
    (h1 : S128.BroadcastsInDim S1x128 (![1] : Fin 1 → Fin 2)) (h2 : S1x128.BroadcastsInDim S100000x128 (![0, 1] : Fin 2 → Fin 2))
    (h3 : S_.BroadcastsInDim S100000x128 (![] : Fin 0 → Fin 2)) :
    maximumf (addf a (broadcastInDim S100000x128 (![0, 1] : Fin 2 → Fin 2) h2 (broadcastInDim S1x128 (![1] : Fin 1 → Fin 2) h1 b)))
      (broadcastInDim S100000x128 (![] : Fin 0 → Fin 2) h3 (constant (F := Ideal) S_ .f32 0x00000000#32)) = biasRelu a b := by
  funext i
  obtain ⟨p, q, rfl⟩ : ∃ (p : Fin 100000) (q : Fin 128), i = ix2 p q := ⟨i 0, i 1, eq_ix2 i⟩
  show max (a (ix2 p q) + broadcastInDim S100000x128 (![0, 1] : Fin 2 → Fin 2) h2 (broadcastInDim S1x128 (![1] : Fin 1 → Fin 2) h1 b) (ix2 p q))
      (broadcastInDim S100000x128 (![] : Fin 0 → Fin 2) h3 (constant (F := Ideal) S_ .f32 0x00000000#32) (ix2 p q))
    = max (a (ix2 p q) + b (ix1 q)) (Ideal.ofBits .f32 0x00000000#32)
  rw [rows_of_row_at, row_of_vec_at, splat_at]
  rfl

open Cert.KernelIdeal in
/-- The reference's last bias add is the specification's. -/
theorem bias (a : FVec Ideal S100000x64 .f32) (b : FVec Ideal S64 .f32)
    (h1 : S64.BroadcastsInDim S1x64 (![1] : Fin 1 → Fin 2)) (h2 : S1x64.BroadcastsInDim S100000x64 (![0, 1] : Fin 2 → Fin 2)) :
    addf a (broadcastInDim S100000x64 (![0, 1] : Fin 2 → Fin 2) h2 (broadcastInDim S1x64 (![1] : Fin 1 → Fin 2) h1 b)) = bias64 a b := by
  funext i
  obtain ⟨p, q, rfl⟩ : ∃ (p : Fin 100000) (q : Fin 64), i = ix2 p q := ⟨i 0, i 1, eq_ix2 i⟩
  show a (ix2 p q) + broadcastInDim S100000x64 (![0, 1] : Fin 2 → Fin 2) h2 (broadcastInDim S1x64 (![1] : Fin 1 → Fin 2) h1 b) (ix2 p q)
    = a (ix2 p q) + b (ix1 q)
  rw [rows_of_row_at, row_of_vec_at]

end Cert.Gcn.RefMath

end
-- ==== Proof.RefValue.lean ====
/-
  The reference program's result, stage by stage. With every operation's equation in hand, each intermediate buffer of
  the reference is one of the specification's whole-array functions of the six arguments' launch contents: the edges'
  sources and destinations, the in-degree and its inverse square root, the edges' norms (formed twice by the reference,
  once per layer, by the same operations), the two matrix products, the two aggregations and the two bias additions.
  The index arithmetic, the gathers and the scatter-adds are the specification's own operations applied to the same
  operands, so those stages close by unfolding; the products and the bias additions are read at an entry.
-/
import proofs.«177499_j80023830659516_1_alg».proof.Proof.RefOps
import proofs.«177499_j80023830659516_1_alg».proof.Proof.RefMath

noncomputable section

namespace Cert.Gcn.Ref

open Cert.ReferenceIdeal Cert.ReferenceIdeal.RunP Idealize.ShloMosaic Idealize.ShloMosaic.TcCoe Idealize.SL.Sem Idealize.ShloMosaic.StableHlo

variable (V : Valuation τ sig (Elt Ideal))

/-- The six arguments' launch contents. -/
abbrev feats : FVec Ideal Cert.KernelIdeal.S100000x128 .f32 := V (Proc.devRef .tc main_arg0)
abbrev edges : IVec Cert.KernelIdeal.S2x1600000 32 := V (Proc.devRef .tc main_arg1)
abbrev w1 : FVec Ideal Cert.KernelIdeal.S128x128 .f32 := V (Proc.devRef .tc main_arg2)
abbrev b1 : FVec Ideal Cert.KernelIdeal.S128 .f32 := V (Proc.devRef .tc main_arg3)
abbrev w2 : FVec Ideal Cert.KernelIdeal.S128x64 .f32 := V (Proc.devRef .tc main_arg4)
abbrev b2 : FVec Ideal Cert.KernelIdeal.S64 .f32 := V (Proc.devRef .tc main_arg5)

/-- The first layer's edge sources. -/
theorem src1 : (after (ops (F := Ideal)) V (Proc.devRef .tc main_v6)) = srcIdx (edges V) := by
  rw [at_main_v6 (F := Ideal) V,
    at_main_v5 (F := Ideal) V,
    at_main_v1 (F := Ideal) V,
    at_main_v0 (F := Ideal) V,
    kept_arg1 (F := Ideal) V]
  rfl

/-- The first layer's edge destinations. -/
theorem dst1 : (after (ops (F := Ideal)) V (Proc.devRef .tc main_v7)) = dstIdx (edges V) := by
  rw [at_main_v7 (F := Ideal) V,
    at_main_v5 (F := Ideal) V,
    at_main_v3 (F := Ideal) V,
    at_main_v2 (F := Ideal) V,
    kept_arg1 (F := Ideal) V]
  rfl

/-- The second layer's edge sources. -/
theorem src2 : (after (ops (F := Ideal)) V (Proc.devRef .tc main_v50)) = srcIdx (edges V) := by
  rw [at_main_v50 (F := Ideal) V,
    at_main_v49 (F := Ideal) V,
    at_main_v1 (F := Ideal) V,
    at_main_v0 (F := Ideal) V,
    kept_arg1 (F := Ideal) V]
  rfl

/-- The second layer's edge destinations. -/
theorem dst2 : (after (ops (F := Ideal)) V (Proc.devRef .tc main_v51)) = dstIdx (edges V) := by
  rw [at_main_v51 (F := Ideal) V,
    at_main_v49 (F := Ideal) V,
    at_main_v3 (F := Ideal) V,
    at_main_v2 (F := Ideal) V,
    kept_arg1 (F := Ideal) V]
  rfl

/-- The first layer's in-degrees. -/
theorem deg1 : (after (ops (F := Ideal)) V (Proc.devRef .tc main_v11)) = degOf (edges V) := by
  rw [at_main_v11 (F := Ideal) V,
    at_main_v10 (F := Ideal) V,
    at_main_v9 (F := Ideal) V,
    at_main_cst_0 (F := Ideal) V,
    at_main_v8 (F := Ideal) V,
    at_main_cst (F := Ideal) V,
    dst1 V]
  rfl

/-- The first layer's inverse square roots of the degrees. -/
theorem dinv1 : (after (ops (F := Ideal)) V (Proc.devRef .tc main_v15)) = dinvOf (edges V) := by
  rw [at_main_v15 (F := Ideal) V,
    at_main_call0_v1 (F := Ideal) V,
    at_main_call0_v0 (F := Ideal) V,
    at_main_cst_2 (F := Ideal) V,
    at_main_v14 (F := Ideal) V,
    at_main_v13 (F := Ideal) V,
    at_main_v12 (F := Ideal) V,
    at_main_cst_1 (F := Ideal) V,
    deg1 V]
  rfl

/-- The sources, wrapped, as the norm reads them. -/
theorem wsrc1a : (after (ops (F := Ideal)) V (Proc.devRef .tc main_v20)) = wrapIdx (srcIdx (edges V)) := by
  rw [at_main_v20 (F := Ideal) V,
    at_main_v19 (F := Ideal) V,
    at_main_v18 (F := Ideal) V,
    at_main_c_3 (F := Ideal) V,
    at_main_v17 (F := Ideal) V,
    at_main_v16 (F := Ideal) V,
    at_main_c (F := Ideal) V,
    src1 V]
  rfl

/-- The destinations, wrapped. -/
theorem wdst1 : (after (ops (F := Ideal)) V (Proc.devRef .tc main_v27)) = wrapIdx (dstIdx (edges V)) := by
  rw [at_main_v27 (F := Ideal) V,
    at_main_v26 (F := Ideal) V,
    at_main_v25 (F := Ideal) V,
    at_main_c_5 (F := Ideal) V,
    at_main_v24 (F := Ideal) V,
    at_main_v23 (F := Ideal) V,
    at_main_c_4 (F := Ideal) V,
    dst1 V]
  rfl

/-- The first layer's edge norms. -/
theorem norm1 : (after (ops (F := Ideal)) V (Proc.devRef .tc main_v30)) = edgeNorm (edges V) := by
  rw [at_main_v30 (F := Ideal) V,
    at_main_v29 (F := Ideal) V,
    at_main_v28 (F := Ideal) V,
    at_main_v22 (F := Ideal) V,
    at_main_v21 (F := Ideal) V,
    dinv1 V,
    wsrc1a V,
    wdst1 V]
  rfl

/-- The sources, wrapped, as the row gather reads them. -/
theorem wsrc1b : (after (ops (F := Ideal)) V (Proc.devRef .tc main_v35)) = wrapIdx (srcIdx (edges V)) := by
  rw [at_main_v35 (F := Ideal) V,
    at_main_v34 (F := Ideal) V,
    at_main_v33 (F := Ideal) V,
    at_main_c_7 (F := Ideal) V,
    at_main_v32 (F := Ideal) V,
    at_main_v31 (F := Ideal) V,
    at_main_c_6 (F := Ideal) V,
    src1 V]
  rfl

/-- The first product. -/
theorem h1 : (after (ops (F := Ideal)) V (Proc.devRef .tc main_v4)) = mm128 (feats V) (w1 V) := by
  rw [at_main_v4 (F := Ideal) V,
    kept_arg0 (F := Ideal) V,
    kept_arg2 (F := Ideal) V]
  exact RefMath.dot128 _ _

/-- The first aggregation. -/
theorem agg1 : (after (ops (F := Ideal)) V (Proc.devRef .tc main_v43)) = agg128 (after (ops (F := Ideal)) V (Proc.devRef .tc main_v4)) (edges V) := by
  rw [at_main_v43 (F := Ideal) V,
    at_main_v42 (F := Ideal) V,
    at_main_v41 (F := Ideal) V,
    at_main_cst_8 (F := Ideal) V,
    at_main_v40 (F := Ideal) V,
    at_main_v39 (F := Ideal) V,
    at_main_v38 (F := Ideal) V,
    at_main_v37 (F := Ideal) V,
    at_main_v36 (F := Ideal) V,
    dst1 V,
    wsrc1b V,
    norm1 V]
  rfl

/-- The first bias addition and the maximum with zero. -/
theorem relu : (after (ops (F := Ideal)) V (Proc.devRef .tc main_v47)) = biasRelu (after (ops (F := Ideal)) V (Proc.devRef .tc main_v43)) (b1 V) := by
  rw [at_main_v47 (F := Ideal) V,
    at_main_call1_v0 (F := Ideal) V,
    at_main_call1_cst (F := Ideal) V,
    at_main_v46 (F := Ideal) V,
    at_main_v45 (F := Ideal) V,
    at_main_v44 (F := Ideal) V,
    kept_arg3 (F := Ideal) V]
  exact RefMath.relu_bias _ _ _ _ _

/-- The second product. -/
theorem h2 : (after (ops (F := Ideal)) V (Proc.devRef .tc main_v48)) = mm64 (after (ops (F := Ideal)) V (Proc.devRef .tc main_v47)) (w2 V) := by
  rw [at_main_v48 (F := Ideal) V,
    kept_arg4 (F := Ideal) V]
  exact RefMath.dot64 _ _

/-- The second layer's in-degrees. -/
theorem deg2 : (after (ops (F := Ideal)) V (Proc.devRef .tc main_v55)) = degOf (edges V) := by
  rw [at_main_v55 (F := Ideal) V,
    at_main_v54 (F := Ideal) V,
    at_main_v53 (F := Ideal) V,
    at_main_cst_10 (F := Ideal) V,
    at_main_v52 (F := Ideal) V,
    at_main_cst_9 (F := Ideal) V,
    dst2 V]
  rfl

/-- The second layer's inverse square roots of the degrees. -/
theorem dinv2 : (after (ops (F := Ideal)) V (Proc.devRef .tc main_v59)) = dinvOf (edges V) := by
  rw [at_main_v59 (F := Ideal) V,
    at_main_call2_v1 (F := Ideal) V,
    at_main_call2_v0 (F := Ideal) V,
    at_main_cst_12 (F := Ideal) V,
    at_main_v58 (F := Ideal) V,
    at_main_v57 (F := Ideal) V,
    at_main_v56 (F := Ideal) V,
    at_main_cst_11 (F := Ideal) V,
    deg2 V]
  rfl

/-- The sources, wrapped, as the second norm reads them. -/
theorem wsrc2a : (after (ops (F := Ideal)) V (Proc.devRef .tc main_v64)) = wrapIdx (srcIdx (edges V)) := by
  rw [at_main_v64 (F := Ideal) V,
    at_main_v63 (F := Ideal) V,
    at_main_v62 (F := Ideal) V,
    at_main_c_14 (F := Ideal) V,
    at_main_v61 (F := Ideal) V,
    at_main_v60 (F := Ideal) V,
    at_main_c_13 (F := Ideal) V,
    src2 V]
  rfl

/-- The destinations, wrapped, in the second layer. -/
theorem wdst2 : (after (ops (F := Ideal)) V (Proc.devRef .tc main_v71)) = wrapIdx (dstIdx (edges V)) := by
  rw [at_main_v71 (F := Ideal) V,
    at_main_v70 (F := Ideal) V,
    at_main_v69 (F := Ideal) V,
    at_main_c_16 (F := Ideal) V,
    at_main_v68 (F := Ideal) V,
    at_main_v67 (F := Ideal) V,
    at_main_c_15 (F := Ideal) V,
    dst2 V]
  rfl

/-- The second layer's edge norms. -/
theorem norm2 : (after (ops (F := Ideal)) V (Proc.devRef .tc main_v74)) = edgeNorm (edges V) := by
  rw [at_main_v74 (F := Ideal) V,
    at_main_v73 (F := Ideal) V,
    at_main_v72 (F := Ideal) V,
    at_main_v66 (F := Ideal) V,
    at_main_v65 (F := Ideal) V,
    dinv2 V,
    wsrc2a V,
    wdst2 V]
  rfl

/-- The sources, wrapped, as the second row gather reads them. -/
theorem wsrc2b : (after (ops (F := Ideal)) V (Proc.devRef .tc main_v79)) = wrapIdx (srcIdx (edges V)) := by
  rw [at_main_v79 (F := Ideal) V,
    at_main_v78 (F := Ideal) V,
    at_main_v77 (F := Ideal) V,
    at_main_c_18 (F := Ideal) V,
    at_main_v76 (F := Ideal) V,
    at_main_v75 (F := Ideal) V,
    at_main_c_17 (F := Ideal) V,
    src2 V]
  rfl

/-- The second aggregation. -/
theorem agg2 : (after (ops (F := Ideal)) V (Proc.devRef .tc main_v87)) = agg64 (after (ops (F := Ideal)) V (Proc.devRef .tc main_v48)) (edges V) := by
  rw [at_main_v87 (F := Ideal) V,
    at_main_v86 (F := Ideal) V,
    at_main_v85 (F := Ideal) V,
    at_main_cst_19 (F := Ideal) V,
    at_main_v84 (F := Ideal) V,
    at_main_v83 (F := Ideal) V,
    at_main_v82 (F := Ideal) V,
    at_main_v81 (F := Ideal) V,
    at_main_v80 (F := Ideal) V,
    dst2 V,
    wsrc2b V,
    norm2 V]
  rfl

/-- The last bias addition. -/
theorem out : (after (ops (F := Ideal)) V (Proc.devRef .tc main_v90)) = bias64 (after (ops (F := Ideal)) V (Proc.devRef .tc main_v87)) (b2 V) := by
  rw [at_main_v90 (F := Ideal) V,
    at_main_v89 (F := Ideal) V,
    at_main_v88 (F := Ideal) V,
    kept_arg5 (F := Ideal) V]
  exact RefMath.bias _ _ _ _

/-- THE REFERENCE'S VALUE: after the 119 operations the result buffer holds the network of the six arguments' launch
    contents. -/
theorem value :
    after (ops (F := Ideal)) V (Proc.devRef .tc main_v90)
      = net (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  rw [out V, agg2 V, h2 V, relu V, agg1 V, h1 V]
  rfl

end Cert.Gcn.Ref

end
-- ==== Proof.lean ====
/-
  The certificate of a two-layer graph convolution: a Pallas program (four pallas_calls — two matrix products and two
  bias passes over 20 row blocks of 5000 nodes — among host stretches that form the edge norms and do the gather /
  scale / scatter-add aggregation) against its jnp reference.

  At the ideal instance both programs compute `Cert.Gcn.net` (Proof/Spec.lean) of the six arguments:
      out = bias64 (agg64 (mm64 (biasRelu (agg128 (mm128 x W1) e) b1) W2) e) b2.
  * The kernel program: each region's result array is the whole-array function of the two arrays the region is entered
    with (Proof/KReg0 … KReg3, from each body's stored value read at an entry, Proof/KPay); the host stretches between
    the regions are read at the buffers later segments use, and buffers a segment does not write are carried
    (Proof/KFold); the run itself is the frame's run with the result buffer read beside the arguments (Proof/KRun).
  * The reference: its 119 host operations in single-assignment form, read one operation at a time (Proof/RefOps,
    Proof/RefValue over Proof/RefRun); its two `dot_general`s are the sums Σ_k x(r, k) · w(k, q) that the kernels'
    products into a zero accumulator are, its bias adds and `relu` the specification's (Proof/RefMath).
  The gather, the scatter-add, the comparisons and the index arithmetic are the same operations on the same operands
  in both programs: no property of them is used, and no entry needs to be finite.
  The three frames: the two kernel programs' are the generated frame certificates; the reference's is its run with
  the result dropped. `preserves` is `True`: the ideal pass rewrote nothing.
-/
import proofs.«177499_j80023830659516_1_alg».proof.Defs
import proofs.«177499_j80023830659516_1_alg».proof.Proof.Gen.Kernel
import proofs.«177499_j80023830659516_1_alg».proof.Proof.Gen.Kernel.Skeleton
import proofs.«177499_j80023830659516_1_alg».proof.Proof.Gen.Kernel.Launch
import proofs.«177499_j80023830659516_1_alg».proof.Proof.Gen.Kernel.Points
import proofs.«177499_j80023830659516_1_alg».proof.Proof.Gen.Kernel.Frame
import proofs.«177499_j80023830659516_1_alg».proof.Proof.Gen.KernelIdeal
import proofs.«177499_j80023830659516_1_alg».proof.Proof.Gen.KernelIdeal.Skeleton
import proofs.«177499_j80023830659516_1_alg».proof.Proof.Gen.KernelIdeal.Launch
import proofs.«177499_j80023830659516_1_alg».proof.Proof.Gen.KernelIdeal.Points
import proofs.«177499_j80023830659516_1_alg».proof.Proof.Gen.KernelIdeal.Frame
import proofs.«177499_j80023830659516_1_alg».proof.Proof.Gen.ReferenceIdeal
import proofs.«177499_j80023830659516_1_alg».proof.Proof.Gen.Pre_finite_inputs
import proofs.«177499_j80023830659516_1_alg».proof.Proof.KRun
import proofs.«177499_j80023830659516_1_alg».proof.Proof.KFold
import proofs.«177499_j80023830659516_1_alg».proof.Proof.RefRun
import proofs.«177499_j80023830659516_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments: the generated frame certificate. -/
theorem frame_kernel : Cert.frame_Kernel := fun m ρ _ => Cert.Kernel.Gen.frame m ρ

/-- The idealized kernel program runs and leaves its arguments: the generated frame certificate. -/
theorem frame_kernelIdeal : Cert.frame_KernelIdeal := fun m ρ _ => Cert.KernelIdeal.Gen.frame m ρ

/-- The reference runs and leaves its arguments: no operation writes an argument buffer. -/
theorem frame_reference : Cert.frame_ReferenceIdeal := fun m ρ _ =>
  (θ_run Cert.ReferenceIdeal.defs _ _).mono (fun _ h c =>
    ⟨(h c Cert.ReferenceIdeal.main_arg0).trans (Cert.Gcn.Ref.kept_arg0 _),
     (h c Cert.ReferenceIdeal.main_arg1).trans (Cert.Gcn.Ref.kept_arg1 _),
     (h c Cert.ReferenceIdeal.main_arg2).trans (Cert.Gcn.Ref.kept_arg2 _),
     (h c Cert.ReferenceIdeal.main_arg3).trans (Cert.Gcn.Ref.kept_arg3 _),
     (h c Cert.ReferenceIdeal.main_arg4).trans (Cert.Gcn.Ref.kept_arg4 _),
     (h c Cert.ReferenceIdeal.main_arg5).trans (Cert.Gcn.Ref.kept_arg5 _)⟩)
    (Cert.ReferenceIdeal.RunP.run_all (F := Ideal) m ρ)

/-- Both idealized programs end with the network of the (agreeing) arguments in their result buffer. -/
theorem algebraic : Cert.algebraic_KernelIdeal_ReferenceIdeal := by
  intro m ρ m' ρ' _ hagree
  refine ⟨fun c => Cert.Gcn.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono (fun r h c => ⟨(h c).1.trans (Cert.Gcn.Fold.W9_v59 m ρ c), (h c).2⟩)
      (Cert.KernelIdeal.Run.run_result (F := Ideal) m ρ)
  · refine (θ_run Cert.ReferenceIdeal.defs _ _).mono (fun r h c =>
      ⟨?_,
       (h c Cert.ReferenceIdeal.main_arg0).trans (Cert.Gcn.Ref.kept_arg0 _),
       (h c Cert.ReferenceIdeal.main_arg1).trans (Cert.Gcn.Ref.kept_arg1 _),
       (h c Cert.ReferenceIdeal.main_arg2).trans (Cert.Gcn.Ref.kept_arg2 _),
       (h c Cert.ReferenceIdeal.main_arg3).trans (Cert.Gcn.Ref.kept_arg3 _),
       (h c Cert.ReferenceIdeal.main_arg4).trans (Cert.Gcn.Ref.kept_arg4 _),
       (h c Cert.ReferenceIdeal.main_arg5).trans (Cert.Gcn.Ref.kept_arg5 _)⟩)
      (Cert.ReferenceIdeal.RunP.run_all (F := Ideal) m' ρ')
    refine ((h c Cert.ReferenceIdeal.main_v90).trans (Cert.Gcn.Ref.value _)).trans ?_
    show Cert.Gcn.net (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)) = _
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
